-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x160000 : Shape := ⟨2, ![2, 160000]⟩
abbrev S128x256 : Shape := ⟨2, ![128, 256]⟩
abbrev S1x2x128 : Shape := ⟨3, ![1, 2, 128]⟩
abbrev S512 : Shape := ⟨1, ![512]⟩
abbrev S512x512 : Shape := ⟨2, ![512, 512]⟩
abbrev S1x4x128 : Shape := ⟨3, ![1, 4, 128]⟩
abbrev S128 : Shape := ⟨1, ![128]⟩
abbrev S512x1024 : Shape := ⟨2, ![512, 1024]⟩
abbrev S1024 : Shape := ⟨1, ![1024]⟩
abbrev S1024x512 : Shape := ⟨2, ![1024, 512]⟩
abbrev S512x1 : Shape := ⟨2, ![512, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S1x2x128 : S_.BroadcastsInDim S1x2x128 (![] : Fin 0 → Fin S1x2x128.rank)
  reducesTo_S1x2x128_S_d0_1_2 : S1x2x128.ReducesTo [0, 1, 2] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1x4x128 : S_.BroadcastsInDim S1x4x128 (![] : Fin 0 → Fin S1x4x128.rank)
  reducesTo_S1x4x128_S_d0_1_2 : S1x4x128.ReducesTo [0, 1, 2] S_
  bcast_S_S128 : S_.BroadcastsInDim S128 (![] : Fin 0 → Fin S128.rank)
  reducesTo_S128_S_d0 : S128.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S512x1 .f32) (main_arg16 : FVec F S1 .f32) (main_v63 : IVec S_ 1) (main_v67 : IVec S_ 1) : IVec S_ 1 :=
  let main_v68 : IVec S_ 1 := andi main_v63 main_v67
  let main_v69 : FVec F S512x1 .f32 := Host.absf main_arg15
  let main_cst_26 : FVec F S_ .f32 := constant S_ .f32 0x7F800000#32
  let main_v70 : FVec F S512x1 .f32 := broadcastInDim S512x1 ![] bcast_S_S512x1 main_cst_26
  let main_v71 : IVec S512x1 1 := cmpf .olt main_v69 main_v70
  let main_c_27 : IVec S_ 1 := constantI S_ 1 1#1
  let main_v72 : IVec S_ 1 := (fun x v => Host.reduce IntOp.andi x v reducesTo_S512x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S1024 .f32) (main_arg13 : FVec F S1024x512 .f32) (main_arg14 : FVec F S512 .f32) (main_arg15 : FVec F S512x1 .f32) (main_arg16 : FVec F S1 .f32) (main_v48 : IVec S_ 1) (main_v49 : FVec F S512x1024 .f32) (main_v50 : FVec F S512x1024 .f32) : IVec S_ 1 :=
  let main_v51 : IVec S512x1024 1 := cmpf .olt main_v49 main_v50
  let main_c_19 : IVec S_ 1 := constantI S_ 1 1#1
  let main_v52 : IVec S_ 1 := (fun x v => Host.reduce IntOp.andi x v reducesTo_S512x1024_S_d0_1 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x512 .f32 := Host.absf main_arg13
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg15 main_arg16 main_v63 main_v67

def fn_part2 {F : FTy → Type} [FloatOps F] (main_arg8 : FVec F S1x4x128 .f32) (main_arg9 : FVec F S1x4x128 .f32) (main_arg10 : FVec F S128 .f32) (main_arg11 : FVec F S512x1024 .f32) (main_arg12 : FVec F S1024 .f32) (main_arg13 : FVec F S1024x512 .f32) (main_arg14 : FVec F S512 .f32) (main_arg15 : FVec F S512x1 .f32) (main_arg16 : FVec F S1 .f32) (main_v33 : IVec S_ 1) : IVec S_ 1 :=
  let main_v34 : FVec F S1x4x128 .f32 := Host.absf main_arg8
  let main_cst_12 : FVec F S_ .f32 := constant S_ .f32 0x7F800000#32
  let main_v35 : FVec F S1x4x128 .f32 := broadcastInDim S1x4x128 ![] bcast_S_S1x4x128 main_cst_12
  let main_v36 : IVec S1x4x128 1 := cmpf .olt main_v34 main_v35
  let main_c_13 : IVec S_ 1 := constantI S_ 1 1#1
  let main_v37 : IVec S_ 1 := (fun x v => Host.reduce IntOp.andi x v reducesTo_S1x4x128_S_d0_1_2 h_S_) main_v36 main_c_13
  let main_v38 : IVec S_ 1 := andi main_v33 main_v37
  let main_v39 : FVec F S1x4x128 .f32 := Host.absf main_arg9
  let main_cst_14 : FVec F S_ .f32 := constant S_ .f32 0x7F800000#32
  let main_v40 : FVec F S1x4x128 .f32 := broadcastInDim S1x4x128 ![] bcast_S_S1x4x128 main_cst_14
  let main_v41 : IVec S1x4x128 1 := cmpf .olt main_v39 main_v40
  let main_c_15 : IVec S_ 1 := constantI S_ 1 1#1
  let main_v42 : IVec S_ 1 := (fun x v => Host.reduce IntOp.andi x v reducesTo_S1x4x128_S_d0_1_2 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S512x1024 .f32 := Host.absf main_arg11
  let main_cst_18 : FVec F S_ .f32 := constant S_ .f32 0x7F800000#32
  let main_v50 : FVec F S512x1024 .f32 := broadcastInDim S512x1024 ![] bcast_S_S512x1024 main_cst_18
  fn_part3 (F := F) main_arg12 main_arg13 main_arg14 main_arg15 main_arg16 main_v48 main_v49 main_v50

def fn_part1 {F : FTy → Type} [FloatOps F] (main_arg5 : FVec F S1x2x128 .f32) (main_arg6 : FVec F S512 .f32) (main_arg7 : FVec F S512x512 .f32) (main_arg8 : FVec F S1x4x128 .f32) (main_arg9 : FVec F S1x4x128 .f32) (main_arg10 : FVec F S128 .f32) (main_arg11 : FVec F S512x1024 .f32) (main_arg12 : FVec F S1024 .f32) (main_arg13 : FVec F S1024x512 .f32) (main_arg14 : FVec F S512 .f32) (main_arg15 : FVec F S512x1 .f32) (main_arg16 : FVec F S1 .f32) (main_v13 : IVec S_ 1) (main_v16 : IVec S1x2x128 1) : IVec S_ 1 :=
  let main_c_5 : IVec S_ 1 := constantI S_ 1 1#1
  let main_v17 : IVec S_ 1 := (fun x v => Host.reduce IntOp.andi x v reducesTo_S1x2x128_S_d0_1_2 h_S_) main_v16 main_c_5
  let main_v18 : IVec S_ 1 := andi main_v13 main_v17
  let main_v19 : FVec F S1x2x128 .f32 := Host.absf main_arg5
  let main_cst_6 : FVec F S_ .f32 := constant S_ .f32 0x7F800000#32
  let main_v20 : FVec F S1x2x128 .f32 := broadcastInDim S1x2x128 ![] bcast_S_S1x2x128 main_cst_6
  let main_v21 : IVec S1x2x128 1 := cmpf .olt main_v19 main_v20
  let main_c_7 : IVec S_ 1 := constantI S_ 1 1#1
  let main_v22 : IVec S_ 1 := (fun x v => Host.reduce IntOp.andi x v reducesTo_S1x2x128_S_d0_1_2 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S10000x128 .f32) (main_arg1 : IVec S2x160000 32) (main_arg2 : FVec F S10000x128 .f32) (main_arg3 : FVec F S128x256 .f32) (main_arg4 : FVec F S1x2x128 .f32) (main_arg5 : FVec F S1x2x128 .f32) (main_arg6 : FVec F S512 .f32) (main_arg7 : FVec F S512x512 .f32) (main_arg8 : FVec F S1x4x128 .f32) (main_arg9 : FVec F S1x4x128 .f32) (main_arg10 : FVec F S128 .f32) (main_arg11 : FVec F S512x1024 .f32) (main_arg12 : FVec F S1024 .f32) (main_arg13 : FVec F S1024x512 .f32) (main_arg14 : FVec F S512 .f32) (main_arg15 : FVec F S512x1 .f32) (main_arg16 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg2
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S1x2x128 .f32 := Host.absf main_arg4
  let main_cst_4 : FVec F S_ .f32 := constant S_ .f32 0x7F800000#32
  let main_v15 : FVec F S1x2x128 .f32 := broadcastInDim S1x2x128 ![] bcast_S_S1x2x128 main_cst_4
  let main_v16 : IVec S1x2x128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S10000x128 : Shape := ⟨2, ![10000, 128]⟩
abbrev S2x160000 : Shape := ⟨2, ![2, 160000]⟩
abbrev S128x256 : Shape := ⟨2, ![128, 256]⟩
abbrev S1x2x128 : Shape := ⟨3, ![1, 2, 128]⟩
abbrev S512 : Shape := ⟨1, ![512]⟩
abbrev S512x512 : Shape := ⟨2, ![512, 512]⟩
abbrev S1x4x128 : Shape := ⟨3, ![1, 4, 128]⟩
abbrev S128 : Shape := ⟨1, ![128]⟩
abbrev S512x1024 : Shape := ⟨2, ![512, 1024]⟩
abbrev S1024 : Shape := ⟨1, ![1024]⟩
abbrev S1024x512 : Shape := ⟨2, ![1024, 512]⟩
abbrev S512x1 : Shape := ⟨2, ![512, 1]⟩
abbrev S1 : Shape := ⟨1, ![1]⟩
abbrev S1x160000 : Shape := ⟨2, ![1, 160000]⟩
abbrev S160000 : Shape := ⟨1, ![160000]⟩
abbrev S10000x256 : Shape := ⟨2, ![10000, 256]⟩
abbrev S2000x128 : Shape := ⟨2, ![2000, 128]⟩
abbrev S2000x256 : Shape := ⟨2, ![2000, 256]⟩
abbrev S10000x2x128 : Shape := ⟨3, ![10000, 2, 128]⟩
abbrev S_ : Shape := ⟨0, ![]⟩
abbrev S10000x2 : Shape := ⟨2, ![10000, 2]⟩
abbrev S160000x1 : Shape := ⟨2, ![160000, 1]⟩
abbrev S160000x2 : Shape := ⟨2, ![160000, 2]⟩
abbrev S160000x2x1 : Shape := ⟨3, ![160000, 2, 1]⟩
abbrev S160000x2x128 : Shape := ⟨3, ![160000, 2, 128]⟩
abbrev S10000x1x128 : Shape := ⟨3, ![10000, 1, 128]⟩
abbrev S10000x2x256 : Shape := ⟨3, ![10000, 2, 256]⟩
abbrev S10000x512 : Shape := ⟨2, ![10000, 512]⟩
abbrev S1x512 : Shape := ⟨2, ![1, 512]⟩
abbrev S2000x512 : Shape := ⟨2, ![2000, 512]⟩
abbrev S10000x4x128 : Shape := ⟨3, ![10000, 4, 128]⟩
abbrev S10000x4 : Shape := ⟨2, ![10000, 4]⟩
abbrev S160000x4 : Shape := ⟨2, ![160000, 4]⟩
abbrev S160000x4x1 : Shape := ⟨3, ![160000, 4, 1]⟩
abbrev S160000x4x128 : Shape := ⟨3, ![160000, 4, 128]⟩
abbrev S1x128 : Shape := ⟨2, ![1, 128]⟩
abbrev S160000x128 : Shape := ⟨2, ![160000, 128]⟩
abbrev S1600x128 : Shape := ⟨2, ![1600, 128]⟩
abbrev S1600x1 : Shape := ⟨2, ![1600, 1]⟩
abbrev S1600x512 : Shape := ⟨2, ![1600, 512]⟩
abbrev S1600x1024 : Shape := ⟨2, ![1600, 1024]⟩
abbrev S1x1024 : Shape := ⟨2, ![1, 1024]⟩
abbrev S1600 : Shape := ⟨1, ![1600]⟩
abbrev S1x1 : Shape := ⟨2, ![1, 1]⟩

abbrev nBuf : Space → Nat
  | .hbm => 242
  | .vmem => 22
  | .smem => 0
  | _ => 0

abbrev hbmTy0_0 (i : Nat) : BufTy := match i % 128 with
  | 0 => ⟨S10000x128, .f32⟩
  | 1 => ⟨S2x160000, .i32⟩
  | 2 => ⟨S10000x128, .f32⟩
  | 3 => ⟨S128x256, .f32⟩
  | 4 => ⟨S1x2x128, .f32⟩
  | 5 => ⟨S1x2x128, .f32⟩
  | 6 => ⟨S512, .f32⟩
  | 7 => ⟨S512x512, .f32⟩
  | 8 => ⟨S1x4x128, .f32⟩
  | 9 => ⟨S1x4x128, .f32⟩
  | 10 => ⟨S128, .f32⟩
  | 11 => ⟨S512x1024, .f32⟩
  | 12 => ⟨S1024, .f32⟩
  | 13 => ⟨S1024x512, .f32⟩
  | 14 => ⟨S512, .f32⟩
  | 15 => ⟨S512x1, .f32⟩
  | 16 => ⟨S1, .f32⟩
  | 17 => ⟨S1x160000, .i32⟩
  | 18 => ⟨S160000, .i32⟩
  | 19 => ⟨S1x160000, .i32⟩
  | 20 => ⟨S160000, .i32⟩
  | 21 => ⟨S10000x128, .bf16⟩
  | 22 => ⟨S128x256, .bf16⟩
  | 23 => ⟨S10000x256, .f32⟩
  | 24 => ⟨S10000x2x128, .f32⟩
  | 25 => ⟨S10000x2x128, .f32⟩
  | 26 => ⟨S10000x2x128, .f32⟩
  | 27 => ⟨S_, .f32⟩
  | 28 => ⟨S10000x2, .f32⟩
  | 29 => ⟨S10000x2x128, .f32⟩
  | 30 => ⟨S10000x2x128, .f32⟩
  | 31 => ⟨S_, .f32⟩
  | 32 => ⟨S10000x2, .f32⟩
  | 33 => ⟨S_, .i32⟩
  | 34 => ⟨S160000, .i32⟩
  | 35 => ⟨S160000, .i1⟩
  | 36 => ⟨S_, .i32⟩
  | 37 => ⟨S160000, .i32⟩
  | 38 => ⟨S160000, .i32⟩
  | 39 => ⟨S160000, .i32⟩
  | 40 => ⟨S160000x1, .i32⟩
  | 41 => ⟨S160000x2, .f32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S160000x2, .f32⟩
  | 51 => ⟨S160000x2, .f32⟩
  | 52 => ⟨S_, .f32⟩
  | 53 => ⟨S_, .f32⟩
  | 54 => ⟨S160000x2, .f32⟩
  | 55 => ⟨S160000x2, .i1⟩
  | 56 => ⟨S_, .f32⟩
  | 57 => ⟨S160000x2, .f32⟩
  | 58 => ⟨S160000x2, .f32⟩
  | 59 => ⟨S160000x2, .f32⟩
  | 60 => ⟨S_, .f32⟩
  | 61 => ⟨S_, .f32⟩
  | 62 => ⟨S160000x2, .f32⟩
  | 63 => ⟨S160000x2, .f32⟩
  | 64 => ⟨S160000x2, .f32⟩
  | 65 => ⟨S_, .f32⟩
  | 66 => ⟨S10000x2, .f32⟩
  | 67 => ⟨S160000x1, .i32⟩
  | 68 => ⟨S10000x2, .f32⟩
  | 69 => ⟨S_, .i32⟩
  | 70 => ⟨S160000, .i32⟩
  | 71 => ⟨S160000, .i1⟩
  | 72 => ⟨S_, .i32⟩
  | 73 => ⟨S160000, .i32⟩
  | 74 => ⟨S160000, .i32⟩
  | 75 => ⟨S160000, .i32⟩
  | 76 => ⟨S160000x1, .i32⟩
  | 77 => ⟨S160000x2, .f32⟩
  | 78 => ⟨S_, .f32⟩
  | 79 => ⟨S160000x2, .f32⟩
  | 80 => ⟨S160000x2, .f32⟩
  | 81 => ⟨S160000x2, .f32⟩
  | 82 => ⟨S160000x2x1, .f32⟩
  | 83 => ⟨S_, .i32⟩
  | 84 => ⟨S160000, .i32⟩
  | 85 => ⟨S160000, .i1⟩
  | 86 => ⟨S_, .i32⟩
  | 87 => ⟨S160000, .i32⟩
  | 88 => ⟨S160000, .i32⟩
  | 89 => ⟨S160000, .i32⟩
  | 90 => ⟨S160000x1, .i32⟩
  | 91 => ⟨S160000x2x128, .f32⟩
  | 92 => ⟨S160000x2x128, .f32⟩
  | 93 => ⟨S160000x2x128, .f32⟩
  | 94 => ⟨S_, .f32⟩
  | 95 => ⟨S10000x2x128, .f32⟩
  | 96 => ⟨S160000x1, .i32⟩
  | 97 => ⟨S10000x2x128, .f32⟩
  | 98 => ⟨S10000x1x128, .f32⟩
  | 99 => ⟨S10000x2x128, .f32⟩
  | 100 => ⟨S10000x2x256, .f32⟩
  | 101 => ⟨S10000x512, .f32⟩
  | 102 => ⟨S1x512, .f32⟩
  | 103 => ⟨S10000x512, .f32⟩
  | 104 => ⟨S10000x512, .f32⟩
  | 105 => ⟨S_, .f32⟩
  | 106 => ⟨S10000x512, .f32⟩
  | 107 => ⟨S10000x512, .i1⟩
  | 108 => ⟨S_, .f32⟩
  | 109 => ⟨S10000x512, .f32⟩
  | 110 => ⟨S10000x512, .i1⟩
  | 111 => ⟨S_, .f32⟩
  | 112 => ⟨S_, .f32⟩
  | 113 => ⟨S10000x512, .f32⟩
  | 114 => ⟨S10000x512, .f32⟩
  | 115 => ⟨S10000x512, .f32⟩
  | 116 => ⟨S_, .f32⟩
  | 117 => ⟨S10000x512, .f32⟩
  | 118 => ⟨S10000x512, .f32⟩
  | 119 => ⟨S10000x512, .f32⟩
  | 120 => ⟨S10000x512, .bf16⟩
  | 121 => ⟨S512x512, .bf16⟩
  | 122 => ⟨S10000x512, .f32⟩
  | 123 => ⟨S10000x4x128, .f32⟩
  | 124 => ⟨S10000x4x128, .f32⟩
  | 125 => ⟨S10000x4x128, .f32⟩
  | 126 => ⟨S_, .f32⟩
  | 127 => ⟨S10000x4, .f32⟩
  | _ => ⟨S10000x128, .f32⟩

abbrev hbmTy0_1 (i : Nat) : BufTy := match i % 128 with
  | 0 => ⟨S10000x4x128, .f32⟩
  | 1 => ⟨S10000x4x128, .f32⟩
  | 2 => ⟨S_, .f32⟩
  | 3 => ⟨S10000x4, .f32⟩
  | 4 => ⟨S_, .i32⟩
  | 5 => ⟨S160000, .i32⟩
  | 6 => ⟨S160000, .i1⟩
  | 7 => ⟨S_, .i32⟩
  | 8 => ⟨S160000, .i32⟩
  | 9 => ⟨S160000, .i32⟩
  | 10 => ⟨S160000, .i32⟩
  | 11 => ⟨S160000x1, .i32⟩
  | 12 => ⟨S160000x4, .f32⟩
  | 13 => ⟨S_, .i32⟩
  | 14 => ⟨S160000, .i32⟩
  | 15 => ⟨S160000, .i1⟩
  | 16 => ⟨S_, .i32⟩
  | 17 => ⟨S160000, .i32⟩
  | 18 => ⟨S160000, .i32⟩
  | 19 => ⟨S160000, .i32⟩
  | 20 => ⟨S160000x1, .i32⟩
  | 21 => ⟨S160000x4, .f32⟩
  | 22 => ⟨S160000x4, .f32⟩
  | 23 => ⟨S_, .f32⟩
  | 24 => ⟨S_, .f32⟩
  | 25 => ⟨S160000x4, .f32⟩
  | 26 => ⟨S160000x4, .i1⟩
  | 27 => ⟨S_, .f32⟩
  | 28 => ⟨S160000x4, .f32⟩
  | 29 => ⟨S160000x4, .f32⟩
  | 30 => ⟨S160000x4, .f32⟩
  | 31 => ⟨S_, .f32⟩
  | 32 => ⟨S_, .f32⟩
  | 33 => ⟨S160000x4, .f32⟩
  | 34 => ⟨S160000x4, .f32⟩
  | 35 => ⟨S160000x4, .f32⟩
  | 36 => ⟨S_, .f32⟩
  | 37 => ⟨S10000x4, .f32⟩
  | 38 => ⟨S160000x1, .i32⟩
  | 39 => ⟨S10000x4, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000x4, .f32⟩
  | 49 => ⟨S_, .f32⟩
  | 50 => ⟨S160000x4, .f32⟩
  | 51 => ⟨S160000x4, .f32⟩
  | 52 => ⟨S160000x4, .f32⟩
  | 53 => ⟨S160000x4x1, .f32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S160000x1, .i32⟩
  | 62 => ⟨S160000x4x128, .f32⟩
  | 63 => ⟨S160000x4x128, .f32⟩
  | 64 => ⟨S160000x4x128, .f32⟩
  | 65 => ⟨S_, .f32⟩
  | 66 => ⟨S10000x4x128, .f32⟩
  | 67 => ⟨S160000x1, .i32⟩
  | 68 => ⟨S10000x4x128, .f32⟩
  | 69 => ⟨S_, .f32⟩
  | 70 => ⟨S10000x128, .f32⟩
  | 71 => ⟨S_, .f32⟩
  | 72 => ⟨S10000x128, .f32⟩
  | 73 => ⟨S10000x128, .f32⟩
  | 74 => ⟨S1x128, .f32⟩
  | 75 => ⟨S10000x128, .f32⟩
  | 76 => ⟨S10000x128, .f32⟩
  | 77 => ⟨S_, .f32⟩
  | 78 => ⟨S10000x128, .f32⟩
  | 79 => ⟨S10000x128, .i1⟩
  | 80 => ⟨S_, .f32⟩
  | 81 => ⟨S10000x128, .f32⟩
  | 82 => ⟨S10000x128, .i1⟩
  | 83 => ⟨S_, .f32⟩
  | 84 => ⟨S_, .f32⟩
  | 85 => ⟨S10000x128, .f32⟩
  | 86 => ⟨S10000x128, .f32⟩
  | 87 => ⟨S10000x128, .f32⟩
  | 88 => ⟨S_, .f32⟩
  | 89 => ⟨S10000x128, .f32⟩
  | 90 => ⟨S10000x128, .f32⟩
  | 91 => ⟨S10000x128, .f32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x128, .f32⟩
  | 101 => ⟨S_, .i32⟩
  | 102 => ⟨S160000, .i32⟩
  | 103 => ⟨S160000, .i1⟩
  | 104 => ⟨S_, .i32⟩
  | 105 => ⟨S160000, .i32⟩
  | 106 => ⟨S160000, .i32⟩
  | 107 => ⟨S160000, .i32⟩
  | 108 => ⟨S160000x1, .i32⟩
  | 109 => ⟨S160000x128, .f32⟩
  | 110 => ⟨S1x512, .f32⟩
  | 111 => ⟨S512x1024, .bf16⟩
  | 112 => ⟨S1024x512, .bf16⟩
  | 113 => ⟨S160000x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2000x128, .bf16⟩
  | .local _ .vmem, ⟨1, _⟩ => ⟨S2000x128, .bf16⟩
  | .local _ .vmem, ⟨2, _⟩ => ⟨S128x256, .bf16⟩
  | .local _ .vmem, ⟨3, _⟩ => ⟨S2000x256, .f32⟩
  | .local _ .vmem, ⟨4, _⟩ => ⟨S2000x256, .f32⟩
  | .local _ .vmem, ⟨5, _⟩ => ⟨S2000x512, .bf16⟩
  | .local _ .vmem, ⟨6, _⟩ => ⟨S2000x512, .bf16⟩
  | .local _ .vmem, ⟨7, _⟩ => ⟨S512x512, .bf16⟩
  | .local _ .vmem, ⟨8, _⟩ => ⟨S2000x512, .f32⟩
  | .local _ .vmem, ⟨9, _⟩ => ⟨S2000x512, .f32⟩
  | .local _ .vmem, ⟨10, _⟩ => ⟨S1600x128, .f32⟩
  | .local _ .vmem, ⟨11, _⟩ => ⟨S1600x128, .f32⟩
  | .local _ .vmem, ⟨12, _⟩ => ⟨S1600x128, .f32⟩
  | .local _ .vmem, ⟨13, _⟩ => ⟨S1600x128, .f32⟩
  | .local _ .vmem, ⟨14, _⟩ => ⟨S512x1024, .bf16⟩
  | .local _ .vmem, ⟨15, _⟩ => ⟨S1024, .f32⟩
  | .local _ .vmem, ⟨16, _⟩ => ⟨S1024x512, .bf16⟩
  | .local _ .vmem, ⟨17, _⟩ => ⟨S512, .f32⟩
  | .local _ .vmem, ⟨18, _⟩ => ⟨S1x512, .f32⟩
  | .local _ .vmem, ⟨19, _⟩ => ⟨S1, .f32⟩
  | .local _ .vmem, ⟨20, _⟩ => ⟨S1600x1, .f32⟩
  | .local _ .vmem, ⟨21, _⟩ => ⟨S1600x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_c_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_6 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_7 : Ref sig .tc := ⟨.hbm, 69, rfl⟩
abbrev main_v37 : Ref sig .tc := ⟨.hbm, 70, rfl⟩
abbrev main_v38 : Ref sig .tc := ⟨.hbm, 71, rfl⟩
abbrev main_c_8 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_9 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_10 : Ref sig .tc := ⟨.hbm, 83, rfl⟩
abbrev main_v48 : Ref sig .tc := ⟨.hbm, 84, rfl⟩
abbrev main_v49 : Ref sig .tc := ⟨.hbm, 85, rfl⟩
abbrev main_c_11 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_12 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_cst_1 : Ref sig .tc := ⟨.hbm, 111, rfl⟩
abbrev main_call1_call0_v0 : Ref sig .tc := ⟨.hbm, 112, rfl⟩
abbrev main_call1_call0_v1 : Ref sig .tc := ⟨.hbm, 113, rfl⟩
abbrev main_call1_v4 : Ref sig .tc := ⟨.hbm, 114, rfl⟩
abbrev main_call1_v5 : Ref sig .tc := ⟨.hbm, 115, rfl⟩
abbrev main_call1_cst_2 : Ref sig .tc := ⟨.hbm, 116, rfl⟩
abbrev main_call1_v6 : Ref sig .tc := ⟨.hbm, 117, rfl⟩
abbrev main_call1_v7 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_13 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_14 : Ref sig .tc := ⟨.hbm, 130, rfl⟩
abbrev main_v77 : Ref sig .tc := ⟨.hbm, 131, rfl⟩
abbrev main_c_15 : Ref sig .tc := ⟨.hbm, 132, rfl⟩
abbrev main_v78 : Ref sig .tc := ⟨.hbm, 133, rfl⟩
abbrev main_v79 : Ref sig .tc := ⟨.hbm, 134, rfl⟩
abbrev main_c_16 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c_17 : Ref sig .tc := ⟨.hbm, 141, rfl⟩
abbrev main_v85 : Ref sig .tc := ⟨.hbm, 142, rfl⟩
abbrev main_v86 : Ref sig .tc := ⟨.hbm, 143, rfl⟩
abbrev main_c_18 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_19 : Ref sig .tc := ⟨.hbm, 151, rfl⟩
abbrev main_call2_cst : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_v93 : Ref sig .tc := ⟨.hbm, 158, rfl⟩
abbrev main_cst_20 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_cst_21 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_c_22 : Ref sig .tc := ⟨.hbm, 168, rfl⟩
abbrev main_v101 : Ref sig .tc := ⟨.hbm, 169, rfl⟩
abbrev main_v102 : Ref sig .tc := ⟨.hbm, 170, rfl⟩
abbrev main_c_23 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_cst_24 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_c_25 : Ref sig .tc := ⟨.hbm, 182, rfl⟩
abbrev main_v112 : Ref sig .tc := ⟨.hbm, 183, rfl⟩
abbrev main_v113 : Ref sig .tc := ⟨.hbm, 184, rfl⟩
abbrev main_c_26 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_cst_27 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_28 : Ref sig .tc := ⟨.hbm, 197, rfl⟩
abbrev main_v124 : Ref sig .tc := ⟨.hbm, 198, rfl⟩
abbrev main_cst_29 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_call3_cst : Ref sig .tc := ⟨.hbm, 205, rfl⟩
abbrev main_call3_v0 : Ref sig .tc := ⟨.hbm, 206, rfl⟩
abbrev main_call3_v1 : Ref sig .tc := ⟨.hbm, 207, rfl⟩
abbrev main_call3_cst_0 : Ref sig .tc := ⟨.hbm, 208, rfl⟩
abbrev main_call3_v2 : Ref sig .tc := ⟨.hbm, 209, rfl⟩
abbrev main_call3_v3 : Ref sig .tc := ⟨.hbm, 210, rfl⟩
abbrev main_call3_cst_1 : Ref sig .tc := ⟨.hbm, 211, rfl⟩
abbrev main_call3_call0_v0 : Ref sig .tc := ⟨.hbm, 212, rfl⟩
abbrev main_call3_call0_v1 : Ref sig .tc := ⟨.hbm, 213, rfl⟩
abbrev main_call3_v4 : Ref sig .tc := ⟨.hbm, 214, rfl⟩
abbrev main_call3_v5 : Ref sig .tc := ⟨.hbm, 215, rfl⟩
abbrev main_call3_cst_2 : Ref sig .tc := ⟨.hbm, 216, rfl⟩
abbrev main_call3_v6 : Ref sig .tc := ⟨.hbm, 217, rfl⟩
abbrev main_call3_v7 : Ref sig .tc := ⟨.hbm, 218, rfl⟩
abbrev main_v130 : Ref sig .tc := ⟨.hbm, 219, rfl⟩
abbrev main_c_30 : Ref sig .tc := ⟨.hbm, 220, rfl⟩
abbrev main_v131 : Ref sig .tc := ⟨.hbm, 221, rfl⟩
abbrev main_v132 : Ref sig .tc := ⟨.hbm, 222, rfl⟩
abbrev main_c_31 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_c_32 : Ref sig .tc := ⟨.hbm, 229, rfl⟩
abbrev main_v138 : Ref sig .tc := ⟨.hbm, 230, rfl⟩
abbrev main_v139 : Ref sig .tc := ⟨.hbm, 231, rfl⟩
abbrev main_c_33 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem8_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1600x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1600x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1600x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  shapeCasts_S10000x256_S10000x2x128 : S10000x256.ShapeCasts S10000x2x128
  bcast_S1x2x128_S10000x2x128_0_1_2 : S1x2x128.BroadcastsInDim S10000x2x128 (![0, 1, 2] : Fin 3 → Fin S10000x2x128.rank)
  reducesTo_S10000x2x128_S10000x2_d2 : S10000x2x128.ReducesTo [2] S10000x2
  h_S_ : 0 < S_.numel
  bcast_S_S160000 : S_.BroadcastsInDim S160000 (![] : Fin 0 → Fin S160000.rank)
  bcast_S160000_S160000x1_0 : S160000.BroadcastsInDim S160000x1 (![0] : Fin 1 → Fin S160000x1.rank)
  bcast_S_S160000x2 : S_.BroadcastsInDim S160000x2 (![] : Fin 0 → Fin S160000x2.rank)
  reducesTo_S160000x2_S_d0_1 : S160000x2.ReducesTo [0, 1] S_
  bcast_S_S10000x2 : S_.BroadcastsInDim S10000x2 (![] : Fin 0 → Fin S10000x2.rank)
  bcast_S160000x2_S160000x2x1_0_1 : S160000x2.BroadcastsInDim S160000x2x1 (![0, 1] : Fin 2 → Fin S160000x2x1.rank)
  bcast_S160000x2x1_S160000x2x128_0_1_2 : S160000x2x1.BroadcastsInDim S160000x2x128 (![0, 1, 2] : Fin 3 → Fin S160000x2x128.rank)
  bcast_S_S10000x2x128 : S_.BroadcastsInDim S10000x2x128 (![] : Fin 0 → Fin S10000x2x128.rank)
  bcast_S10000x128_S10000x1x128_0_2 : S10000x128.BroadcastsInDim S10000x1x128 (![0, 2] : Fin 2 → Fin S10000x1x128.rank)
  bcast_S10000x1x128_S10000x2x128_0_1_2 : S10000x1x128.BroadcastsInDim S10000x2x128 (![0, 1, 2] : Fin 3 → Fin S10000x2x128.rank)
  concatenates_S10000x2x128_S10000x2x128_S10000x2x256_d2 : Shape.Concatenates [S10000x2x128, S10000x2x128] S10000x2x256 2
  shapeCasts_S10000x2x256_S10000x512 : S10000x2x256.ShapeCasts S10000x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S10000x512_S10000x4x128 : S10000x512.ShapeCasts S10000x4x128
  bcast_S1x4x128_S10000x4x128_0_1_2 : S1x4x128.BroadcastsInDim S10000x4x128 (![0, 1, 2] : Fin 3 → Fin S10000x4x128.rank)
  reducesTo_S10000x4x128_S10000x4_d2 : S10000x4x128.ReducesTo [2] S10000x4
  bcast_S_S160000x4 : S_.BroadcastsInDim S160000x4 (![] : Fin 0 → Fin S160000x4.rank)
  reducesTo_S160000x4_S_d0_1 : S160000x4.ReducesTo [0, 1] S_
  bcast_S_S10000x4 : S_.BroadcastsInDim S10000x4 (![] : Fin 0 → Fin S10000x4.rank)
  bcast_S160000x4_S160000x4x1_0_1 : S160000x4.BroadcastsInDim S160000x4x1 (![0, 1] : Fin 2 → Fin S160000x4x1.rank)
  bcast_S160000x4x1_S160000x4x128_0_1_2 : S160000x4x1.BroadcastsInDim S160000x4x128 (![0, 1, 2] : Fin 3 → Fin S160000x4x128.rank)
  bcast_S_S10000x4x128 : S_.BroadcastsInDim S10000x4x128 (![] : Fin 0 → Fin S10000x4x128.rank)
  reducesTo_S10000x4x128_S10000x128_d1 : S10000x4x128.ReducesTo [1] S10000x128
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S512x1_S1x512_1_0 : S512x1.Transposes [1, 0] S1x512
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  concatenates_S1600x128_S1600x128_S1600x128_S1600x128_S1600x512_d1 : Shape.Concatenates [S1600x128, S1600x128, S1600x128, S1600x128] S1600x512 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1600x1024 : S1x1024.Broadcasts S1600x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1600x512 : S1x512.Broadcasts S1600x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1600x512_S1600 : S1600x512.Reduces [1] S1600
  shapeCasts_S1600_S1600x1 : S1600.ShapeCasts S1600x1
  inb_S1_S1_0 : ∀ a, (![0] : Fin 1 → Nat) a + S1.size a ≤ S1.size a
  h_S1 : 0 < S1.numel
  shapeCasts_S1_S1x1 : S1.ShapeCasts S1x1
  broadcasts_S1x1_S1600x1 : S1x1.Broadcasts S1600x1
  inb_S1600x1_S1600x1_0_0 : ∀ a, (![0, 0] : Fin 2 → Nat) a + S1600x1.size a ≤ S1600x1.size a
  h_S1600x1 : 0 < S1600x1.numel
  dot_S2000x128_S128x256_S2000x256_1_0_0_1_n_n_wf : DotDims.WF S2000x128 S128x256 S2000x256 [1] [0] [0] [1] [] []
  gather_S10000x2_S160000x1_S160000x2_1_0_n_n_0_1_12_wf : GatherDims.WF S10000x2 S160000x1 S160000x2 [1] [0] [] [0] [] 1 ![1, 2]
  scatter_S10000x2_S160000x1_S160000x2_1_0_0_1_wf : ScatterDims.WF S10000x2 S160000x1 S160000x2 [1] [0] [0] 1
  gather_S10000x2x128_S160000x1_S160000x2x128_12_0_n_n_0_1_12128_wf : GatherDims.WF S10000x2x128 S160000x1 S160000x2x128 [1, 2] [0] [] [0] [] 1 ![1, 2, 128]
  scatter_S10000x2x128_S160000x1_S160000x2x128_12_0_0_1_wf : ScatterDims.WF S10000x2x128 S160000x1 S160000x2x128 [1, 2] [0] [0] 1
  dot_S2000x512_S512x512_S2000x512_1_0_0_1_n_n_wf : DotDims.WF S2000x512 S512x512 S2000x512 [1] [0] [0] [1] [] []
  gather_S10000x4_S160000x1_S160000x4_1_0_n_n_0_1_14_wf : GatherDims.WF S10000x4 S160000x1 S160000x4 [1] [0] [] [0] [] 1 ![1, 4]
  scatter_S10000x4_S160000x1_S160000x4_1_0_0_1_wf : ScatterDims.WF S10000x4 S160000x1 S160000x4 [1] [0] [0] 1
  gather_S10000x4x128_S160000x1_S160000x4x128_12_0_n_n_0_1_14128_wf : GatherDims.WF S10000x4x128 S160000x1 S160000x4x128 [1, 2] [0] [] [0] [] 1 ![1, 4, 128]
  scatter_S10000x4x128_S160000x1_S160000x4x128_12_0_0_1_wf : ScatterDims.WF S10000x4x128 S160000x1 S160000x4x128 [1, 2] [0] [0] 1
  gather_S10000x128_S160000x1_S160000x128_1_0_n_n_0_1_1128_wf : GatherDims.WF S10000x128 S160000x1 S160000x128 [1] [0] [] [0] [] 1 ![1, 128]
  dot_S1600x512_S512x1024_S1600x1024_1_0_0_1_n_n_wf : DotDims.WF S1600x512 S512x1024 S1600x1024 [1] [0] [0] [1] [] []
  dot_S1600x1024_S1024x512_S1600x512_1_0_0_1_n_n_wf : DotDims.WF S1600x1024 S1024x512 S1600x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .bf16 = 32 ∨ (Rect.block (s := S10000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .f32 = 32 ∨ (Rect.block (s := S10000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .bf16 = 32 ∨ (Rect.block (s := S10000x512) S2000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S10000x512.size a
  hwx1_2 : ∀ i : grid1.Coords, EltTy.bits .f32 = 32 ∨ (Rect.block (s := S10000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1600x128.size a ≤ S160000x128.size a
  hwx2_0 : ∀ i : grid2.Coords, EltTy.bits .f32 = 32 ∨ (Rect.block (s := S160000x128) S1600x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1600x128.size a ≤ S160000x128.size a
  hwx2_1 : ∀ i : grid2.Coords, EltTy.bits .f32 = 32 ∨ (Rect.block (s := S160000x128) S1600x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S512x1024.size a
  hwx2_2 : ∀ i : grid2.Coords, EltTy.bits .bf16 = 32 ∨ (Rect.block (s := S512x1024) S512x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S1024x512.size a
  hwx2_4 : ∀ i : grid2.Coords, EltTy.bits .bf16 = 32 ∨ (Rect.block (s := S1024x512) S1024x512.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512.size a ≤ S512.size a
  hwx2_5 : ∀ i : grid2.Coords, EltTy.bits .f32 = 32 ∨ (Rect.block (s := S512) S512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1.size a ≤ S1.size a
  hwx2_7 : ∀ i : grid2.Coords, EltTy.bits .f32 = 32 ∨ (Rect.block (s := S1) S1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1600x1.size a ≤ S160000x1.size a
  hwx2_8 : ∀ i : grid2.Coords, EltTy.bits .f32 = 32 ∨ (Rect.block (s := S160000x1) S1600x1.size (cc2_transform_8 i) (hinb2_8 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S10000x2_S160000x1_S160000x2_1_0_n_n_0_1_12 : GatherDims S10000x2 S160000x1 S160000x2 where
  offsetDims := [1]
  collapsedSliceDims := [0]
  operandBatchingDims := []
  startIndicesBatchingDims := []
  startIndexMap := [0]
  indexVectorDim := 1
  sliceSizes := ![1, 2]
  wf := gather_S10000x2_S160000x1_S160000x2_1_0_n_n_0_1_12_wf
def scatter_S10000x2_S160000x1_S160000x2_1_0_0_1 : ScatterDims S10000x2 S160000x1 S160000x2 where
  updateWindowDims := [1]
  insertedWindowDims := [0]
  scatterDimsToOperandDims := [0]
  indexVectorDim := 1
  wf := scatter_S10000x2_S160000x1_S160000x2_1_0_0_1_wf
def gather_S10000x2x128_S160000x1_S160000x2x128_12_0_n_n_0_1_12128 : GatherDims S10000x2x128 S160000x1 S160000x2x128 where
  offsetDims := [1, 2]
  collapsedSliceDims := [0]
  operandBatchingDims := []
  startIndicesBatchingDims := []
  startIndexMap := [0]
  indexVectorDim := 1
  sliceSizes := ![1, 2, 128]
  wf := gather_S10000x2x128_S160000x1_S160000x2x128_12_0_n_n_0_1_12128_wf
def scatter_S10000x2x128_S160000x1_S160000x2x128_12_0_0_1 : ScatterDims S10000x2x128 S160000x1 S160000x2x128 where
  updateWindowDims := [1, 2]
  insertedWindowDims := [0]
  scatterDimsToOperandDims := [0]
  indexVectorDim := 1
  wf := scatter_S10000x2x128_S160000x1_S160000x2x128_12_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S10000x4_S160000x1_S160000x4_1_0_n_n_0_1_14 : GatherDims S10000x4 S160000x1 S160000x4 where
  offsetDims := [1]
  collapsedSliceDims := [0]
  operandBatchingDims := []
  startIndicesBatchingDims := []
  startIndexMap := [0]
  indexVectorDim := 1
  sliceSizes := ![1, 4]
  wf := gather_S10000x4_S160000x1_S160000x4_1_0_n_n_0_1_14_wf
def scatter_S10000x4_S160000x1_S160000x4_1_0_0_1 : ScatterDims S10000x4 S160000x1 S160000x4 where
  updateWindowDims := [1]
  insertedWindowDims := [0]
  scatterDimsToOperandDims := [0]
  indexVectorDim := 1
  wf := scatter_S10000x4_S160000x1_S160000x4_1_0_0_1_wf
def gather_S10000x4x128_S160000x1_S160000x4x128_12_0_n_n_0_1_14128 : GatherDims S10000x4x128 S160000x1 S160000x4x128 where
  offsetDims := [1, 2]
  collapsedSliceDims := [0]
  operandBatchingDims := []
  startIndicesBatchingDims := []
  startIndexMap := [0]
  indexVectorDim := 1
  sliceSizes := ![1, 4, 128]
  wf := gather_S10000x4x128_S160000x1_S160000x4x128_12_0_n_n_0_1_14128_wf
def scatter_S10000x4x128_S160000x1_S160000x4x128_12_0_0_1 : ScatterDims S10000x4x128 S160000x1 S160000x4x128 where
  updateWindowDims := [1, 2]
  insertedWindowDims := [0]
  scatterDimsToOperandDims := [0]
  indexVectorDim := 1
  wf := scatter_S10000x4x128_S160000x1_S160000x4x128_12_0_0_1_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def dot_S1600x512_S512x1024_S1600x1024_1_0_0_1_n_n : DotDims S1600x512 S512x1024 S1600x1024 where
  lhsContracting := [1]
  rhsContracting := [0]
  lhsNonContracting := [0]
  rhsNonContracting := [1]
  lhsBatch := []
  rhsBatch := []
  wf := dot_S1600x512_S512x1024_S1600x1024_1_0_0_1_n_n_wf
def dot_S1600x1024_S1024x512_S1600x512_1_0_0_1_n_n : DotDims S1600x1024 S1024x512 S1600x512 where
  lhsContracting := [1]
  rhsContracting := [0]
  lhsNonContracting := [0]
  rhsNonContracting := [1]
  lhsBatch := []
  rhsBatch := []
  wf := dot_S1600x1024_S1024x512_S1600x512_1_0_0_1_n_n_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v68) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v70) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v137) S1600x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v144) S1600x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v146) S512x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v147) S1024x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v145) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v148) S1600x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x160000 : Shape := ⟨2, ![2, 160000]⟩
abbrev S128x256 : Shape := ⟨2, ![128, 256]⟩
abbrev S1x2x128 : Shape := ⟨3, ![1, 2, 128]⟩
abbrev S512 : Shape := ⟨1, ![512]⟩
abbrev S512x512 : Shape := ⟨2, ![512, 512]⟩
abbrev S1x4x128 : Shape := ⟨3, ![1, 4, 128]⟩
abbrev S128 : Shape := ⟨1, ![128]⟩
abbrev S512x1024 : Shape := ⟨2, ![512, 1024]⟩
abbrev S1024 : Shape := ⟨1, ![1024]⟩
abbrev S1024x512 : Shape := ⟨2, ![1024, 512]⟩
abbrev S512x1 : Shape := ⟨2, ![512, 1]⟩
abbrev S1 : Shape := ⟨1, ![1]⟩
abbrev S1x160000 : Shape := ⟨2, ![1, 160000]⟩
abbrev S160000 : Shape := ⟨1, ![160000]⟩
abbrev S10000x256 : Shape := ⟨2, ![10000, 256]⟩
abbrev S10000x2x128 : Shape := ⟨3, ![10000, 2, 128]⟩
abbrev S_ : Shape := ⟨0, ![]⟩
abbrev S10000x2 : Shape := ⟨2, ![10000, 2]⟩
abbrev S160000x1 : Shape := ⟨2, ![160000, 1]⟩
abbrev S160000x2 : Shape := ⟨2, ![160000, 2]⟩
abbrev S160000x2x1 : Shape := ⟨3, ![160000, 2, 1]⟩
abbrev S160000x2x128 : Shape := ⟨3, ![160000, 2, 128]⟩
abbrev S10000x1x128 : Shape := ⟨3, ![10000, 1, 128]⟩
abbrev S10000x2x256 : Shape := ⟨3, ![10000, 2, 256]⟩
abbrev S10000x512 : Shape := ⟨2, ![10000, 512]⟩
abbrev S1x512 : Shape := ⟨2, ![1, 512]⟩
abbrev S10000x4x128 : Shape := ⟨3, ![10000, 4, 128]⟩
abbrev S10000x4 : Shape := ⟨2, ![10000, 4]⟩
abbrev S160000x4 : Shape := ⟨2, ![160000, 4]⟩
abbrev S160000x4x1 : Shape := ⟨3, ![160000, 4, 1]⟩
abbrev S160000x4x128 : Shape := ⟨3, ![160000, 4, 128]⟩
abbrev S1x128 : Shape := ⟨2, ![1, 128]⟩
abbrev S160000x128 : Shape := ⟨2, ![160000, 128]⟩
abbrev S160000x512 : Shape := ⟨2, ![160000, 512]⟩
abbrev S160000x1024 : Shape := ⟨2, ![160000, 1024]⟩
abbrev S1x1024 : Shape := ⟨2, ![1, 1024]⟩
abbrev S1x1 : Shape := ⟨2, ![1, 1]⟩

abbrev nBuf : Space → Nat
  | .hbm => 271
  | .vmem => 0
  | .smem => 0
  | _ => 0

abbrev hbmTy0_0 (i : Nat) : BufTy := match i % 128 with
  | 0 => ⟨S10000x128, .f32⟩
  | 1 => ⟨S2x160000, .i32⟩
  | 2 => ⟨S10000x128, .f32⟩
  | 3 => ⟨S128x256, .f32⟩
  | 4 => ⟨S1x2x128, .f32⟩
  | 5 => ⟨S1x2x128, .f32⟩
  | 6 => ⟨S512, .f32⟩
  | 7 => ⟨S512x512, .f32⟩
  | 8 => ⟨S1x4x128, .f32⟩
  | 9 => ⟨S1x4x128, .f32⟩
  | 10 => ⟨S128, .f32⟩
  | 11 => ⟨S512x1024, .f32⟩
  | 12 => ⟨S1024, .f32⟩
  | 13 => ⟨S1024x512, .f32⟩
  | 14 => ⟨S512, .f32⟩
  | 15 => ⟨S512x1, .f32⟩
  | 16 => ⟨S1, .f32⟩
  | 17 => ⟨S1x160000, .i32⟩
  | 18 => ⟨S160000, .i32⟩
  | 19 => ⟨S1x160000, .i32⟩
  | 20 => ⟨S160000, .i32⟩
  | 21 => ⟨S10000x256, .f32⟩
  | 22 => ⟨S10000x2x128, .f32⟩
  | 23 => ⟨S10000x2x128, .f32⟩
  | 24 => ⟨S10000x2x128, .f32⟩
  | 25 => ⟨S_, .f32⟩
  | 26 => ⟨S10000x2, .f32⟩
  | 27 => ⟨S10000x2x128, .f32⟩
  | 28 => ⟨S10000x2x128, .f32⟩
  | 29 => ⟨S_, .f32⟩
  | 30 => ⟨S10000x2, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S160000x2, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000x2, .f32⟩
  | 49 => ⟨S160000x2, .f32⟩
  | 50 => ⟨S_, .f32⟩
  | 51 => ⟨S_, .f32⟩
  | 52 => ⟨S160000x2, .f32⟩
  | 53 => ⟨S160000x2, .i1⟩
  | 54 => ⟨S_, .f32⟩
  | 55 => ⟨S160000x2, .f32⟩
  | 56 => ⟨S160000x2, .f32⟩
  | 57 => ⟨S160000x2, .f32⟩
  | 58 => ⟨S_, .f32⟩
  | 59 => ⟨S_, .f32⟩
  | 60 => ⟨S160000x2, .f32⟩
  | 61 => ⟨S160000x2, .f32⟩
  | 62 => ⟨S160000x2, .f32⟩
  | 63 => ⟨S_, .f32⟩
  | 64 => ⟨S10000x2, .f32⟩
  | 65 => ⟨S160000x1, .i32⟩
  | 66 => ⟨S10000x2, .f32⟩
  | 67 => ⟨S_, .i32⟩
  | 68 => ⟨S160000, .i32⟩
  | 69 => ⟨S160000, .i1⟩
  | 70 => ⟨S_, .i32⟩
  | 71 => ⟨S160000, .i32⟩
  | 72 => ⟨S160000, .i32⟩
  | 73 => ⟨S160000, .i32⟩
  | 74 => ⟨S160000x1, .i32⟩
  | 75 => ⟨S160000x2, .f32⟩
  | 76 => ⟨S_, .f32⟩
  | 77 => ⟨S160000x2, .f32⟩
  | 78 => ⟨S160000x2, .f32⟩
  | 79 => ⟨S160000x2, .f32⟩
  | 80 => ⟨S160000x2x1, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000x2x128, .f32⟩
  | 90 => ⟨S160000x2x128, .f32⟩
  | 91 => ⟨S160000x2x128, .f32⟩
  | 92 => ⟨S_, .f32⟩
  | 93 => ⟨S10000x2x128, .f32⟩
  | 94 => ⟨S160000x1, .i32⟩
  | 95 => ⟨S10000x2x128, .f32⟩
  | 96 => ⟨S10000x1x128, .f32⟩
  | 97 => ⟨S10000x2x128, .f32⟩
  | 98 => ⟨S10000x2x256, .f32⟩
  | 99 => ⟨S10000x512, .f32⟩
  | 100 => ⟨S1x512, .f32⟩
  | 101 => ⟨S10000x512, .f32⟩
  | 102 => ⟨S10000x512, .f32⟩
  | 103 => ⟨S_, .f32⟩
  | 104 => ⟨S10000x512, .f32⟩
  | 105 => ⟨S10000x512, .i1⟩
  | 106 => ⟨S_, .f32⟩
  | 107 => ⟨S10000x512, .f32⟩
  | 108 => ⟨S10000x512, .i1⟩
  | 109 => ⟨S_, .f32⟩
  | 110 => ⟨S_, .f32⟩
  | 111 => ⟨S10000x512, .f32⟩
  | 112 => ⟨S10000x512, .f32⟩
  | 113 => ⟨S10000x512, .f32⟩
  | 114 => ⟨S_, .f32⟩
  | 115 => ⟨S10000x512, .f32⟩
  | 116 => ⟨S10000x512, .f32⟩
  | 117 => ⟨S10000x512, .f32⟩
  | 118 => ⟨S1x160000, .i32⟩
  | 119 => ⟨S160000, .i32⟩
  | 120 => ⟨S1x160000, .i32⟩
  | 121 => ⟨S160000, .i32⟩
  | 122 => ⟨S10000x512, .f32⟩
  | 123 => ⟨S10000x4x128, .f32⟩
  | 124 => ⟨S10000x4x128, .f32⟩
  | 125 => ⟨S10000x4x128, .f32⟩
  | 126 => ⟨S_, .f32⟩
  | 127 => ⟨S10000x4, .f32⟩
  | _ => ⟨S10000x128, .f32⟩

abbrev hbmTy0_1 (i : Nat) : BufTy := match i % 128 with
  | 0 => ⟨S10000x4x128, .f32⟩
  | 1 => ⟨S10000x4x128, .f32⟩
  | 2 => ⟨S_, .f32⟩
  | 3 => ⟨S10000x4, .f32⟩
  | 4 => ⟨S_, .i32⟩
  | 5 => ⟨S160000, .i32⟩
  | 6 => ⟨S160000, .i1⟩
  | 7 => ⟨S_, .i32⟩
  | 8 => ⟨S160000, .i32⟩
  | 9 => ⟨S160000, .i32⟩
  | 10 => ⟨S160000, .i32⟩
  | 11 => ⟨S160000x1, .i32⟩
  | 12 => ⟨S160000x4, .f32⟩
  | 13 => ⟨S_, .i32⟩
  | 14 => ⟨S160000, .i32⟩
  | 15 => ⟨S160000, .i1⟩
  | 16 => ⟨S_, .i32⟩
  | 17 => ⟨S160000, .i32⟩
  | 18 => ⟨S160000, .i32⟩
  | 19 => ⟨S160000, .i32⟩
  | 20 => ⟨S160000x1, .i32⟩
  | 21 => ⟨S160000x4, .f32⟩
  | 22 => ⟨S160000x4, .f32⟩
  | 23 => ⟨S_, .f32⟩
  | 24 => ⟨S_, .f32⟩
  | 25 => ⟨S160000x4, .f32⟩
  | 26 => ⟨S160000x4, .i1⟩
  | 27 => ⟨S_, .f32⟩
  | 28 => ⟨S160000x4, .f32⟩
  | 29 => ⟨S160000x4, .f32⟩
  | 30 => ⟨S160000x4, .f32⟩
  | 31 => ⟨S_, .f32⟩
  | 32 => ⟨S_, .f32⟩
  | 33 => ⟨S160000x4, .f32⟩
  | 34 => ⟨S160000x4, .f32⟩
  | 35 => ⟨S160000x4, .f32⟩
  | 36 => ⟨S_, .f32⟩
  | 37 => ⟨S10000x4, .f32⟩
  | 38 => ⟨S160000x1, .i32⟩
  | 39 => ⟨S10000x4, .f32⟩
  | 40 => ⟨S_, .i32⟩
  | 41 => ⟨S160000, .i32⟩
  | 42 => ⟨S160000, .i1⟩
  | 43 => ⟨S_, .i32⟩
  | 44 => ⟨S160000, .i32⟩
  | 45 => ⟨S160000, .i32⟩
  | 46 => ⟨S160000, .i32⟩
  | 47 => ⟨S160000x1, .i32⟩
  | 48 => ⟨S160000x4, .f32⟩
  | 49 => ⟨S_, .f32⟩
  | 50 => ⟨S160000x4, .f32⟩
  | 51 => ⟨S160000x4, .f32⟩
  | 52 => ⟨S160000x4, .f32⟩
  | 53 => ⟨S160000x4x1, .f32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S160000x1, .i32⟩
  | 62 => ⟨S160000x4x128, .f32⟩
  | 63 => ⟨S160000x4x128, .f32⟩
  | 64 => ⟨S160000x4x128, .f32⟩
  | 65 => ⟨S_, .f32⟩
  | 66 => ⟨S10000x4x128, .f32⟩
  | 67 => ⟨S160000x1, .i32⟩
  | 68 => ⟨S10000x4x128, .f32⟩
  | 69 => ⟨S_, .f32⟩
  | 70 => ⟨S10000x128, .f32⟩
  | 71 => ⟨S_, .f32⟩
  | 72 => ⟨S10000x128, .f32⟩
  | 73 => ⟨S10000x128, .f32⟩
  | 74 => ⟨S1x128, .f32⟩
  | 75 => ⟨S10000x128, .f32⟩
  | 76 => ⟨S10000x128, .f32⟩
  | 77 => ⟨S_, .f32⟩
  | 78 => ⟨S10000x128, .f32⟩
  | 79 => ⟨S10000x128, .i1⟩
  | 80 => ⟨S_, .f32⟩
  | 81 => ⟨S10000x128, .f32⟩
  | 82 => ⟨S10000x128, .i1⟩
  | 83 => ⟨S_, .f32⟩
  | 84 => ⟨S_, .f32⟩
  | 85 => ⟨S10000x128, .f32⟩
  | 86 => ⟨S10000x128, .f32⟩
  | 87 => ⟨S10000x128, .f32⟩
  | 88 => ⟨S_, .f32⟩
  | 89 => ⟨S10000x128, .f32⟩
  | 90 => ⟨S10000x128, .f32⟩
  | 91 => ⟨S10000x128, .f32⟩
  | 92 => ⟨S1x160000, .i32⟩
  | 93 => ⟨S160000, .i32⟩
  | 94 => ⟨S_, .i32⟩
  | 95 => ⟨S160000, .i32⟩
  | 96 => ⟨S160000, .i1⟩
  | 97 => ⟨S_, .i32⟩
  | 98 => ⟨S160000, .i32⟩
  | 99 => ⟨S160000, .i32⟩
  | 100 => ⟨S160000, .i32⟩
  | 101 => ⟨S160000x1, .i32⟩
  | 102 => ⟨S160000x128, .f32⟩
  | 103 => ⟨S1x160000, .i32⟩
  | 104 => ⟨S160000, .i32⟩
  | 105 => ⟨S_, .i32⟩
  | 106 => ⟨S160000, .i32⟩
  | 107 => ⟨S160000, .i1⟩
  | 108 => ⟨S_, .i32⟩
  | 109 => ⟨S160000, .i32⟩
  | 110 => ⟨S160000, .i32⟩
  | 111 => ⟨S160000, .i32⟩
  | 112 => ⟨S160000x1, .i32⟩
  | 113 => ⟨S160000x128, .f32⟩
  | 114 => ⟨S160000x128, .f32⟩
  | 115 => ⟨S160000x128, .f32⟩
  | 116 => ⟨S160000x512, .f32⟩
  | 117 => ⟨S160000x1024, .f32⟩
  | 118 => ⟨S1x1024, .f32⟩
  | 119 => ⟨S160000x1024, .f32⟩
  | 120 => ⟨S160000x1024, .f32⟩
  | 121 => ⟨S_, .f32⟩
  | 122 => ⟨S160000x1024, .f32⟩
  | 123 => ⟨S160000x1024, .f32⟩
  | 124 => ⟨S160000x512, .f32⟩
  | 125 => ⟨S1x512, .f32⟩
  | 126 => ⟨S160000x512, .f32⟩
  | 127 => ⟨S160000x512, .f32⟩
  | _ => ⟨S10000x128, .f32⟩

abbrev hbmTy0_2 (i : Nat) : BufTy := match i % 128 with
  | 0 => ⟨S_, .f32⟩
  | 1 => ⟨S160000x512, .f32⟩
  | 2 => ⟨S160000x512, .f32⟩
  | 3 => ⟨S160000x1, .f32⟩
  | 4 => ⟨S1x1, .f32⟩
  | 5 => ⟨S160000x1, .f32⟩
  | 6 => ⟨S160000x1, .f32⟩
  | 7 => ⟨S160000x1, .f32⟩
  | 8 => ⟨S160000x1, .f32⟩
  | 9 => ⟨S_, .f32⟩
  | 10 => ⟨S160000x1, .f32⟩
  | 11 => ⟨S160000x1, .f32⟩
  | 12 => ⟨S_, .f32⟩
  | 13 => ⟨S160000x1, .f32⟩
  | 14 => ⟨S160000x1, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v27 : Ref sig .tc := ⟨.hbm, 57, rfl⟩
abbrev main_cst_5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_7 : Ref sig .tc := ⟨.hbm, 67, rfl⟩
abbrev main_v35 : Ref sig .tc := ⟨.hbm, 68, rfl⟩
abbrev main_v36 : Ref sig .tc := ⟨.hbm, 69, rfl⟩
abbrev main_c_8 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_9 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_10 : Ref sig .tc := ⟨.hbm, 81, rfl⟩
abbrev main_v46 : Ref sig .tc := ⟨.hbm, 82, rfl⟩
abbrev main_v47 : Ref sig .tc := ⟨.hbm, 83, rfl⟩
abbrev main_c_11 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_12 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_cst_0 : Ref sig .tc := ⟨.hbm, 106, rfl⟩
abbrev main_call1_v2 : Ref sig .tc := ⟨.hbm, 107, rfl⟩
abbrev main_call1_v3 : Ref sig .tc := ⟨.hbm, 108, rfl⟩
abbrev main_call1_cst_1 : Ref sig .tc := ⟨.hbm, 109, rfl⟩
abbrev main_call1_call0_v0 : Ref sig .tc := ⟨.hbm, 110, rfl⟩
abbrev main_call1_call0_v1 : Ref sig .tc := ⟨.hbm, 111, rfl⟩
abbrev main_call1_v4 : Ref sig .tc := ⟨.hbm, 112, rfl⟩
abbrev main_call1_v5 : Ref sig .tc := ⟨.hbm, 113, rfl⟩
abbrev main_call1_cst_2 : Ref sig .tc := ⟨.hbm, 114, rfl⟩
abbrev main_call1_v6 : Ref sig .tc := ⟨.hbm, 115, rfl⟩
abbrev main_call1_v7 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_13 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_14 : Ref sig .tc := ⟨.hbm, 130, rfl⟩
abbrev main_v77 : Ref sig .tc := ⟨.hbm, 131, rfl⟩
abbrev main_c_15 : Ref sig .tc := ⟨.hbm, 132, rfl⟩
abbrev main_v78 : Ref sig .tc := ⟨.hbm, 133, rfl⟩
abbrev main_v79 : Ref sig .tc := ⟨.hbm, 134, rfl⟩
abbrev main_c_16 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c_17 : Ref sig .tc := ⟨.hbm, 141, rfl⟩
abbrev main_v85 : Ref sig .tc := ⟨.hbm, 142, rfl⟩
abbrev main_v86 : Ref sig .tc := ⟨.hbm, 143, rfl⟩
abbrev main_c_18 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_cst_19 : Ref sig .tc := ⟨.hbm, 151, rfl⟩
abbrev main_call2_cst : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_v93 : Ref sig .tc := ⟨.hbm, 158, rfl⟩
abbrev main_cst_20 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_cst_21 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_c_22 : Ref sig .tc := ⟨.hbm, 168, rfl⟩
abbrev main_v101 : Ref sig .tc := ⟨.hbm, 169, rfl⟩
abbrev main_v102 : Ref sig .tc := ⟨.hbm, 170, rfl⟩
abbrev main_c_23 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_cst_24 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_c_25 : Ref sig .tc := ⟨.hbm, 182, rfl⟩
abbrev main_v112 : Ref sig .tc := ⟨.hbm, 183, rfl⟩
abbrev main_v113 : Ref sig .tc := ⟨.hbm, 184, rfl⟩
abbrev main_c_26 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_cst_27 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_28 : Ref sig .tc := ⟨.hbm, 197, rfl⟩
abbrev main_v124 : Ref sig .tc := ⟨.hbm, 198, rfl⟩
abbrev main_cst_29 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_call3_cst : Ref sig .tc := ⟨.hbm, 205, rfl⟩
abbrev main_call3_v0 : Ref sig .tc := ⟨.hbm, 206, rfl⟩
abbrev main_call3_v1 : Ref sig .tc := ⟨.hbm, 207, rfl⟩
abbrev main_call3_cst_0 : Ref sig .tc := ⟨.hbm, 208, rfl⟩
abbrev main_call3_v2 : Ref sig .tc := ⟨.hbm, 209, rfl⟩
abbrev main_call3_v3 : Ref sig .tc := ⟨.hbm, 210, rfl⟩
abbrev main_call3_cst_1 : Ref sig .tc := ⟨.hbm, 211, rfl⟩
abbrev main_call3_call0_v0 : Ref sig .tc := ⟨.hbm, 212, rfl⟩
abbrev main_call3_call0_v1 : Ref sig .tc := ⟨.hbm, 213, rfl⟩
abbrev main_call3_v4 : Ref sig .tc := ⟨.hbm, 214, rfl⟩
abbrev main_call3_v5 : Ref sig .tc := ⟨.hbm, 215, rfl⟩
abbrev main_call3_cst_2 : Ref sig .tc := ⟨.hbm, 216, rfl⟩
abbrev main_call3_v6 : Ref sig .tc := ⟨.hbm, 217, rfl⟩
abbrev main_call3_v7 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_c_30 : Ref sig .tc := ⟨.hbm, 222, rfl⟩
abbrev main_v133 : Ref sig .tc := ⟨.hbm, 223, rfl⟩
abbrev main_v134 : Ref sig .tc := ⟨.hbm, 224, rfl⟩
abbrev main_c_31 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_c_32 : Ref sig .tc := ⟨.hbm, 233, rfl⟩
abbrev main_v142 : Ref sig .tc := ⟨.hbm, 234, rfl⟩
abbrev main_v143 : Ref sig .tc := ⟨.hbm, 235, rfl⟩
abbrev main_c_33 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_call4_cst : Ref sig .tc := ⟨.hbm, 249, rfl⟩
abbrev main_call4_v0 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_call5_cst : Ref sig .tc := ⟨.hbm, 256, rfl⟩
abbrev main_call5_v0 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_cst_34 : Ref sig .tc := ⟨.hbm, 265, rfl⟩
abbrev main_v168 : Ref sig .tc := ⟨.hbm, 266, rfl⟩
abbrev main_v169 : Ref sig .tc := ⟨.hbm, 267, rfl⟩
abbrev main_cst_35 : Ref sig .tc := ⟨.hbm, 268, rfl⟩
abbrev main_v170 : Ref sig .tc := ⟨.hbm, 269, rfl⟩
abbrev main_v171 : Ref sig .tc := ⟨.hbm, 270, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  shapeCasts_S10000x256_S10000x2x128 : S10000x256.ShapeCasts S10000x2x128
  bcast_S1x2x128_S10000x2x128_0_1_2 : S1x2x128.BroadcastsInDim S10000x2x128 (![0, 1, 2] : Fin 3 → Fin S10000x2x128.rank)
  reducesTo_S10000x2x128_S10000x2_d2 : S10000x2x128.ReducesTo [2] S10000x2
  h_S_ : 0 < S_.numel
  bcast_S_S160000 : S_.BroadcastsInDim S160000 (![] : Fin 0 → Fin S160000.rank)
  bcast_S160000_S160000x1_0 : S160000.BroadcastsInDim S160000x1 (![0] : Fin 1 → Fin S160000x1.rank)
  bcast_S_S160000x2 : S_.BroadcastsInDim S160000x2 (![] : Fin 0 → Fin S160000x2.rank)
  reducesTo_S160000x2_S_d0_1 : S160000x2.ReducesTo [0, 1] S_
  bcast_S_S10000x2 : S_.BroadcastsInDim S10000x2 (![] : Fin 0 → Fin S10000x2.rank)
  bcast_S160000x2_S160000x2x1_0_1 : S160000x2.BroadcastsInDim S160000x2x1 (![0, 1] : Fin 2 → Fin S160000x2x1.rank)
  bcast_S160000x2x1_S160000x2x128_0_1_2 : S160000x2x1.BroadcastsInDim S160000x2x128 (![0, 1, 2] : Fin 3 → Fin S160000x2x128.rank)
  bcast_S_S10000x2x128 : S_.BroadcastsInDim S10000x2x128 (![] : Fin 0 → Fin S10000x2x128.rank)
  bcast_S10000x128_S10000x1x128_0_2 : S10000x128.BroadcastsInDim S10000x1x128 (![0, 2] : Fin 2 → Fin S10000x1x128.rank)
  bcast_S10000x1x128_S10000x2x128_0_1_2 : S10000x1x128.BroadcastsInDim S10000x2x128 (![0, 1, 2] : Fin 3 → Fin S10000x2x128.rank)
  concatenates_S10000x2x128_S10000x2x128_S10000x2x256_d2 : Shape.Concatenates [S10000x2x128, S10000x2x128] S10000x2x256 2
  shapeCasts_S10000x2x256_S10000x512 : S10000x2x256.ShapeCasts S10000x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  shapeCasts_S10000x512_S10000x4x128 : S10000x512.ShapeCasts S10000x4x128
  bcast_S1x4x128_S10000x4x128_0_1_2 : S1x4x128.BroadcastsInDim S10000x4x128 (![0, 1, 2] : Fin 3 → Fin S10000x4x128.rank)
  reducesTo_S10000x4x128_S10000x4_d2 : S10000x4x128.ReducesTo [2] S10000x4
  bcast_S_S160000x4 : S_.BroadcastsInDim S160000x4 (![] : Fin 0 → Fin S160000x4.rank)
  reducesTo_S160000x4_S_d0_1 : S160000x4.ReducesTo [0, 1] S_
  bcast_S_S10000x4 : S_.BroadcastsInDim S10000x4 (![] : Fin 0 → Fin S10000x4.rank)
  bcast_S160000x4_S160000x4x1_0_1 : S160000x4.BroadcastsInDim S160000x4x1 (![0, 1] : Fin 2 → Fin S160000x4x1.rank)
  bcast_S160000x4x1_S160000x4x128_0_1_2 : S160000x4x1.BroadcastsInDim S160000x4x128 (![0, 1, 2] : Fin 3 → Fin S160000x4x128.rank)
  bcast_S_S10000x4x128 : S_.BroadcastsInDim S10000x4x128 (![] : Fin 0 → Fin S10000x4x128.rank)
  reducesTo_S10000x4x128_S10000x128_d1 : S10000x4x128.ReducesTo [1] S10000x128
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S160000x128_S160000x128_S160000x128_S160000x128_S160000x512_d1 : Shape.Concatenates [S160000x128, S160000x128, S160000x128, S160000x128] S160000x512 1
  bcast_S1024_S1x1024_1 : S1024.BroadcastsInDim S1x1024 (![1] : Fin 1 → Fin S1x1024.rank)
  bcast_S1x1024_S160000x1024_0_1 : S1x1024.BroadcastsInDim S160000x1024 (![0, 1] : Fin 2 → Fin S160000x1024.rank)
  bcast_S_S160000x1024 : S_.BroadcastsInDim S160000x1024 (![] : Fin 0 → Fin S160000x1024.rank)
  bcast_S1x512_S160000x512_0_1 : S1x512.BroadcastsInDim S160000x512 (![0, 1] : Fin 2 → Fin S160000x512.rank)
  bcast_S_S160000x512 : S_.BroadcastsInDim S160000x512 (![] : Fin 0 → Fin S160000x512.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  bcast_S_S160000x1 : S_.BroadcastsInDim S160000x1 (![] : Fin 0 → Fin S160000x1.rank)
  dot_S10000x128_S128x256_S10000x256_1_0_0_1_n_n_wf : DotDims.WF S10000x128 S128x256 S10000x256 [1] [0] [0] [1] [] []
  gather_S10000x2_S160000x1_S160000x2_1_0_n_n_0_1_12_wf : GatherDims.WF S10000x2 S160000x1 S160000x2 [1] [0] [] [0] [] 1 ![1, 2]
  scatter_S10000x2_S160000x1_S160000x2_1_0_0_1_wf : ScatterDims.WF S10000x2 S160000x1 S160000x2 [1] [0] [0] 1
  gather_S10000x2x128_S160000x1_S160000x2x128_12_0_n_n_0_1_12128_wf : GatherDims.WF S10000x2x128 S160000x1 S160000x2x128 [1, 2] [0] [] [0] [] 1 ![1, 2, 128]
  scatter_S10000x2x128_S160000x1_S160000x2x128_12_0_0_1_wf : ScatterDims.WF S10000x2x128 S160000x1 S160000x2x128 [1, 2] [0] [0] 1
  dot_S10000x512_S512x512_S10000x512_1_0_0_1_n_n_wf : DotDims.WF S10000x512 S512x512 S10000x512 [1] [0] [0] [1] [] []
  gather_S10000x4_S160000x1_S160000x4_1_0_n_n_0_1_14_wf : GatherDims.WF S10000x4 S160000x1 S160000x4 [1] [0] [] [0] [] 1 ![1, 4]
  scatter_S10000x4_S160000x1_S160000x4_1_0_0_1_wf : ScatterDims.WF S10000x4 S160000x1 S160000x4 [1] [0] [0] 1
  gather_S10000x4x128_S160000x1_S160000x4x128_12_0_n_n_0_1_14128_wf : GatherDims.WF S10000x4x128 S160000x1 S160000x4x128 [1, 2] [0] [] [0] [] 1 ![1, 4, 128]
  scatter_S10000x4x128_S160000x1_S160000x4x128_12_0_0_1_wf : ScatterDims.WF S10000x4x128 S160000x1 S160000x4x128 [1, 2] [0] [0] 1
  gather_S10000x128_S160000x1_S160000x128_1_0_n_n_0_1_1128_wf : GatherDims.WF S10000x128 S160000x1 S160000x128 [1] [0] [] [0] [] 1 ![1, 128]
  dot_S160000x512_S512x1024_S160000x1024_1_0_0_1_n_n_wf : DotDims.WF S160000x512 S512x1024 S160000x1024 [1] [0] [0] [1] [] []
  dot_S160000x1024_S1024x512_S160000x512_1_0_0_1_n_n_wf : DotDims.WF S160000x1024 S1024x512 S160000x512 [1] [0] [0] [1] [] []
  dot_S160000x512_S512x1_S160000x1_1_0_0_1_n_n_wf : DotDims.WF S160000x512 S512x1 S160000x1 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x2_S160000x1_S160000x2_1_0_n_n_0_1_12 : GatherDims S10000x2 S160000x1 S160000x2 where
  offsetDims := [1]
  collapsedSliceDims := [0]
  operandBatchingDims := []
  startIndicesBatchingDims := []
  startIndexMap := [0]
  indexVectorDim := 1
  sliceSizes := ![1, 2]
  wf := gather_S10000x2_S160000x1_S160000x2_1_0_n_n_0_1_12_wf
def scatter_S10000x2_S160000x1_S160000x2_1_0_0_1 : ScatterDims S10000x2 S160000x1 S160000x2 where
  updateWindowDims := [1]
  insertedWindowDims := [0]
  scatterDimsToOperandDims := [0]
  indexVectorDim := 1
  wf := scatter_S10000x2_S160000x1_S160000x2_1_0_0_1_wf
def gather_S10000x2x128_S160000x1_S160000x2x128_12_0_n_n_0_1_12128 : GatherDims S10000x2x128 S160000x1 S160000x2x128 where
  offsetDims := [1, 2]
  collapsedSliceDims := [0]
  operandBatchingDims := []
  startIndicesBatchingDims := []
  startIndexMap := [0]
  indexVectorDim := 1
  sliceSizes := ![1, 2, 128]
  wf := gather_S10000x2x128_S160000x1_S160000x2x128_12_0_n_n_0_1_12128_wf
def scatter_S10000x2x128_S160000x1_S160000x2x128_12_0_0_1 : ScatterDims S10000x2x128 S160000x1 S160000x2x128 where
  updateWindowDims := [1, 2]
  insertedWindowDims := [0]
  scatterDimsToOperandDims := [0]
  indexVectorDim := 1
  wf := scatter_S10000x2x128_S160000x1_S160000x2x128_12_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x4_S160000x1_S160000x4_1_0_n_n_0_1_14 : GatherDims S10000x4 S160000x1 S160000x4 where
  offsetDims := [1]
  collapsedSliceDims := [0]
  operandBatchingDims := []
  startIndicesBatchingDims := []
  startIndexMap := [0]
  indexVectorDim := 1
  sliceSizes := ![1, 4]
  wf := gather_S10000x4_S160000x1_S160000x4_1_0_n_n_0_1_14_wf
def scatter_S10000x4_S160000x1_S160000x4_1_0_0_1 : ScatterDims S10000x4 S160000x1 S160000x4 where
  updateWindowDims := [1]
  insertedWindowDims := [0]
  scatterDimsToOperandDims := [0]
  indexVectorDim := 1
  wf := scatter_S10000x4_S160000x1_S160000x4_1_0_0_1_wf
def gather_S10000x4x128_S160000x1_S160000x4x128_12_0_n_n_0_1_14128 : GatherDims S10000x4x128 S160000x1 S160000x4x128 where
  offsetDims := [1, 2]
  collapsedSliceDims := [0]
  operandBatchingDims := []
  startIndicesBatchingDims := []
  startIndexMap := [0]
  indexVectorDim := 1
  sliceSizes := ![1, 4, 128]
  wf := gather_S10000x4x128_S160000x1_S160000x4x128_12_0_n_n_0_1_14128_wf
def scatter_S10000x4x128_S160000x1_S160000x4x128_12_0_0_1 : ScatterDims S10000x4x128 S160000x1 S160000x4x128 where
  updateWindowDims := [1, 2]
  insertedWindowDims := [0]
  scatterDimsToOperandDims := [0]
  indexVectorDim := 1
  wf := scatter_S10000x4x128_S160000x1_S160000x4x128_12_0_0_1_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def dot_S160000x512_S512x1024_S160000x1024_1_0_0_1_n_n : DotDims S160000x512 S512x1024 S160000x1024 where
  lhsContracting := [1]
  rhsContracting := [0]
  lhsNonContracting := [0]
  rhsNonContracting := [1]
  lhsBatch := []
  rhsBatch := []
  wf := dot_S160000x512_S512x1024_S160000x1024_1_0_0_1_n_n_wf
def dot_S160000x1024_S1024x512_S160000x512_1_0_0_1_n_n : DotDims S160000x1024 S1024x512 S160000x512 where
  lhsContracting := [1]
  rhsContracting := [0]
  lhsNonContracting := [0]
  rhsNonContracting := [1]
  lhsBatch := []
  rhsBatch := []
  wf := dot_S160000x1024_S1024x512_S160000x512_1_0_0_1_n_n_wf
def dot_S160000x512_S512x1_S160000x1_1_0_0_1_n_n : DotDims S160000x512 S512x1 S160000x1 where
  lhsContracting := [1]
  rhsContracting := [0]
  lhsNonContracting := [0]
  rhsNonContracting := [1]
  lhsBatch := []
  rhsBatch := []
  wf := dot_S160000x512_S512x1_S160000x1_1_0_0_1_n_n_wf

class Facts : Prop extends Facts₀ where

variable [Facts]
-- ==== Proof.KernelRun.lean ====
/-
  The idealized kernel program's run with its result named.

  The program is three kernel regions among stretches of host operations.  Every weakly fair execution terminates,
  nothing faulting, with every unscoped buffer at the fold of the segments' contents from the launch memory: each
  host stretch applies its operations, each region leaves its arrays at what its write-backs fold to and every other
  buffer as it found it.  So the result buffer ends at that fold read at the result, and every argument as launched.
-/
import proofs.«167683_j50010599194662_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_out : θ_run defs (onTc (τ := τ) (main (F := F))) ⟨m, fun _ => 0, ρ⟩ (fun r => ∀ c : Dev nD,
      r.2.mem ((c.tc : Thread nD τ).loc main_v148) = W14 m ρ c (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v148 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c)⟩)

/-- The last boundary's contents at the result buffer are what region 2's write-backs fold to. -/
theorem W14_out (c : Dev nD) :
    W14 m ρ c (Proc.devRef .tc main_v148) = (dat2 (V13 m ρ) c).arrAt 8 cfg2.N :=
  W14_arr m ρ c 8

end Cert.KernelIdeal.Val

end
-- ==== Proof.RefOps.lean ====
/-
  The reference program's operations as a list, in eight consecutive pieces.

  The reference is a straight line of tensor operations; the functions it calls (the leaky clamp, the
  exponential-linear clamp, the clamp at zero, each with its selection helper) are straight lines too, and a call
  executes the callee's operations on the caller's operands and on the buffers the call names.  So the whole
  program is one list: each operation of the main function in order, each call replaced by the callee's
  operations with its parameters replaced by the call's operands and its values by the call's buffers.  The list is
  cut where the later stages of the proof need a boundary; every piece touches device buffers only and allocates
  nothing.
-/
import proofs.«167683_j50010599194662_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table as vectors, and the first projection (%0 … %4). 5 operations. -/
abbrev opsA : List (HloOp τ sig (Elt F)) :=
  ( StableHlo.unary main_arg1 main_v0 ((extractStridedSlice S1x160000 ![0, 0] · slices_S2x160000_S1x160000_0_0) : (⟨S2x160000, .i32⟩ : BufTy).Contents (Elt F) → (⟨S1x160000, .i32⟩ : BufTy).Contents (Elt F))
  :: StableHlo.reshape main_v0 main_v1 rfl shapeCasts_S1x160000_S160000
  :: StableHlo.unary main_arg1 main_v2 ((extractStridedSlice S1x160000 ![1, 0] · slices_S2x160000_S1x160000_1_0) : (⟨S2x160000, .i32⟩ : BufTy).Contents (Elt F) → (⟨S1x160000, .i32⟩ : BufTy).Contents (Elt F))
  :: StableHlo.reshape main_v2 main_v3 rfl shapeCasts_S1x160000_S160000
  :: StableHlo.binary main_arg0 main_arg3 main_v4 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F))
  :: [] )
theorem opsA_sub : (opsA : List (HloOp τ sig (Elt F))).Forall fun op => op.bufs ⊆ tcRefs τ sig :=
  ⟨unary_bufs_sub .., reshape_bufs_sub .., unary_bufs_sub .., reshape_bufs_sub .., binary_bufs_sub ..⟩
theorem opsA_fresh : ∀ op ∈ (opsA : List (HloOp τ sig (Elt F))), op.fresh = ∅ := by
  intro _ h; (repeat (cases h with | head => rfl | tail _ h => ?_)); exact nomatch h

/-- The first attention layer from the reshape of the projection to the normalised weights, the leaky clamp inlined (%5 … %46). 61 operations. -/
abbrev opsB1 : List (HloOp τ sig (Elt F)) :=
  ( StableHlo.reshape main_v4 main_v5 rfl shapeCasts_S10000x256_S10000x2x128
  :: StableHlo.unary main_arg4 main_v6 (broadcastInDim S10000x2x128 ![0, 1, 2] bcast_S1x2x128_S10000x2x128_0_1_2 : (⟨S1x2x128, .f32⟩ : BufTy).Contents (Elt F) → (⟨S10000x2x128, .f32⟩ : BufTy).Contents (Elt F))
  :: StableHlo.binary main_v5 main_v6 main_v7 (mulf : (⟨S10000x2x128, .f32⟩ : BufTy).Contents (Elt F) → (⟨S10000x2x128, .f32⟩ : BufTy).Contents (Elt F) → (⟨S10000x2x128, .f32⟩ : BufTy).Contents (Elt F))
  :: StableHlo.nullary main_cst (constant S_ .f32 0x00000000#32)
  :: StableHlo.binary main_v7 main_cst main_v8 ((fun x v => Host.reduceAdd x v reducesTo_S10000x2x128_S10000x2_d2 h_S_) : (⟨S10000x2x128, .f32⟩ : BufTy).Contents (Elt F) → (⟨S_, .f32⟩ : BufTy).Contents (Elt F) → (⟨S10000x2, .f32⟩ : BufTy).Contents (Elt F))
  :: StableHlo.unary main_arg5 main_v9 (broadcastInDim S10000x2x128 ![0, 1, 2] bcast_S1x2x128_S10000x2x128_0_1_2 : (⟨S1x2x128, .f32⟩ : BufTy).Contents (Elt F) → (⟨S10000x2x128, .f32⟩ : BufTy).Contents (Elt F))
  :: StableHlo.binary main_v5 main_v9 main_v10 (mulf : (⟨S10000x2x128, .f32⟩ : BufTy).Contents (Elt F) → (⟨S10000x2x128, .f32⟩ : BufTy).Contents (Elt F) → (⟨S10000x2x128, .f32⟩ : BufTy).Contents (Elt F))
  :: StableHlo.nullary main_cst_0 (constant S_ .f32 0x00000000#32)
  :: StableHlo.binary main_v10 main_cst_0 main_v11 ((fun x v => Host.reduceAdd x v reducesTo_S10000x2x128_S10000x2_d2 h_S_) : (⟨S10000x2x128, .f32⟩ : BufTy).Contents (Elt F) → (⟨S_, .f32⟩ : BufTy).Contents (Elt F) → (⟨S10000x2, .f32⟩ : BufTy).Contents (Elt F))
  :: StableHlo.nullary main_c (constantI S_ 32 0#32)
  :: StableHlo.unary main_c main_v12 (broadcastInDim S160000 ![] bcast_S_S160000 : (⟨S_, .i32⟩ : BufTy).Contents (Elt F) → (⟨S160000, .i32⟩ : BufTy).Contents (Elt F))
  :: StableHlo.binary main_v1 main_v12 main_v13 (cmpi .slt : (⟨S160000, .i32⟩ : BufTy).Contents (Elt F) → (⟨S160000, .i32⟩ : BufTy).Contents (Elt F) → (⟨S160000, .i1⟩ : BufTy).Contents (Elt F))
  :: StableHlo.nullary main_c_1 (constantI S_ 32 10000#32)
  :: StableHlo.unary main_c_1 main_v14 (broadcastInDim S160000 ![] bcast_S_S160000 : (⟨S_, .i32⟩ : BufTy).Contents (Elt F) → (⟨S160000, .i32⟩ : BufTy).Contents (Elt F))
  :: StableHlo.binary main_v1 main_v14 main_v15 (addi : (⟨S160000, .i32⟩ : BufTy).Contents (Elt F) → (⟨S160000, .i32⟩ : BufTy).Contents (Elt F) → (⟨S160000, .i32⟩ : BufTy).Contents (Elt F))
  :: StableHlo.ternary main_v13 main_v15 main_v1 main_v16 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v16 main_v17 (broadcastInDim S160000x1 ![0] bcast_S160000_S160000x1_0 : (⟨S160000, .i32⟩ : BufTy).Contents (Elt F) → (⟨S160000x1, .i32⟩ : BufTy).Contents (Elt F))
  :: StableHlo.binary main_v8 main_v17 main_v18 ((fun x i => Host.gather gather_S10000x2_S160000x1_S160000x2_1_0_n_n_0_1_12 x i) : (⟨S10000x2, .f32⟩ : BufTy).Contents (Elt F) → (⟨S160000x1, .i32⟩ : BufTy).Contents (Elt F) → (⟨S160000x2, .f32⟩ : BufTy).Contents (Elt F))
  :: StableHlo.nullary main_c_2 (constantI S_ 32 0#32)
  :: StableHlo.unary main_c_2 main_v19 (broadcastInDim S160000 ![] bcast_S_S160000 : (⟨S_, .i32⟩ : BufTy).Contents (Elt F) → (⟨S160000, .i32⟩ : BufTy).Contents (Elt F))
  :: StableHlo.binary main_v3 main_v19 main_v20 (cmpi .slt : (⟨S160000, .i32⟩ : BufTy).Contents (Elt F) → (⟨S160000, .i32⟩ : BufTy).Contents (Elt F) → (⟨S160000, .i1⟩ : BufTy).Contents (Elt F))
  :: StableHlo.nullary main_c_3 (constantI S_ 32 10000#32)
  :: StableHlo.unary main_c_3 main_v21 (broadcastInDim S160000 ![] bcast_S_S160000 : (⟨S_, .i32⟩ : BufTy).Contents (Elt F) → (⟨S160000, .i32⟩ : BufTy).Contents (Elt F))
  :: StableHlo.binary main_v3 main_v21 main_v22 (addi : (⟨S160000, .i32⟩ : BufTy).Contents (Elt F) → (⟨S160000, .i32⟩ : BufTy).Contents (Elt F) → (⟨S160000, .i32⟩ : BufTy).Contents (Elt F))
  :: StableHlo.ternary main_v20 main_v22 main_v3 main_v23 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v23 main_v24 (broadcastInDim S160000x1 ![0] bcast_S160000_S160000x1_0 : (⟨S160000, .i32⟩ : BufTy).Contents (Elt F) → (⟨S160000x1, .i32⟩ : BufTy).Contents (Elt F))
  :: StableHlo.binary main_v11 main_v24 main_v25 ((fun x i => Host.gather gather_S10000x2_S160000x1_S160000x2_1_0_n_n_0_1_12 x i) : (⟨S10000x2, .f32⟩ : BufTy).Contents (Elt F) → (⟨S160000x1, .i32⟩ : BufTy).Contents (Elt F) → (⟨S160000x2, .f32⟩ : BufTy).Contents (Elt F))
  :: StableHlo.binary main_v18 main_v25 main_v26 (addf : (⟨S160000x2, .f32⟩ : BufTy).Contents (Elt F) → (⟨S160000x2, .f32⟩ : BufTy).Contents (Elt F) → (⟨S160000x2, .f32⟩ : BufTy).Contents (Elt F))
  :: StableHlo.nullary main_cst_4 (constant S_ .f32 0x3E4CCCCD#32)
  :: StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S160000x2, .f32⟩) (broadcastInDim S160000x2 ![] bcast_S_S160000x2)
  :: StableHlo.TRef.binary (.of main_v26 : StableHlo.TRef sig ⟨S160000x2, .f32⟩) (.of main_call0_v0 : StableHlo.TRef sig ⟨S160000x2, .f32⟩) (.of main_call0_v1 : StableHlo.TRef sig ⟨S160000x2, .i1⟩) (cmpf .oge)
  :: StableHlo.TRef.unary (.of main_cst_4 : StableHlo.TRef sig ⟨S_, .f32⟩) (.of main_call0_v2 : StableHlo.TRef sig ⟨S_, .f32⟩) id
  :: StableHlo.TRef.unary (.of main_call0_v2 : StableHlo.TRef sig ⟨S_, .f32⟩) (.of main_call0_v3 : StableHlo.TRef sig ⟨S160000x2, .f32⟩) (broadcastInDim S160000x2 ![] bcast_S_S160000x2)
  :: StableHlo.TRef.binary (.of main_call0_v3 : StableHlo.TRef sig ⟨S160000x2, .f32⟩) (.of main_v26 : StableHlo.TRef sig ⟨S160000x2, .f32⟩) (.of main_call0_v4 : StableHlo.TRef sig ⟨S160000x2, .f32⟩) mulf
  :: StableHlo.TRef.ternary (.of main_call0_v1 : StableHlo.TRef sig ⟨S160000x2, .i1⟩) (.of main_v26 : StableHlo.TRef sig ⟨S160000x2, .f32⟩) (.of main_call0_v4 : StableHlo.TRef sig ⟨S160000x2, .f32⟩) (.of main_v27 : StableHlo.TRef sig ⟨S160000x2, .f32⟩) select
  :: StableHlo.nullary main_cst_5 (constant S_ .f32 0xFF800000#32)
  :: StableHlo.binary main_v27 main_cst_5 main_v28 ((fun x v => Host.reduce FloatOps.maximumf x v reducesTo_S160000x2_S_d0_1 h_S_) : (⟨S160000x2, .f32⟩ : BufTy).Contents (Elt F) → (⟨S_, .f32⟩ : BufTy).Contents (Elt F) → (⟨S_, .f32⟩ : BufTy).Contents (Elt F))
  :: StableHlo.unary main_v28 main_v29 (broadcastInDim S160000x2 ![] bcast_S_S160000x2 : (⟨S_, .f32⟩ : BufTy).Contents (Elt F) → (⟨S160000x2, .f32⟩ : BufTy).Contents (Elt F))
  :: StableHlo.binary main_v27 main_v29 main_v30 (subf : (⟨S160000x2, .f32⟩ : BufTy).Contents (Elt F) → (⟨S160000x2, .f32⟩ : BufTy).Contents (Elt F) → (⟨S160000x2, .f32⟩ : BufTy).Contents (Elt F))
  :: StableHlo.unary main_v30 main_v31 (Host.exp : (⟨S160000x2, .f32⟩ : BufTy).Contents (Elt F) → (⟨S160000x2, .f32⟩ : BufTy).Contents (Elt F))
  :: StableHlo.nullary main_cst_6 (constant S_ .f32 0x00000000#32)
  :: StableHlo.unary main_cst_6 main_v32 (broadcastInDim S10000x2 ![] bcast_S_S10000x2 : (⟨S_, .f32⟩ : BufTy).Contents (Elt F) → (⟨S10000x2, .f32⟩ : BufTy).Contents (Elt F))
  :: StableHlo.unary main_v3 main_v33 (broadcastInDim S160000x1 ![0] bcast_S160000_S160000x1_0 : (⟨S160000, .i32⟩ : BufTy).Contents (Elt F) → (⟨S160000x1, .i32⟩ : BufTy).Contents (Elt F))
  :: StableHlo.ternary main_v32 main_v33 main_v31 main_v34 ((fun x i u => Host.scatterAdd scatter_S10000x2_S160000x1_S160000x2_1_0_0_1 x i u) : (⟨S10000x2, .f32⟩ : BufTy).Contents (Elt F) → (⟨S160000x1, .i32⟩ : BufTy).Contents (Elt F) → (⟨S160000x2, .f32⟩ : BufTy).Contents (Elt F) → (⟨S10000x2, .f32⟩ : BufTy).Contents (Elt F))
  :: StableHlo.nullary main_c_7 (constantI S_ 32 0#32)
  :: StableHlo.unary main_c_7 main_v35 (broadcastInDim S160000 ![] bcast_S_S160000 : (⟨S_, .i32⟩ : BufTy).Contents (Elt F) → (⟨S160000, .i32⟩ : BufTy).Contents (Elt F))
  :: StableHlo.binary main_v3 main_v35 main_v36 (cmpi .slt : (⟨S160000, .i32⟩ : BufTy).Contents (Elt F) → (⟨S160000, .i32⟩ : BufTy).Contents (Elt F) → (⟨S160000, .i1⟩ : BufTy).Contents (Elt F))
  :: StableHlo.nullary main_c_8 (constantI S_ 32 10000#32)
  :: StableHlo.unary main_c_8 main_v37 (broadcastInDim S160000 ![] bcast_S_S160000 : (⟨S_, .i32⟩ : BufTy).Contents (Elt F) → (⟨S160000, .i32⟩ : BufTy).Contents (Elt F))
  :: StableHlo.binary main_v3 main_v37 main_v38 (addi : (⟨S160000, .i32⟩ : BufTy).Contents (Elt F) → (⟨S160000, .i32⟩ : BufTy).Contents (Elt F) → (⟨S160000, .i32⟩ : BufTy).Contents (Elt F))
  :: StableHlo.ternary main_v36 main_v38 main_v3 main_v39 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v39 main_v40 (broadcastInDim S160000x1 ![0] bcast_S160000_S160000x1_0 : (⟨S160000, .i32⟩ : BufTy).Contents (Elt F) → (⟨S160000x1, .i32⟩ : BufTy).Contents (Elt F))
  :: StableHlo.binary main_v34 main_v40 main_v41 ((fun x i => Host.gather gather_S10000x2_S160000x1_S160000x2_1_0_n_n_0_1_12 x i) : (⟨S10000x2, .f32⟩ : BufTy).Contents (Elt F) → (⟨S160000x1, .i32⟩ : BufTy).Contents (Elt F) → (⟨S160000x2, .f32⟩ : BufTy).Contents (Elt F))
  :: StableHlo.nullary main_cst_9 (constant S_ .f32 0x24E69595#32)
  :: StableHlo.unary main_cst_9 main_v42 (broadcastInDim S160000x2 ![] bcast_S_S160000x2 : (⟨S_, .f32⟩ : BufTy).Contents (Elt F) → (⟨S160000x2, .f32⟩ : BufTy).Contents (Elt F))
  :: StableHlo.binary main_v41 main_v42 main_v43 (addf : (⟨S160000x2, .f32⟩ : BufTy).Contents (Elt F) → (⟨S160000x2, .f32⟩ : BufTy).Contents (Elt F) → (⟨S160000x2, .f32⟩ : BufTy).Contents (Elt F))
  :: StableHlo.binary main_v31 main_v43 main_v44 (Host.divf : (⟨S160000x2, .f32⟩ : BufTy).Contents (Elt F) → (⟨S160000x2, .f32⟩ : BufTy).Contents (Elt F) → (⟨S160000x2, .f32⟩ : BufTy).Contents (Elt F))
  :: StableHlo.unary main_v44 main_v45 (broadcastInDim S160000x2x1 ![0, 1] bcast_S160000x2_S160000x2x1_0_1 : (⟨S160000x2, .f32⟩ : BufTy).Contents (Elt F) → (⟨S160000x2x1, .f32⟩ : BufTy).Contents (Elt F))
  :: StableHlo.nullary main_c_10 (constantI S_ 32 0#32)
  :: StableHlo.unary main_c_10 main_v46 (broadcastInDim S160000 ![] bcast_S_S160000 : (⟨S_, .i32⟩ : BufTy).Contents (Elt F) → (⟨S160000, .i32⟩ : BufTy).Contents (Elt F))
  :: [] )
theorem opsB1_sub : (opsB1 : List (HloOp τ sig (Elt F))).Forall fun op => op.bufs ⊆ tcRefs τ sig :=
  ⟨reshape_bufs_sub .., unary_bufs_sub .., binary_bufs_sub .., nullary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub ..⟩
theorem opsB1_fresh : ∀ op ∈ (opsB1 : List (HloOp τ sig (Elt F))), op.fresh = ∅ := by
  intro _ h; (repeat (cases h with | head => rfl | tail _ h => ?_)); exact nomatch h

/-- The first layer's weighted scatter, the skip concatenation, the bias and the exponential-linear clamp inlined (%47 … %65). 35 operations. -/
abbrev opsB2 : List (HloOp τ sig (Elt F)) :=
  ( StableHlo.binary main_v1 main_v46 main_v47 (cmpi .slt : (⟨S160000, .i32⟩ : BufTy).Contents (Elt F) → (⟨S160000, .i32⟩ : BufTy).Contents (Elt F) → (⟨S160000, .i1⟩ : BufTy).Contents (Elt F))
  :: StableHlo.nullary main_c_11 (constantI S_ 32 10000#32)
  :: StableHlo.unary main_c_11 main_v48 (broadcastInDim S160000 ![] bcast_S_S160000 : (⟨S_, .i32⟩ : BufTy).Contents (Elt F) → (⟨S160000, .i32⟩ : BufTy).Contents (Elt F))
  :: StableHlo.binary main_v1 main_v48 main_v49 (addi : (⟨S160000, .i32⟩ : BufTy).Contents (Elt F) → (⟨S160000, .i32⟩ : BufTy).Contents (Elt F) → (⟨S160000, .i32⟩ : BufTy).Contents (Elt F))
  :: StableHlo.ternary main_v47 main_v49 main_v1 main_v50 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v50 main_v51 (broadcastInDim S160000x1 ![0] bcast_S160000_S160000x1_0 : (⟨S160000, .i32⟩ : BufTy).Contents (Elt F) → (⟨S160000x1, .i32⟩ : BufTy).Contents (Elt F))
  :: StableHlo.binary main_v5 main_v51 main_v52 ((fun x i => Host.gather gather_S10000x2x128_S160000x1_S160000x2x128_12_0_n_n_0_1_12128 x i) : (⟨S10000x2x128, .f32⟩ : BufTy).Contents (Elt F) → (⟨S160000x1, .i32⟩ : BufTy).Contents (Elt F) → (⟨S160000x2x128, .f32⟩ : BufTy).Contents (Elt F))
  :: StableHlo.unary main_v45 main_v53 (broadcastInDim S160000x2x128 ![0, 1, 2] bcast_S160000x2x1_S160000x2x128_0_1_2 : (⟨S160000x2x1, .f32⟩ : BufTy).Contents (Elt F) → (⟨S160000x2x128, .f32⟩ : BufTy).Contents (Elt F))
  :: StableHlo.binary main_v52 main_v53 main_v54 (mulf : (⟨S160000x2x128, .f32⟩ : BufTy).Contents (Elt F) → (⟨S160000x2x128, .f32⟩ : BufTy).Contents (Elt F) → (⟨S160000x2x128, .f32⟩ : BufTy).Contents (Elt F))
  :: StableHlo.nullary main_cst_12 (constant S_ .f32 0x00000000#32)
  :: StableHlo.unary main_cst_12 main_v55 (broadcastInDim S10000x2x128 ![] bcast_S_S10000x2x128 : (⟨S_, .f32⟩ : BufTy).Contents (Elt F) → (⟨S10000x2x128, .f32⟩ : BufTy).Contents (Elt F))
  :: StableHlo.unary main_v3 main_v56 (broadcastInDim S160000x1 ![0] bcast_S160000_S160000x1_0 : (⟨S160000, .i32⟩ : BufTy).Contents (Elt F) → (⟨S160000x1, .i32⟩ : BufTy).Contents (Elt F))
  :: StableHlo.ternary main_v55 main_v56 main_v54 main_v57 ((fun x i u => Host.scatterAdd scatter_S10000x2x128_S160000x1_S160000x2x128_12_0_0_1 x i u) : (⟨S10000x2x128, .f32⟩ : BufTy).Contents (Elt F) → (⟨S160000x1, .i32⟩ : BufTy).Contents (Elt F) → (⟨S160000x2x128, .f32⟩ : BufTy).Contents (Elt F) → (⟨S10000x2x128, .f32⟩ : BufTy).Contents (Elt F))
  :: StableHlo.unary main_arg2 main_v58 (broadcastInDim S10000x1x128 ![0, 2] bcast_S10000x128_S10000x1x128_0_2 : (⟨S10000x128, .f32⟩ : BufTy).Contents (Elt F) → (⟨S10000x1x128, .f32⟩ : BufTy).Contents (Elt F))
  :: StableHlo.unary main_v58 main_v59 (broadcastInDim S10000x2x128 ![0, 1, 2] bcast_S10000x1x128_S10000x2x128_0_1_2 : (⟨S10000x1x128, .f32⟩ : BufTy).Contents (Elt F) → (⟨S10000x2x128, .f32⟩ : BufTy).Contents (Elt F))
  :: StableHlo.binary main_v57 main_v59 main_v60 ((fun a b => concatenate S10000x2x256 2 [⟨S10000x2x128, a⟩, ⟨S10000x2x128, b⟩] concatenates_S10000x2x128_S10000x2x128_S10000x2x256_d2) : (⟨S10000x2x128, .f32⟩ : BufTy).Contents (Elt F) → (⟨S10000x2x128, .f32⟩ : BufTy).Contents (Elt F) → (⟨S10000x2x256, .f32⟩ : BufTy).Contents (Elt F))
  :: StableHlo.reshape main_v60 main_v61 rfl shapeCasts_S10000x2x256_S10000x512
  :: StableHlo.unary main_arg6 main_v62 (broadcastInDim S1x512 ![1] bcast_S512_S1x512_1 : (⟨S512, .f32⟩ : BufTy).Contents (Elt F) → (⟨S1x512, .f32⟩ : BufTy).Contents (Elt F))
  :: StableHlo.unary main_v62 main_v63 (broadcastInDim S10000x512 ![0, 1] bcast_S1x512_S10000x512_0_1 : (⟨S1x512, .f32⟩ : BufTy).Contents (Elt F) → (⟨S10000x512, .f32⟩ : BufTy).Contents (Elt F))
  :: StableHlo.binary main_v61 main_v63 main_v64 (addf : (⟨S10000x512, .f32⟩ : BufTy).Contents (Elt F) → (⟨S10000x512, .f32⟩ : BufTy).Contents (Elt F) → (⟨S10000x512, .f32⟩ : BufTy).Contents (Elt F))
  :: StableHlo.TRef.nullary (.of main_call1_cst : StableHlo.TRef sig ⟨S_, .f32⟩) (constant S_ .f32 0x00000000#32)
  :: StableHlo.TRef.unary (.of main_call1_cst : StableHlo.TRef sig ⟨S_, .f32⟩) (.of main_call1_v0 : StableHlo.TRef sig ⟨S10000x512, .f32⟩) (broadcastInDim S10000x512 ![] bcast_S_S10000x512)
  :: StableHlo.TRef.binary (.of main_v64 : StableHlo.TRef sig ⟨S10000x512, .f32⟩) (.of main_call1_v0 : StableHlo.TRef sig ⟨S10000x512, .f32⟩) (.of main_call1_v1 : StableHlo.TRef sig ⟨S10000x512, .i1⟩) (cmpf .ogt)
  :: StableHlo.TRef.nullary (.of main_call1_cst_0 : StableHlo.TRef sig ⟨S_, .f32⟩) (constant S_ .f32 0x00000000#32)
  :: StableHlo.TRef.unary (.of main_call1_cst_0 : StableHlo.TRef sig ⟨S_, .f32⟩) (.of main_call1_v2 : StableHlo.TRef sig ⟨S10000x512, .f32⟩) (broadcastInDim S10000x512 ![] bcast_S_S10000x512)
  :: StableHlo.TRef.binary (.of main_v64 : StableHlo.TRef sig ⟨S10000x512, .f32⟩) (.of main_call1_v2 : StableHlo.TRef sig ⟨S10000x512, .f32⟩) (.of main_call1_v3 : StableHlo.TRef sig ⟨S10000x512, .i1⟩) (cmpf .ogt)
  :: StableHlo.TRef.nullary (.of main_call1_cst_1 : StableHlo.TRef sig ⟨S_, .f32⟩) (constant S_ .f32 0x00000000#32)
  :: StableHlo.TRef.unary (.of main_call1_cst_1 : StableHlo.TRef sig ⟨S_, .f32⟩) (.of main_call1_call0_v0 : StableHlo.TRef sig ⟨S_, .f32⟩) id
  :: StableHlo.TRef.unary (.of main_call1_call0_v0 : StableHlo.TRef sig ⟨S_, .f32⟩) (.of main_call1_call0_v1 : StableHlo.TRef sig ⟨S10000x512, .f32⟩) (broadcastInDim S10000x512 ![] bcast_S_S10000x512)
  :: StableHlo.TRef.ternary (.of main_call1_v3 : StableHlo.TRef sig ⟨S10000x512, .i1⟩) (.of main_call1_call0_v1 : StableHlo.TRef sig ⟨S10000x512, .f32⟩) (.of main_v64 : StableHlo.TRef sig ⟨S10000x512, .f32⟩) (.of main_call1_v4 : StableHlo.TRef sig ⟨S10000x512, .f32⟩) select
  :: StableHlo.TRef.unary (.of main_call1_v4 : StableHlo.TRef sig ⟨S10000x512, .f32⟩) (.of main_call1_v5 : StableHlo.TRef sig ⟨S10000x512, .f32⟩) Host.expm1
  :: StableHlo.TRef.nullary (.of main_call1_cst_2 : StableHlo.TRef sig ⟨S_, .f32⟩) (constant S_ .f32 0x3F800000#32)
  :: StableHlo.TRef.unary (.of main_call1_cst_2 : StableHlo.TRef sig ⟨S_, .f32⟩) (.of main_call1_v6 : StableHlo.TRef sig ⟨S10000x512, .f32⟩) (broadcastInDim S10000x512 ![] bcast_S_S10000x512)
  :: StableHlo.TRef.binary (.of main_call1_v6 : StableHlo.TRef sig ⟨S10000x512, .f32⟩) (.of main_call1_v5 : StableHlo.TRef sig ⟨S10000x512, .f32⟩) (.of main_call1_v7 : StableHlo.TRef sig ⟨S10000x512, .f32⟩) mulf
  :: StableHlo.TRef.ternary (.of main_call1_v1 : StableHlo.TRef sig ⟨S10000x512, .i1⟩) (.of main_v64 : StableHlo.TRef sig ⟨S10000x512, .f32⟩) (.of main_call1_v7 : StableHlo.TRef sig ⟨S10000x512, .f32⟩) (.of main_v65 : StableHlo.TRef sig ⟨S10000x512, .f32⟩) select
  :: [] )
theorem opsB2_sub : (opsB2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem opsB2_fresh : ∀ op ∈ (opsB2 : List (HloOp τ sig (Elt F))), op.fresh = ∅ := by
  intro _ h; (repeat (cases h with | head => rfl | tail _ h => ?_)); exact nomatch h

/-- The edge table's rows again, and the second projection (%66 … %70). 5 operations. -/
abbrev opsC : List (HloOp τ sig (Elt F)) :=
  ( StableHlo.unary main_arg1 main_v66 ((extractStridedSlice S1x160000 ![0, 0] · slices_S2x160000_S1x160000_0_0) : (⟨S2x160000, .i32⟩ : BufTy).Contents (Elt F) → (⟨S1x160000, .i32⟩ : BufTy).Contents (Elt F))
  :: StableHlo.reshape main_v66 main_v67 rfl shapeCasts_S1x160000_S160000
  :: StableHlo.unary main_arg1 main_v68 ((extractStridedSlice S1x160000 ![1, 0] · slices_S2x160000_S1x160000_1_0) : (⟨S2x160000, .i32⟩ : BufTy).Contents (Elt F) → (⟨S1x160000, .i32⟩ : BufTy).Contents (Elt F))
  :: StableHlo.reshape main_v68 main_v69 rfl shapeCasts_S1x160000_S160000
  :: StableHlo.binary main_v65 main_arg7 main_v70 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F))
  :: [] )
theorem opsC_sub : (opsC : List (HloOp τ sig (Elt F))).Forall fun op => op.bufs ⊆ tcRefs τ sig :=
  ⟨unary_bufs_sub .., reshape_bufs_sub .., unary_bufs_sub .., reshape_bufs_sub .., binary_bufs_sub ..⟩
theorem opsC_fresh : ∀ op ∈ (opsC : List (HloOp τ sig (Elt F))), op.fresh = ∅ := by
  intro _ h; (repeat (cases h with | head => rfl | tail _ h => ?_)); exact nomatch h

/-- The second attention layer from the reshape to the shifted logits, the leaky clamp inlined (%71 … %96). 40 operations. -/
abbrev opsD1 : List (HloOp τ sig (Elt F)) :=
  ( StableHlo.reshape main_v70 main_v71 rfl shapeCasts_S10000x512_S10000x4x128
  :: StableHlo.unary main_arg8 main_v72 (broadcastInDim S10000x4x128 ![0, 1, 2] bcast_S1x4x128_S10000x4x128_0_1_2 : (⟨S1x4x128, .f32⟩ : BufTy).Contents (Elt F) → (⟨S10000x4x128, .f32⟩ : BufTy).Contents (Elt F))
  :: StableHlo.binary main_v71 main_v72 main_v73 (mulf : (⟨S10000x4x128, .f32⟩ : BufTy).Contents (Elt F) → (⟨S10000x4x128, .f32⟩ : BufTy).Contents (Elt F) → (⟨S10000x4x128, .f32⟩ : BufTy).Contents (Elt F))
  :: StableHlo.nullary main_cst_13 (constant S_ .f32 0x00000000#32)
  :: StableHlo.binary main_v73 main_cst_13 main_v74 ((fun x v => Host.reduceAdd x v reducesTo_S10000x4x128_S10000x4_d2 h_S_) : (⟨S10000x4x128, .f32⟩ : BufTy).Contents (Elt F) → (⟨S_, .f32⟩ : BufTy).Contents (Elt F) → (⟨S10000x4, .f32⟩ : BufTy).Contents (Elt F))
  :: StableHlo.unary main_arg9 main_v75 (broadcastInDim S10000x4x128 ![0, 1, 2] bcast_S1x4x128_S10000x4x128_0_1_2 : (⟨S1x4x128, .f32⟩ : BufTy).Contents (Elt F) → (⟨S10000x4x128, .f32⟩ : BufTy).Contents (Elt F))
  :: StableHlo.binary main_v71 main_v75 main_v76 (mulf : (⟨S10000x4x128, .f32⟩ : BufTy).Contents (Elt F) → (⟨S10000x4x128, .f32⟩ : BufTy).Contents (Elt F) → (⟨S10000x4x128, .f32⟩ : BufTy).Contents (Elt F))
  :: StableHlo.nullary main_cst_14 (constant S_ .f32 0x00000000#32)
  :: StableHlo.binary main_v76 main_cst_14 main_v77 ((fun x v => Host.reduceAdd x v reducesTo_S10000x4x128_S10000x4_d2 h_S_) : (⟨S10000x4x128, .f32⟩ : BufTy).Contents (Elt F) → (⟨S_, .f32⟩ : BufTy).Contents (Elt F) → (⟨S10000x4, .f32⟩ : BufTy).Contents (Elt F))
  :: StableHlo.nullary main_c_15 (constantI S_ 32 0#32)
  :: StableHlo.unary main_c_15 main_v78 (broadcastInDim S160000 ![] bcast_S_S160000 : (⟨S_, .i32⟩ : BufTy).Contents (Elt F) → (⟨S160000, .i32⟩ : BufTy).Contents (Elt F))
  :: StableHlo.binary main_v67 main_v78 main_v79 (cmpi .slt : (⟨S160000, .i32⟩ : BufTy).Contents (Elt F) → (⟨S160000, .i32⟩ : BufTy).Contents (Elt F) → (⟨S160000, .i1⟩ : BufTy).Contents (Elt F))
  :: StableHlo.nullary main_c_16 (constantI S_ 32 10000#32)
  :: StableHlo.unary main_c_16 main_v80 (broadcastInDim S160000 ![] bcast_S_S160000 : (⟨S_, .i32⟩ : BufTy).Contents (Elt F) → (⟨S160000, .i32⟩ : BufTy).Contents (Elt F))
  :: StableHlo.binary main_v67 main_v80 main_v81 (addi : (⟨S160000, .i32⟩ : BufTy).Contents (Elt F) → (⟨S160000, .i32⟩ : BufTy).Contents (Elt F) → (⟨S160000, .i32⟩ : BufTy).Contents (Elt F))
  :: StableHlo.ternary main_v79 main_v81 main_v67 main_v82 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v82 main_v83 (broadcastInDim S160000x1 ![0] bcast_S160000_S160000x1_0 : (⟨S160000, .i32⟩ : BufTy).Contents (Elt F) → (⟨S160000x1, .i32⟩ : BufTy).Contents (Elt F))
  :: StableHlo.binary main_v74 main_v83 main_v84 ((fun x i => Host.gather gather_S10000x4_S160000x1_S160000x4_1_0_n_n_0_1_14 x i) : (⟨S10000x4, .f32⟩ : BufTy).Contents (Elt F) → (⟨S160000x1, .i32⟩ : BufTy).Contents (Elt F) → (⟨S160000x4, .f32⟩ : BufTy).Contents (Elt F))
  :: StableHlo.nullary main_c_17 (constantI S_ 32 0#32)
  :: StableHlo.unary main_c_17 main_v85 (broadcastInDim S160000 ![] bcast_S_S160000 : (⟨S_, .i32⟩ : BufTy).Contents (Elt F) → (⟨S160000, .i32⟩ : BufTy).Contents (Elt F))
  :: StableHlo.binary main_v69 main_v85 main_v86 (cmpi .slt : (⟨S160000, .i32⟩ : BufTy).Contents (Elt F) → (⟨S160000, .i32⟩ : BufTy).Contents (Elt F) → (⟨S160000, .i1⟩ : BufTy).Contents (Elt F))
  :: StableHlo.nullary main_c_18 (constantI S_ 32 10000#32)
  :: StableHlo.unary main_c_18 main_v87 (broadcastInDim S160000 ![] bcast_S_S160000 : (⟨S_, .i32⟩ : BufTy).Contents (Elt F) → (⟨S160000, .i32⟩ : BufTy).Contents (Elt F))
  :: StableHlo.binary main_v69 main_v87 main_v88 (addi : (⟨S160000, .i32⟩ : BufTy).Contents (Elt F) → (⟨S160000, .i32⟩ : BufTy).Contents (Elt F) → (⟨S160000, .i32⟩ : BufTy).Contents (Elt F))
  :: StableHlo.ternary main_v86 main_v88 main_v69 main_v89 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v89 main_v90 (broadcastInDim S160000x1 ![0] bcast_S160000_S160000x1_0 : (⟨S160000, .i32⟩ : BufTy).Contents (Elt F) → (⟨S160000x1, .i32⟩ : BufTy).Contents (Elt F))
  :: StableHlo.binary main_v77 main_v90 main_v91 ((fun x i => Host.gather gather_S10000x4_S160000x1_S160000x4_1_0_n_n_0_1_14 x i) : (⟨S10000x4, .f32⟩ : BufTy).Contents (Elt F) → (⟨S160000x1, .i32⟩ : BufTy).Contents (Elt F) → (⟨S160000x4, .f32⟩ : BufTy).Contents (Elt F))
  :: StableHlo.binary main_v84 main_v91 main_v92 (addf : (⟨S160000x4, .f32⟩ : BufTy).Contents (Elt F) → (⟨S160000x4, .f32⟩ : BufTy).Contents (Elt F) → (⟨S160000x4, .f32⟩ : BufTy).Contents (Elt F))
  :: StableHlo.nullary main_cst_19 (constant S_ .f32 0x3E4CCCCD#32)
  :: StableHlo.TRef.nullary (.of main_call2_cst : StableHlo.TRef sig ⟨S_, .f32⟩) (constant S_ .f32 0x00000000#32)
  :: StableHlo.TRef.unary (.of main_call2_cst : StableHlo.TRef sig ⟨S_, .f32⟩) (.of main_call2_v0 : StableHlo.TRef sig ⟨S160000x4, .f32⟩) (broadcastInDim S160000x4 ![] bcast_S_S160000x4)
  :: StableHlo.TRef.binary (.of main_v92 : StableHlo.TRef sig ⟨S160000x4, .f32⟩) (.of main_call2_v0 : StableHlo.TRef sig ⟨S160000x4, .f32⟩) (.of main_call2_v1 : StableHlo.TRef sig ⟨S160000x4, .i1⟩) (cmpf .oge)
  :: StableHlo.TRef.unary (.of main_cst_19 : StableHlo.TRef sig ⟨S_, .f32⟩) (.of main_call2_v2 : StableHlo.TRef sig ⟨S_, .f32⟩) id
  :: StableHlo.TRef.unary (.of main_call2_v2 : StableHlo.TRef sig ⟨S_, .f32⟩) (.of main_call2_v3 : StableHlo.TRef sig ⟨S160000x4, .f32⟩) (broadcastInDim S160000x4 ![] bcast_S_S160000x4)
  :: StableHlo.TRef.binary (.of main_call2_v3 : StableHlo.TRef sig ⟨S160000x4, .f32⟩) (.of main_v92 : StableHlo.TRef sig ⟨S160000x4, .f32⟩) (.of main_call2_v4 : StableHlo.TRef sig ⟨S160000x4, .f32⟩) mulf
  :: StableHlo.TRef.ternary (.of main_call2_v1 : StableHlo.TRef sig ⟨S160000x4, .i1⟩) (.of main_v92 : StableHlo.TRef sig ⟨S160000x4, .f32⟩) (.of main_call2_v4 : StableHlo.TRef sig ⟨S160000x4, .f32⟩) (.of main_v93 : StableHlo.TRef sig ⟨S160000x4, .f32⟩) select
  :: StableHlo.nullary main_cst_20 (constant S_ .f32 0xFF800000#32)
  :: StableHlo.binary main_v93 main_cst_20 main_v94 ((fun x v => Host.reduce FloatOps.maximumf x v reducesTo_S160000x4_S_d0_1 h_S_) : (⟨S160000x4, .f32⟩ : BufTy).Contents (Elt F) → (⟨S_, .f32⟩ : BufTy).Contents (Elt F) → (⟨S_, .f32⟩ : BufTy).Contents (Elt F))
  :: StableHlo.unary main_v94 main_v95 (broadcastInDim S160000x4 ![] bcast_S_S160000x4 : (⟨S_, .f32⟩ : BufTy).Contents (Elt F) → (⟨S160000x4, .f32⟩ : BufTy).Contents (Elt F))
  :: StableHlo.binary main_v93 main_v95 main_v96 (subf : (⟨S160000x4, .f32⟩ : BufTy).Contents (Elt F) → (⟨S160000x4, .f32⟩ : BufTy).Contents (Elt F) → (⟨S160000x4, .f32⟩ : BufTy).Contents (Elt F))
  :: [] )
theorem opsD1_sub : (opsD1 : List (HloOp τ sig (Elt F))).Forall fun op => op.bufs ⊆ tcRefs τ sig :=
  ⟨reshape_bufs_sub .., unary_bufs_sub .., binary_bufs_sub .., nullary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., unary_bufs_sub .., binary_bufs_sub ..⟩
theorem opsD1_fresh : ∀ op ∈ (opsD1 : List (HloOp τ sig (Elt F))), op.fresh = ∅ := by
  intro _ h; (repeat (cases h with | head => rfl | tail _ h => ?_)); exact nomatch h

/-- The second layer's softmax weights, weighted scatter, mean over heads, bias and clamp inlined, then the first end point's gather and the second's index test (%97 … %c_33). 74 operations. -/
abbrev opsD2 : List (HloOp τ sig (Elt F)) :=
  ( StableHlo.unary main_v96 main_v97 (Host.exp : (⟨S160000x4, .f32⟩ : BufTy).Contents (Elt F) → (⟨S160000x4, .f32⟩ : BufTy).Contents (Elt F))
  :: StableHlo.nullary main_cst_21 (constant S_ .f32 0x00000000#32)
  :: StableHlo.unary main_cst_21 main_v98 (broadcastInDim S10000x4 ![] bcast_S_S10000x4 : (⟨S_, .f32⟩ : BufTy).Contents (Elt F) → (⟨S10000x4, .f32⟩ : BufTy).Contents (Elt F))
  :: StableHlo.unary main_v69 main_v99 (broadcastInDim S160000x1 ![0] bcast_S160000_S160000x1_0 : (⟨S160000, .i32⟩ : BufTy).Contents (Elt F) → (⟨S160000x1, .i32⟩ : BufTy).Contents (Elt F))
  :: StableHlo.ternary main_v98 main_v99 main_v97 main_v100 ((fun x i u => Host.scatterAdd scatter_S10000x4_S160000x1_S160000x4_1_0_0_1 x i u) : (⟨S10000x4, .f32⟩ : BufTy).Contents (Elt F) → (⟨S160000x1, .i32⟩ : BufTy).Contents (Elt F) → (⟨S160000x4, .f32⟩ : BufTy).Contents (Elt F) → (⟨S10000x4, .f32⟩ : BufTy).Contents (Elt F))
  :: StableHlo.nullary main_c_22 (constantI S_ 32 0#32)
  :: StableHlo.unary main_c_22 main_v101 (broadcastInDim S160000 ![] bcast_S_S160000 : (⟨S_, .i32⟩ : BufTy).Contents (Elt F) → (⟨S160000, .i32⟩ : BufTy).Contents (Elt F))
  :: StableHlo.binary main_v69 main_v101 main_v102 (cmpi .slt : (⟨S160000, .i32⟩ : BufTy).Contents (Elt F) → (⟨S160000, .i32⟩ : BufTy).Contents (Elt F) → (⟨S160000, .i1⟩ : BufTy).Contents (Elt F))
  :: StableHlo.nullary main_c_23 (constantI S_ 32 10000#32)
  :: StableHlo.unary main_c_23 main_v103 (broadcastInDim S160000 ![] bcast_S_S160000 : (⟨S_, .i32⟩ : BufTy).Contents (Elt F) → (⟨S160000, .i32⟩ : BufTy).Contents (Elt F))
  :: StableHlo.binary main_v69 main_v103 main_v104 (addi : (⟨S160000, .i32⟩ : BufTy).Contents (Elt F) → (⟨S160000, .i32⟩ : BufTy).Contents (Elt F) → (⟨S160000, .i32⟩ : BufTy).Contents (Elt F))
  :: StableHlo.ternary main_v102 main_v104 main_v69 main_v105 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v105 main_v106 (broadcastInDim S160000x1 ![0] bcast_S160000_S160000x1_0 : (⟨S160000, .i32⟩ : BufTy).Contents (Elt F) → (⟨S160000x1, .i32⟩ : BufTy).Contents (Elt F))
  :: StableHlo.binary main_v100 main_v106 main_v107 ((fun x i => Host.gather gather_S10000x4_S160000x1_S160000x4_1_0_n_n_0_1_14 x i) : (⟨S10000x4, .f32⟩ : BufTy).Contents (Elt F) → (⟨S160000x1, .i32⟩ : BufTy).Contents (Elt F) → (⟨S160000x4, .f32⟩ : BufTy).Contents (Elt F))
  :: StableHlo.nullary main_cst_24 (constant S_ .f32 0x24E69595#32)
  :: StableHlo.unary main_cst_24 main_v108 (broadcastInDim S160000x4 ![] bcast_S_S160000x4 : (⟨S_, .f32⟩ : BufTy).Contents (Elt F) → (⟨S160000x4, .f32⟩ : BufTy).Contents (Elt F))
  :: StableHlo.binary main_v107 main_v108 main_v109 (addf : (⟨S160000x4, .f32⟩ : BufTy).Contents (Elt F) → (⟨S160000x4, .f32⟩ : BufTy).Contents (Elt F) → (⟨S160000x4, .f32⟩ : BufTy).Contents (Elt F))
  :: StableHlo.binary main_v97 main_v109 main_v110 (Host.divf : (⟨S160000x4, .f32⟩ : BufTy).Contents (Elt F) → (⟨S160000x4, .f32⟩ : BufTy).Contents (Elt F) → (⟨S160000x4, .f32⟩ : BufTy).Contents (Elt F))
  :: StableHlo.unary main_v110 main_v111 (broadcastInDim S160000x4x1 ![0, 1] bcast_S160000x4_S160000x4x1_0_1 : (⟨S160000x4, .f32⟩ : BufTy).Contents (Elt F) → (⟨S160000x4x1, .f32⟩ : BufTy).Contents (Elt F))
  :: StableHlo.nullary main_c_25 (constantI S_ 32 0#32)
  :: StableHlo.unary main_c_25 main_v112 (broadcastInDim S160000 ![] bcast_S_S160000 : (⟨S_, .i32⟩ : BufTy).Contents (Elt F) → (⟨S160000, .i32⟩ : BufTy).Contents (Elt F))
  :: StableHlo.binary main_v67 main_v112 main_v113 (cmpi .slt : (⟨S160000, .i32⟩ : BufTy).Contents (Elt F) → (⟨S160000, .i32⟩ : BufTy).Contents (Elt F) → (⟨S160000, .i1⟩ : BufTy).Contents (Elt F))
  :: StableHlo.nullary main_c_26 (constantI S_ 32 10000#32)
  :: StableHlo.unary main_c_26 main_v114 (broadcastInDim S160000 ![] bcast_S_S160000 : (⟨S_, .i32⟩ : BufTy).Contents (Elt F) → (⟨S160000, .i32⟩ : BufTy).Contents (Elt F))
  :: StableHlo.binary main_v67 main_v114 main_v115 (addi : (⟨S160000, .i32⟩ : BufTy).Contents (Elt F) → (⟨S160000, .i32⟩ : BufTy).Contents (Elt F) → (⟨S160000, .i32⟩ : BufTy).Contents (Elt F))
  :: StableHlo.ternary main_v113 main_v115 main_v67 main_v116 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v116 main_v117 (broadcastInDim S160000x1 ![0] bcast_S160000_S160000x1_0 : (⟨S160000, .i32⟩ : BufTy).Contents (Elt F) → (⟨S160000x1, .i32⟩ : BufTy).Contents (Elt F))
  :: StableHlo.binary main_v71 main_v117 main_v118 ((fun x i => Host.gather gather_S10000x4x128_S160000x1_S160000x4x128_12_0_n_n_0_1_14128 x i) : (⟨S10000x4x128, .f32⟩ : BufTy).Contents (Elt F) → (⟨S160000x1, .i32⟩ : BufTy).Contents (Elt F) → (⟨S160000x4x128, .f32⟩ : BufTy).Contents (Elt F))
  :: StableHlo.unary main_v111 main_v119 (broadcastInDim S160000x4x128 ![0, 1, 2] bcast_S160000x4x1_S160000x4x128_0_1_2 : (⟨S160000x4x1, .f32⟩ : BufTy).Contents (Elt F) → (⟨S160000x4x128, .f32⟩ : BufTy).Contents (Elt F))
  :: StableHlo.binary main_v118 main_v119 main_v120 (mulf : (⟨S160000x4x128, .f32⟩ : BufTy).Contents (Elt F) → (⟨S160000x4x128, .f32⟩ : BufTy).Contents (Elt F) → (⟨S160000x4x128, .f32⟩ : BufTy).Contents (Elt F))
  :: StableHlo.nullary main_cst_27 (constant S_ .f32 0x00000000#32)
  :: StableHlo.unary main_cst_27 main_v121 (broadcastInDim S10000x4x128 ![] bcast_S_S10000x4x128 : (⟨S_, .f32⟩ : BufTy).Contents (Elt F) → (⟨S10000x4x128, .f32⟩ : BufTy).Contents (Elt F))
  :: StableHlo.unary main_v69 main_v122 (broadcastInDim S160000x1 ![0] bcast_S160000_S160000x1_0 : (⟨S160000, .i32⟩ : BufTy).Contents (Elt F) → (⟨S160000x1, .i32⟩ : BufTy).Contents (Elt F))
  :: StableHlo.ternary main_v121 main_v122 main_v120 main_v123 ((fun x i u => Host.scatterAdd scatter_S10000x4x128_S160000x1_S160000x4x128_12_0_0_1 x i u) : (⟨S10000x4x128, .f32⟩ : BufTy).Contents (Elt F) → (⟨S160000x1, .i32⟩ : BufTy).Contents (Elt F) → (⟨S160000x4x128, .f32⟩ : BufTy).Contents (Elt F) → (⟨S10000x4x128, .f32⟩ : BufTy).Contents (Elt F))
  :: StableHlo.nullary main_cst_28 (constant S_ .f32 0x00000000#32)
  :: StableHlo.binary main_v123 main_cst_28 main_v124 ((fun x v => Host.reduceAdd x v reducesTo_S10000x4x128_S10000x128_d1 h_S_) : (⟨S10000x4x128, .f32⟩ : BufTy).Contents (Elt F) → (⟨S_, .f32⟩ : BufTy).Contents (Elt F) → (⟨S10000x128, .f32⟩ : BufTy).Contents (Elt F))
  :: StableHlo.nullary main_cst_29 (constant S_ .f32 0x40800000#32)
  :: StableHlo.unary main_cst_29 main_v125 (broadcastInDim S10000x128 ![] bcast_S_S10000x128 : (⟨S_, .f32⟩ : BufTy).Contents (Elt F) → (⟨S10000x128, .f32⟩ : BufTy).Contents (Elt F))
  :: StableHlo.binary main_v124 main_v125 main_v126 (Host.divf : (⟨S10000x128, .f32⟩ : BufTy).Contents (Elt F) → (⟨S10000x128, .f32⟩ : BufTy).Contents (Elt F) → (⟨S10000x128, .f32⟩ : BufTy).Contents (Elt F))
  :: StableHlo.unary main_arg10 main_v127 (broadcastInDim S1x128 ![1] bcast_S128_S1x128_1 : (⟨S128, .f32⟩ : BufTy).Contents (Elt F) → (⟨S1x128, .f32⟩ : BufTy).Contents (Elt F))
  :: StableHlo.unary main_v127 main_v128 (broadcastInDim S10000x128 ![0, 1] bcast_S1x128_S10000x128_0_1 : (⟨S1x128, .f32⟩ : BufTy).Contents (Elt F) → (⟨S10000x128, .f32⟩ : BufTy).Contents (Elt F))
  :: StableHlo.binary main_v126 main_v128 main_v129 (addf : (⟨S10000x128, .f32⟩ : BufTy).Contents (Elt F) → (⟨S10000x128, .f32⟩ : BufTy).Contents (Elt F) → (⟨S10000x128, .f32⟩ : BufTy).Contents (Elt F))
  :: StableHlo.TRef.nullary (.of main_call3_cst : StableHlo.TRef sig ⟨S_, .f32⟩) (constant S_ .f32 0x00000000#32)
  :: StableHlo.TRef.unary (.of main_call3_cst : StableHlo.TRef sig ⟨S_, .f32⟩) (.of main_call3_v0 : StableHlo.TRef sig ⟨S10000x128, .f32⟩) (broadcastInDim S10000x128 ![] bcast_S_S10000x128)
  :: StableHlo.TRef.binary (.of main_v129 : StableHlo.TRef sig ⟨S10000x128, .f32⟩) (.of main_call3_v0 : StableHlo.TRef sig ⟨S10000x128, .f32⟩) (.of main_call3_v1 : StableHlo.TRef sig ⟨S10000x128, .i1⟩) (cmpf .ogt)
  :: StableHlo.TRef.nullary (.of main_call3_cst_0 : StableHlo.TRef sig ⟨S_, .f32⟩) (constant S_ .f32 0x00000000#32)
  :: StableHlo.TRef.unary (.of main_call3_cst_0 : StableHlo.TRef sig ⟨S_, .f32⟩) (.of main_call3_v2 : StableHlo.TRef sig ⟨S10000x128, .f32⟩) (broadcastInDim S10000x128 ![] bcast_S_S10000x128)
  :: StableHlo.TRef.binary (.of main_v129 : StableHlo.TRef sig ⟨S10000x128, .f32⟩) (.of main_call3_v2 : StableHlo.TRef sig ⟨S10000x128, .f32⟩) (.of main_call3_v3 : StableHlo.TRef sig ⟨S10000x128, .i1⟩) (cmpf .ogt)
  :: StableHlo.TRef.nullary (.of main_call3_cst_1 : StableHlo.TRef sig ⟨S_, .f32⟩) (constant S_ .f32 0x00000000#32)
  :: StableHlo.TRef.unary (.of main_call3_cst_1 : StableHlo.TRef sig ⟨S_, .f32⟩) (.of main_call3_call0_v0 : StableHlo.TRef sig ⟨S_, .f32⟩) id
  :: StableHlo.TRef.unary (.of main_call3_call0_v0 : StableHlo.TRef sig ⟨S_, .f32⟩) (.of main_call3_call0_v1 : StableHlo.TRef sig ⟨S10000x128, .f32⟩) (broadcastInDim S10000x128 ![] bcast_S_S10000x128)
  :: StableHlo.TRef.ternary (.of main_call3_v3 : StableHlo.TRef sig ⟨S10000x128, .i1⟩) (.of main_call3_call0_v1 : StableHlo.TRef sig ⟨S10000x128, .f32⟩) (.of main_v129 : StableHlo.TRef sig ⟨S10000x128, .f32⟩) (.of main_call3_v4 : StableHlo.TRef sig ⟨S10000x128, .f32⟩) select
  :: StableHlo.TRef.unary (.of main_call3_v4 : StableHlo.TRef sig ⟨S10000x128, .f32⟩) (.of main_call3_v5 : StableHlo.TRef sig ⟨S10000x128, .f32⟩) Host.expm1
  :: StableHlo.TRef.nullary (.of main_call3_cst_2 : StableHlo.TRef sig ⟨S_, .f32⟩) (constant S_ .f32 0x3F800000#32)
  :: StableHlo.TRef.unary (.of main_call3_cst_2 : StableHlo.TRef sig ⟨S_, .f32⟩) (.of main_call3_v6 : StableHlo.TRef sig ⟨S10000x128, .f32⟩) (broadcastInDim S10000x128 ![] bcast_S_S10000x128)
  :: StableHlo.TRef.binary (.of main_call3_v6 : StableHlo.TRef sig ⟨S10000x128, .f32⟩) (.of main_call3_v5 : StableHlo.TRef sig ⟨S10000x128, .f32⟩) (.of main_call3_v7 : StableHlo.TRef sig ⟨S10000x128, .f32⟩) mulf
  :: StableHlo.TRef.ternary (.of main_call3_v1 : StableHlo.TRef sig ⟨S10000x128, .i1⟩) (.of main_v129 : StableHlo.TRef sig ⟨S10000x128, .f32⟩) (.of main_call3_v7 : StableHlo.TRef sig ⟨S10000x128, .f32⟩) (.of main_v130 : StableHlo.TRef sig ⟨S10000x128, .f32⟩) select
  :: StableHlo.unary main_arg1 main_v131 ((extractStridedSlice S1x160000 ![0, 0] · slices_S2x160000_S1x160000_0_0) : (⟨S2x160000, .i32⟩ : BufTy).Contents (Elt F) → (⟨S1x160000, .i32⟩ : BufTy).Contents (Elt F))
  :: StableHlo.reshape main_v131 main_v132 rfl shapeCasts_S1x160000_S160000
  :: StableHlo.nullary main_c_30 (constantI S_ 32 0#32)
  :: StableHlo.unary main_c_30 main_v133 (broadcastInDim S160000 ![] bcast_S_S160000 : (⟨S_, .i32⟩ : BufTy).Contents (Elt F) → (⟨S160000, .i32⟩ : BufTy).Contents (Elt F))
  :: StableHlo.binary main_v132 main_v133 main_v134 (cmpi .slt : (⟨S160000, .i32⟩ : BufTy).Contents (Elt F) → (⟨S160000, .i32⟩ : BufTy).Contents (Elt F) → (⟨S160000, .i1⟩ : BufTy).Contents (Elt F))
  :: StableHlo.nullary main_c_31 (constantI S_ 32 10000#32)
  :: StableHlo.unary main_c_31 main_v135 (broadcastInDim S160000 ![] bcast_S_S160000 : (⟨S_, .i32⟩ : BufTy).Contents (Elt F) → (⟨S160000, .i32⟩ : BufTy).Contents (Elt F))
  :: StableHlo.binary main_v132 main_v135 main_v136 (addi : (⟨S160000, .i32⟩ : BufTy).Contents (Elt F) → (⟨S160000, .i32⟩ : BufTy).Contents (Elt F) → (⟨S160000, .i32⟩ : BufTy).Contents (Elt F))
  :: StableHlo.ternary main_v134 main_v136 main_v132 main_v137 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v137 main_v138 (broadcastInDim S160000x1 ![0] bcast_S160000_S160000x1_0 : (⟨S160000, .i32⟩ : BufTy).Contents (Elt F) → (⟨S160000x1, .i32⟩ : BufTy).Contents (Elt F))
  :: StableHlo.binary main_v130 main_v138 main_v139 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F))
  :: StableHlo.unary main_arg1 main_v140 ((extractStridedSlice S1x160000 ![1, 0] · slices_S2x160000_S1x160000_1_0) : (⟨S2x160000, .i32⟩ : BufTy).Contents (Elt F) → (⟨S1x160000, .i32⟩ : BufTy).Contents (Elt F))
  :: StableHlo.reshape main_v140 main_v141 rfl shapeCasts_S1x160000_S160000
  :: StableHlo.nullary main_c_32 (constantI S_ 32 0#32)
  :: StableHlo.unary main_c_32 main_v142 (broadcastInDim S160000 ![] bcast_S_S160000 : (⟨S_, .i32⟩ : BufTy).Contents (Elt F) → (⟨S160000, .i32⟩ : BufTy).Contents (Elt F))
  :: StableHlo.binary main_v141 main_v142 main_v143 (cmpi .slt : (⟨S160000, .i32⟩ : BufTy).Contents (Elt F) → (⟨S160000, .i32⟩ : BufTy).Contents (Elt F) → (⟨S160000, .i1⟩ : BufTy).Contents (Elt F))
  :: StableHlo.nullary main_c_33 (constantI S_ 32 10000#32)
  :: [] )
theorem opsD2_sub : (opsD2 : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub ..⟩
theorem opsD2_fresh : ∀ op ∈ (opsD2 : List (HloOp τ sig (Elt F))), op.fresh = ∅ := by
  intro _ h; (repeat (cases h with | head => rfl | tail _ h => ?_)); exact nomatch h

/-- The second end point's wrapped index and its gather (%144 … %148). 5 operations. -/
abbrev opsD3 : List (HloOp τ sig (Elt F)) :=
  ( StableHlo.unary main_c_33 main_v144 (broadcastInDim S160000 ![] bcast_S_S160000 : (⟨S_, .i32⟩ : BufTy).Contents (Elt F) → (⟨S160000, .i32⟩ : BufTy).Contents (Elt F))
  :: StableHlo.binary main_v141 main_v144 main_v145 (addi : (⟨S160000, .i32⟩ : BufTy).Contents (Elt F) → (⟨S160000, .i32⟩ : BufTy).Contents (Elt F) → (⟨S160000, .i32⟩ : BufTy).Contents (Elt F))
  :: StableHlo.ternary main_v143 main_v145 main_v141 main_v146 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F))
  :: StableHlo.unary main_v146 main_v147 (broadcastInDim S160000x1 ![0] bcast_S160000_S160000x1_0 : (⟨S160000, .i32⟩ : BufTy).Contents (Elt F) → (⟨S160000x1, .i32⟩ : BufTy).Contents (Elt F))
  :: StableHlo.binary main_v130 main_v147 main_v148 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F))
  :: [] )
theorem opsD3_sub : (opsD3 : List (HloOp τ sig (Elt F))).Forall fun op => op.bufs ⊆ tcRefs τ sig :=
  ⟨unary_bufs_sub .., binary_bufs_sub .., ternary_bufs_sub .., unary_bufs_sub .., binary_bufs_sub ..⟩
theorem opsD3_fresh : ∀ op ∈ (opsD3 : List (HloOp τ sig (Elt F))), op.fresh = ∅ := by
  intro _ h; (repeat (cases h with | head => rfl | tail _ h => ?_)); exact nomatch h

/-- The edge scorer: the four-part feature row, three dense layers with their clamps inlined, and the logistic function (%149 … %171). 29 operations. -/
abbrev opsE : List (HloOp τ sig (Elt F)) :=
  ( StableHlo.binary main_v139 main_v148 main_v149 (addf : (⟨S160000x128, .f32⟩ : BufTy).Contents (Elt F) → (⟨S160000x128, .f32⟩ : BufTy).Contents (Elt F) → (⟨S160000x128, .f32⟩ : BufTy).Contents (Elt F))
  :: StableHlo.binary main_v139 main_v148 main_v150 (mulf : (⟨S160000x128, .f32⟩ : BufTy).Contents (Elt F) → (⟨S160000x128, .f32⟩ : BufTy).Contents (Elt F) → (⟨S160000x128, .f32⟩ : BufTy).Contents (Elt F))
  :: StableHlo.nary ![main_v149, main_v150, main_v139, main_v148] main_v151 (fun u => concatenate S160000x512 1 [⟨S160000x128, u 0⟩, ⟨S160000x128, u 1⟩, ⟨S160000x128, u 2⟩, ⟨S160000x128, u 3⟩] concatenates_S160000x128_S160000x128_S160000x128_S160000x128_S160000x512_d1)
  :: StableHlo.binary main_v151 main_arg11 main_v152 ((fun l r => Host.dotGeneral dot_S160000x512_S512x1024_S160000x1024_1_0_0_1_n_n none l r) : (⟨S160000x512, .f32⟩ : BufTy).Contents (Elt F) → (⟨S512x1024, .f32⟩ : BufTy).Contents (Elt F) → (⟨S160000x1024, .f32⟩ : BufTy).Contents (Elt F))
  :: StableHlo.unary main_arg12 main_v153 (broadcastInDim S1x1024 ![1] bcast_S1024_S1x1024_1 : (⟨S1024, .f32⟩ : BufTy).Contents (Elt F) → (⟨S1x1024, .f32⟩ : BufTy).Contents (Elt F))
  :: StableHlo.unary main_v153 main_v154 (broadcastInDim S160000x1024 ![0, 1] bcast_S1x1024_S160000x1024_0_1 : (⟨S1x1024, .f32⟩ : BufTy).Contents (Elt F) → (⟨S160000x1024, .f32⟩ : BufTy).Contents (Elt F))
  :: StableHlo.binary main_v152 main_v154 main_v155 (addf : (⟨S160000x1024, .f32⟩ : BufTy).Contents (Elt F) → (⟨S160000x1024, .f32⟩ : BufTy).Contents (Elt F) → (⟨S160000x1024, .f32⟩ : BufTy).Contents (Elt F))
  :: StableHlo.TRef.nullary (.of main_call4_cst : StableHlo.TRef sig ⟨S_, .f32⟩) (constant S_ .f32 0x00000000#32)
  :: StableHlo.TRef.unary (.of main_call4_cst : StableHlo.TRef sig ⟨S_, .f32⟩) (.of main_call4_v0 : StableHlo.TRef sig ⟨S160000x1024, .f32⟩) (broadcastInDim S160000x1024 ![] bcast_S_S160000x1024)
  :: StableHlo.TRef.binary (.of main_v155 : StableHlo.TRef sig ⟨S160000x1024, .f32⟩) (.of main_call4_v0 : StableHlo.TRef sig ⟨S160000x1024, .f32⟩) (.of main_v156 : StableHlo.TRef sig ⟨S160000x1024, .f32⟩) maximumf
  :: StableHlo.binary main_v156 main_arg13 main_v157 ((fun l r => Host.dotGeneral dot_S160000x1024_S1024x512_S160000x512_1_0_0_1_n_n none l r) : (⟨S160000x1024, .f32⟩ : BufTy).Contents (Elt F) → (⟨S1024x512, .f32⟩ : BufTy).Contents (Elt F) → (⟨S160000x512, .f32⟩ : BufTy).Contents (Elt F))
  :: StableHlo.unary main_arg14 main_v158 (broadcastInDim S1x512 ![1] bcast_S512_S1x512_1 : (⟨S512, .f32⟩ : BufTy).Contents (Elt F) → (⟨S1x512, .f32⟩ : BufTy).Contents (Elt F))
  :: StableHlo.unary main_v158 main_v159 (broadcastInDim S160000x512 ![0, 1] bcast_S1x512_S160000x512_0_1 : (⟨S1x512, .f32⟩ : BufTy).Contents (Elt F) → (⟨S160000x512, .f32⟩ : BufTy).Contents (Elt F))
  :: StableHlo.binary main_v157 main_v159 main_v160 (addf : (⟨S160000x512, .f32⟩ : BufTy).Contents (Elt F) → (⟨S160000x512, .f32⟩ : BufTy).Contents (Elt F) → (⟨S160000x512, .f32⟩ : BufTy).Contents (Elt F))
  :: StableHlo.TRef.nullary (.of main_call5_cst : StableHlo.TRef sig ⟨S_, .f32⟩) (constant S_ .f32 0x00000000#32)
  :: StableHlo.TRef.unary (.of main_call5_cst : StableHlo.TRef sig ⟨S_, .f32⟩) (.of main_call5_v0 : StableHlo.TRef sig ⟨S160000x512, .f32⟩) (broadcastInDim S160000x512 ![] bcast_S_S160000x512)
  :: StableHlo.TRef.binary (.of main_v160 : StableHlo.TRef sig ⟨S160000x512, .f32⟩) (.of main_call5_v0 : StableHlo.TRef sig ⟨S160000x512, .f32⟩) (.of main_v161 : StableHlo.TRef sig ⟨S160000x512, .f32⟩) maximumf
  :: StableHlo.binary main_v161 main_arg15 main_v162 ((fun l r => Host.dotGeneral dot_S160000x512_S512x1_S160000x1_1_0_0_1_n_n none l r) : (⟨S160000x512, .f32⟩ : BufTy).Contents (Elt F) → (⟨S512x1, .f32⟩ : BufTy).Contents (Elt F) → (⟨S160000x1, .f32⟩ : BufTy).Contents (Elt F))
  :: StableHlo.unary main_arg16 main_v163 (broadcastInDim S1x1 ![1] bcast_S1_S1x1_1 : (⟨S1, .f32⟩ : BufTy).Contents (Elt F) → (⟨S1x1, .f32⟩ : BufTy).Contents (Elt F))
  :: StableHlo.unary main_v163 main_v164 (broadcastInDim S160000x1 ![0, 1] bcast_S1x1_S160000x1_0_1 : (⟨S1x1, .f32⟩ : BufTy).Contents (Elt F) → (⟨S160000x1, .f32⟩ : BufTy).Contents (Elt F))
  :: StableHlo.binary main_v162 main_v164 main_v165 (addf : (⟨S160000x1, .f32⟩ : BufTy).Contents (Elt F) → (⟨S160000x1, .f32⟩ : BufTy).Contents (Elt F) → (⟨S160000x1, .f32⟩ : BufTy).Contents (Elt F))
  :: StableHlo.unary main_v165 main_v166 (Host.negf : (⟨S160000x1, .f32⟩ : BufTy).Contents (Elt F) → (⟨S160000x1, .f32⟩ : BufTy).Contents (Elt F))
  :: StableHlo.unary main_v166 main_v167 (Host.exp : (⟨S160000x1, .f32⟩ : BufTy).Contents (Elt F) → (⟨S160000x1, .f32⟩ : BufTy).Contents (Elt F))
  :: StableHlo.nullary main_cst_34 (constant S_ .f32 0x3F800000#32)
  :: StableHlo.unary main_cst_34 main_v168 (broadcastInDim S160000x1 ![] bcast_S_S160000x1 : (⟨S_, .f32⟩ : BufTy).Contents (Elt F) → (⟨S160000x1, .f32⟩ : BufTy).Contents (Elt F))
  :: StableHlo.binary main_v168 main_v167 main_v169 (addf : (⟨S160000x1, .f32⟩ : BufTy).Contents (Elt F) → (⟨S160000x1, .f32⟩ : BufTy).Contents (Elt F) → (⟨S160000x1, .f32⟩ : BufTy).Contents (Elt F))
  :: StableHlo.nullary main_cst_35 (constant S_ .f32 0x3F800000#32)
  :: StableHlo.unary main_cst_35 main_v170 (broadcastInDim S160000x1 ![] bcast_S_S160000x1 : (⟨S_, .f32⟩ : BufTy).Contents (Elt F) → (⟨S160000x1, .f32⟩ : BufTy).Contents (Elt F))
  :: StableHlo.binary main_v170 main_v169 main_v171 (Host.divf : (⟨S160000x1, .f32⟩ : BufTy).Contents (Elt F) → (⟨S160000x1, .f32⟩ : BufTy).Contents (Elt F) → (⟨S160000x1, .f32⟩ : BufTy).Contents (Elt F))
  :: [] )
theorem opsE_sub : (opsE : List (HloOp τ sig (Elt F))).Forall fun op => op.bufs ⊆ tcRefs τ sig :=
  ⟨binary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem opsE_fresh : ∀ op ∈ (opsE : List (HloOp τ sig (Elt F))), op.fresh = ∅ := by
  intro _ h; (repeat (cases h with | head => rfl | tail _ h => ?_)); exact nomatch h

end Cert.ReferenceIdeal.RefRun

end
-- ==== Proof.RefMain0.lean ====
/-
  Window 0 of the reference's main function as a list of operations.

  Sequencing is associative and a call is its callee's body, so the window — a chain of single operations with the
  called functions' chains spliced in — is the chain of the listed operations.
-/
import proofs.«167683_j50010599194662_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The first window of the main function is the first two pieces run in order. -/
theorem main_part0_eq (c : Dev nD) : main_part0 (F := F) c = seq (opsA ++ opsB1) := rfl

end Cert.ReferenceIdeal.RefRun

end
-- ==== Proof.RefMain1.lean ====
/-
  Window 1 of the reference's main function as a list of operations.

  Sequencing is associative and a call is its callee's body, so the window — a chain of single operations with the
  called functions' chains spliced in — is the chain of the listed operations.
-/
import proofs.«167683_j50010599194662_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The second window of the main function is the next three pieces run in order. -/
theorem main_part1_eq (c : Dev nD) : main_part1 (F := F) c = seq (opsB2 ++ (opsC ++ opsD1)) := rfl

end Cert.ReferenceIdeal.RefRun

end
-- ==== Proof.RefMain2.lean ====
/-
  Window 2 of the reference's main function as a list of operations.

  Sequencing is associative and a call is its callee's body, so the window — a chain of single operations with the
  called functions' chains spliced in — is the chain of the listed operations.
-/
import proofs.«167683_j50010599194662_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The third window of the main function is the sixth piece. -/
theorem main_part2_eq (c : Dev nD) : main_part2 (F := F) c = seq (opsD2) := rfl

end Cert.ReferenceIdeal.RefRun

end
-- ==== Proof.RefMain3.lean ====
/-
  Window 3 of the reference's main function as a list of operations.

  Sequencing is associative and a call is its callee's body, so the window — a chain of single operations with the
  called functions' chains spliced in — is the chain of the listed operations.
-/
import proofs.«167683_j50010599194662_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The last window of the main function is the last two pieces run in order, then the return. -/
theorem main_part3_eq (c : Dev nD) : main_part3 (F := F) c = seq (opsD3 ++ opsE) := rfl

end Cert.ReferenceIdeal.RefRun

end
-- ==== Proof.RefRun.lean ====
/-
  The reference program's run.

  The main function is its four windows in order, each window the chain of its listed operations, so the whole
  program is the chain of the whole list; no buffer and no semaphore of the program is scoped, every operation
  touches device buffers only and allocates nothing.  Hence every weakly fair execution terminates, and in every
  final state each buffer holds what folding the operations over the launch contents gives.
-/
import proofs.«167683_j50010599194662_2_alg».proof.Proof.RefMain0
import proofs.«167683_j50010599194662_2_alg».proof.Proof.RefMain1
import proofs.«167683_j50010599194662_2_alg».proof.Proof.RefMain2
import proofs.«167683_j50010599194662_2_alg».proof.Proof.RefMain3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All operations of the reference, in order: the eight pieces one after the other. -/
abbrev ops : List (HloOp τ sig (Elt F)) :=
  opsA ++ (opsB1 ++ (opsB2 ++ (opsC ++ (opsD1 ++ (opsD2 ++ (opsD3 ++ opsE))))))

/-- The list regrouped by windows. -/
theorem ops_windows : (ops : List (HloOp τ sig (Elt F)))
    = (opsA ++ opsB1) ++ ((opsB2 ++ (opsC ++ opsD1)) ++ (opsD2 ++ (opsD3 ++ opsE))) := by
  simp only [ops, List.append_assoc]

/-- The main function is the chain of the listed operations: window by window, chains of concatenations being
    chains in sequence. -/
theorem main_eq (c : Dev nD) : main (F := F) c = seq ops := by
  rw [ops_windows, seq_append (opsA ++ opsB1), seq_append (opsB2 ++ (opsC ++ opsD1)), seq_append opsD2,
    ← main_part0_eq c, ← main_part1_eq c, ← main_part2_eq c, ← main_part3_eq c]
  rfl

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

/-- Every operation touches device buffers only. -/
theorem ops_sub : (ops : List (HloOp τ sig (Elt F))).Forall fun op => op.bufs ⊆ tcRefs τ sig :=
  List.forall_append.mpr ⟨opsA_sub, List.forall_append.mpr ⟨opsB1_sub, List.forall_append.mpr ⟨opsB2_sub,
    List.forall_append.mpr ⟨opsC_sub, List.forall_append.mpr ⟨opsD1_sub, List.forall_append.mpr ⟨opsD2_sub,
    List.forall_append.mpr ⟨opsD3_sub, opsE_sub⟩⟩⟩⟩⟩⟩⟩

/-- No operation allocates a buffer: each determines its result. -/
theorem ops_fresh : ∀ op ∈ (ops : List (HloOp τ sig (Elt F))), op.fresh = ∅ := by
  intro op h
  simp only [ops, List.mem_append] at h
  rcases h with h | h | h | h | h | h | h | h
  exacts [opsA_fresh op h, opsB1_fresh op h, opsB2_fresh op h, opsC_fresh op h, opsD1_fresh op h, opsD2_fresh op h,
    opsD3_fresh op h, opsE_fresh op h]

/-- On every device, for any float values, from any memory with zero counters: every weakly fair execution of the
    main function terminates, and every final state has each device buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.RefArgs.lean ====
/-
  The reference program never writes one of its arguments.

  Each of its operations writes exactly one buffer, a value buffer or a constant's, never an argument's.  So after each
  piece of the program, and hence after the whole line, each of the seventeen argument buffers holds what it held
  before.
-/
import proofs.«167683_j50010599194662_2_alg».proof.Proof.RefOps
import proofs.«167683_j50010599194662_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Piece by piece: each argument buffer is left as it was

One statement per piece and argument, all proved the same way: the fold over the piece's operations is walked past
every operation, none of which writes the argument's buffer. -/

/-! ### opsA -/
theorem opsA_arg0 (V : Valuation τ sig (Elt F)) : after opsA V (Proc.devRef .tc main_arg0) = V (Proc.devRef .tc main_arg0) := by after_results_simp
theorem opsA_arg1 (V : Valuation τ sig (Elt F)) : after opsA V (Proc.devRef .tc main_arg1) = V (Proc.devRef .tc main_arg1) := by after_results_simp
theorem opsA_arg2 (V : Valuation τ sig (Elt F)) : after opsA V (Proc.devRef .tc main_arg2) = V (Proc.devRef .tc main_arg2) := by after_results_simp
theorem opsA_arg3 (V : Valuation τ sig (Elt F)) : after opsA V (Proc.devRef .tc main_arg3) = V (Proc.devRef .tc main_arg3) := by after_results_simp
theorem opsA_arg4 (V : Valuation τ sig (Elt F)) : after opsA V (Proc.devRef .tc main_arg4) = V (Proc.devRef .tc main_arg4) := by after_results_simp
theorem opsA_arg5 (V : Valuation τ sig (Elt F)) : after opsA V (Proc.devRef .tc main_arg5) = V (Proc.devRef .tc main_arg5) := by after_results_simp
theorem opsA_arg6 (V : Valuation τ sig (Elt F)) : after opsA V (Proc.devRef .tc main_arg6) = V (Proc.devRef .tc main_arg6) := by after_results_simp
theorem opsA_arg7 (V : Valuation τ sig (Elt F)) : after opsA V (Proc.devRef .tc main_arg7) = V (Proc.devRef .tc main_arg7) := by after_results_simp
theorem opsA_arg8 (V : Valuation τ sig (Elt F)) : after opsA V (Proc.devRef .tc main_arg8) = V (Proc.devRef .tc main_arg8) := by after_results_simp
theorem opsA_arg9 (V : Valuation τ sig (Elt F)) : after opsA V (Proc.devRef .tc main_arg9) = V (Proc.devRef .tc main_arg9) := by after_results_simp
theorem opsA_arg10 (V : Valuation τ sig (Elt F)) : after opsA V (Proc.devRef .tc main_arg10) = V (Proc.devRef .tc main_arg10) := by after_results_simp
theorem opsA_arg11 (V : Valuation τ sig (Elt F)) : after opsA V (Proc.devRef .tc main_arg11) = V (Proc.devRef .tc main_arg11) := by after_results_simp
theorem opsA_arg12 (V : Valuation τ sig (Elt F)) : after opsA V (Proc.devRef .tc main_arg12) = V (Proc.devRef .tc main_arg12) := by after_results_simp
theorem opsA_arg13 (V : Valuation τ sig (Elt F)) : after opsA V (Proc.devRef .tc main_arg13) = V (Proc.devRef .tc main_arg13) := by after_results_simp
theorem opsA_arg14 (V : Valuation τ sig (Elt F)) : after opsA V (Proc.devRef .tc main_arg14) = V (Proc.devRef .tc main_arg14) := by after_results_simp
theorem opsA_arg15 (V : Valuation τ sig (Elt F)) : after opsA V (Proc.devRef .tc main_arg15) = V (Proc.devRef .tc main_arg15) := by after_results_simp
theorem opsA_arg16 (V : Valuation τ sig (Elt F)) : after opsA V (Proc.devRef .tc main_arg16) = V (Proc.devRef .tc main_arg16) := by after_results_simp

/-! ### opsB1 -/
theorem opsB1_arg0 (V : Valuation τ sig (Elt F)) : after opsB1 V (Proc.devRef .tc main_arg0) = V (Proc.devRef .tc main_arg0) := by after_results_simp
theorem opsB1_arg1 (V : Valuation τ sig (Elt F)) : after opsB1 V (Proc.devRef .tc main_arg1) = V (Proc.devRef .tc main_arg1) := by after_results_simp
theorem opsB1_arg2 (V : Valuation τ sig (Elt F)) : after opsB1 V (Proc.devRef .tc main_arg2) = V (Proc.devRef .tc main_arg2) := by after_results_simp
theorem opsB1_arg3 (V : Valuation τ sig (Elt F)) : after opsB1 V (Proc.devRef .tc main_arg3) = V (Proc.devRef .tc main_arg3) := by after_results_simp
theorem opsB1_arg4 (V : Valuation τ sig (Elt F)) : after opsB1 V (Proc.devRef .tc main_arg4) = V (Proc.devRef .tc main_arg4) := by after_results_simp
theorem opsB1_arg5 (V : Valuation τ sig (Elt F)) : after opsB1 V (Proc.devRef .tc main_arg5) = V (Proc.devRef .tc main_arg5) := by after_results_simp
theorem opsB1_arg6 (V : Valuation τ sig (Elt F)) : after opsB1 V (Proc.devRef .tc main_arg6) = V (Proc.devRef .tc main_arg6) := by after_results_simp
theorem opsB1_arg7 (V : Valuation τ sig (Elt F)) : after opsB1 V (Proc.devRef .tc main_arg7) = V (Proc.devRef .tc main_arg7) := by after_results_simp
theorem opsB1_arg8 (V : Valuation τ sig (Elt F)) : after opsB1 V (Proc.devRef .tc main_arg8) = V (Proc.devRef .tc main_arg8) := by after_results_simp
theorem opsB1_arg9 (V : Valuation τ sig (Elt F)) : after opsB1 V (Proc.devRef .tc main_arg9) = V (Proc.devRef .tc main_arg9) := by after_results_simp
theorem opsB1_arg10 (V : Valuation τ sig (Elt F)) : after opsB1 V (Proc.devRef .tc main_arg10) = V (Proc.devRef .tc main_arg10) := by after_results_simp
theorem opsB1_arg11 (V : Valuation τ sig (Elt F)) : after opsB1 V (Proc.devRef .tc main_arg11) = V (Proc.devRef .tc main_arg11) := by after_results_simp
theorem opsB1_arg12 (V : Valuation τ sig (Elt F)) : after opsB1 V (Proc.devRef .tc main_arg12) = V (Proc.devRef .tc main_arg12) := by after_results_simp
theorem opsB1_arg13 (V : Valuation τ sig (Elt F)) : after opsB1 V (Proc.devRef .tc main_arg13) = V (Proc.devRef .tc main_arg13) := by after_results_simp
theorem opsB1_arg14 (V : Valuation τ sig (Elt F)) : after opsB1 V (Proc.devRef .tc main_arg14) = V (Proc.devRef .tc main_arg14) := by after_results_simp
theorem opsB1_arg15 (V : Valuation τ sig (Elt F)) : after opsB1 V (Proc.devRef .tc main_arg15) = V (Proc.devRef .tc main_arg15) := by after_results_simp
theorem opsB1_arg16 (V : Valuation τ sig (Elt F)) : after opsB1 V (Proc.devRef .tc main_arg16) = V (Proc.devRef .tc main_arg16) := by after_results_simp

/-! ### opsB2 -/
theorem opsB2_arg0 (V : Valuation τ sig (Elt F)) : after opsB2 V (Proc.devRef .tc main_arg0) = V (Proc.devRef .tc main_arg0) := by after_results_simp
theorem opsB2_arg1 (V : Valuation τ sig (Elt F)) : after opsB2 V (Proc.devRef .tc main_arg1) = V (Proc.devRef .tc main_arg1) := by after_results_simp
theorem opsB2_arg2 (V : Valuation τ sig (Elt F)) : after opsB2 V (Proc.devRef .tc main_arg2) = V (Proc.devRef .tc main_arg2) := by after_results_simp
theorem opsB2_arg3 (V : Valuation τ sig (Elt F)) : after opsB2 V (Proc.devRef .tc main_arg3) = V (Proc.devRef .tc main_arg3) := by after_results_simp
theorem opsB2_arg4 (V : Valuation τ sig (Elt F)) : after opsB2 V (Proc.devRef .tc main_arg4) = V (Proc.devRef .tc main_arg4) := by after_results_simp
theorem opsB2_arg5 (V : Valuation τ sig (Elt F)) : after opsB2 V (Proc.devRef .tc main_arg5) = V (Proc.devRef .tc main_arg5) := by after_results_simp
theorem opsB2_arg6 (V : Valuation τ sig (Elt F)) : after opsB2 V (Proc.devRef .tc main_arg6) = V (Proc.devRef .tc main_arg6) := by after_results_simp
theorem opsB2_arg7 (V : Valuation τ sig (Elt F)) : after opsB2 V (Proc.devRef .tc main_arg7) = V (Proc.devRef .tc main_arg7) := by after_results_simp
theorem opsB2_arg8 (V : Valuation τ sig (Elt F)) : after opsB2 V (Proc.devRef .tc main_arg8) = V (Proc.devRef .tc main_arg8) := by after_results_simp
theorem opsB2_arg9 (V : Valuation τ sig (Elt F)) : after opsB2 V (Proc.devRef .tc main_arg9) = V (Proc.devRef .tc main_arg9) := by after_results_simp
theorem opsB2_arg10 (V : Valuation τ sig (Elt F)) : after opsB2 V (Proc.devRef .tc main_arg10) = V (Proc.devRef .tc main_arg10) := by after_results_simp
theorem opsB2_arg11 (V : Valuation τ sig (Elt F)) : after opsB2 V (Proc.devRef .tc main_arg11) = V (Proc.devRef .tc main_arg11) := by after_results_simp
theorem opsB2_arg12 (V : Valuation τ sig (Elt F)) : after opsB2 V (Proc.devRef .tc main_arg12) = V (Proc.devRef .tc main_arg12) := by after_results_simp
theorem opsB2_arg13 (V : Valuation τ sig (Elt F)) : after opsB2 V (Proc.devRef .tc main_arg13) = V (Proc.devRef .tc main_arg13) := by after_results_simp
theorem opsB2_arg14 (V : Valuation τ sig (Elt F)) : after opsB2 V (Proc.devRef .tc main_arg14) = V (Proc.devRef .tc main_arg14) := by after_results_simp
theorem opsB2_arg15 (V : Valuation τ sig (Elt F)) : after opsB2 V (Proc.devRef .tc main_arg15) = V (Proc.devRef .tc main_arg15) := by after_results_simp
theorem opsB2_arg16 (V : Valuation τ sig (Elt F)) : after opsB2 V (Proc.devRef .tc main_arg16) = V (Proc.devRef .tc main_arg16) := by after_results_simp

/-! ### opsC -/
theorem opsC_arg0 (V : Valuation τ sig (Elt F)) : after opsC V (Proc.devRef .tc main_arg0) = V (Proc.devRef .tc main_arg0) := by after_results_simp
theorem opsC_arg1 (V : Valuation τ sig (Elt F)) : after opsC V (Proc.devRef .tc main_arg1) = V (Proc.devRef .tc main_arg1) := by after_results_simp
theorem opsC_arg2 (V : Valuation τ sig (Elt F)) : after opsC V (Proc.devRef .tc main_arg2) = V (Proc.devRef .tc main_arg2) := by after_results_simp
theorem opsC_arg3 (V : Valuation τ sig (Elt F)) : after opsC V (Proc.devRef .tc main_arg3) = V (Proc.devRef .tc main_arg3) := by after_results_simp
theorem opsC_arg4 (V : Valuation τ sig (Elt F)) : after opsC V (Proc.devRef .tc main_arg4) = V (Proc.devRef .tc main_arg4) := by after_results_simp
theorem opsC_arg5 (V : Valuation τ sig (Elt F)) : after opsC V (Proc.devRef .tc main_arg5) = V (Proc.devRef .tc main_arg5) := by after_results_simp
theorem opsC_arg6 (V : Valuation τ sig (Elt F)) : after opsC V (Proc.devRef .tc main_arg6) = V (Proc.devRef .tc main_arg6) := by after_results_simp
theorem opsC_arg7 (V : Valuation τ sig (Elt F)) : after opsC V (Proc.devRef .tc main_arg7) = V (Proc.devRef .tc main_arg7) := by after_results_simp
theorem opsC_arg8 (V : Valuation τ sig (Elt F)) : after opsC V (Proc.devRef .tc main_arg8) = V (Proc.devRef .tc main_arg8) := by after_results_simp
theorem opsC_arg9 (V : Valuation τ sig (Elt F)) : after opsC V (Proc.devRef .tc main_arg9) = V (Proc.devRef .tc main_arg9) := by after_results_simp
theorem opsC_arg10 (V : Valuation τ sig (Elt F)) : after opsC V (Proc.devRef .tc main_arg10) = V (Proc.devRef .tc main_arg10) := by after_results_simp
theorem opsC_arg11 (V : Valuation τ sig (Elt F)) : after opsC V (Proc.devRef .tc main_arg11) = V (Proc.devRef .tc main_arg11) := by after_results_simp
theorem opsC_arg12 (V : Valuation τ sig (Elt F)) : after opsC V (Proc.devRef .tc main_arg12) = V (Proc.devRef .tc main_arg12) := by after_results_simp
theorem opsC_arg13 (V : Valuation τ sig (Elt F)) : after opsC V (Proc.devRef .tc main_arg13) = V (Proc.devRef .tc main_arg13) := by after_results_simp
theorem opsC_arg14 (V : Valuation τ sig (Elt F)) : after opsC V (Proc.devRef .tc main_arg14) = V (Proc.devRef .tc main_arg14) := by after_results_simp
theorem opsC_arg15 (V : Valuation τ sig (Elt F)) : after opsC V (Proc.devRef .tc main_arg15) = V (Proc.devRef .tc main_arg15) := by after_results_simp
theorem opsC_arg16 (V : Valuation τ sig (Elt F)) : after opsC V (Proc.devRef .tc main_arg16) = V (Proc.devRef .tc main_arg16) := by after_results_simp

/-! ### opsD1 -/
theorem opsD1_arg0 (V : Valuation τ sig (Elt F)) : after opsD1 V (Proc.devRef .tc main_arg0) = V (Proc.devRef .tc main_arg0) := by after_results_simp
theorem opsD1_arg1 (V : Valuation τ sig (Elt F)) : after opsD1 V (Proc.devRef .tc main_arg1) = V (Proc.devRef .tc main_arg1) := by after_results_simp
theorem opsD1_arg2 (V : Valuation τ sig (Elt F)) : after opsD1 V (Proc.devRef .tc main_arg2) = V (Proc.devRef .tc main_arg2) := by after_results_simp
theorem opsD1_arg3 (V : Valuation τ sig (Elt F)) : after opsD1 V (Proc.devRef .tc main_arg3) = V (Proc.devRef .tc main_arg3) := by after_results_simp
theorem opsD1_arg4 (V : Valuation τ sig (Elt F)) : after opsD1 V (Proc.devRef .tc main_arg4) = V (Proc.devRef .tc main_arg4) := by after_results_simp
theorem opsD1_arg5 (V : Valuation τ sig (Elt F)) : after opsD1 V (Proc.devRef .tc main_arg5) = V (Proc.devRef .tc main_arg5) := by after_results_simp
theorem opsD1_arg6 (V : Valuation τ sig (Elt F)) : after opsD1 V (Proc.devRef .tc main_arg6) = V (Proc.devRef .tc main_arg6) := by after_results_simp
theorem opsD1_arg7 (V : Valuation τ sig (Elt F)) : after opsD1 V (Proc.devRef .tc main_arg7) = V (Proc.devRef .tc main_arg7) := by after_results_simp
theorem opsD1_arg8 (V : Valuation τ sig (Elt F)) : after opsD1 V (Proc.devRef .tc main_arg8) = V (Proc.devRef .tc main_arg8) := by after_results_simp
theorem opsD1_arg9 (V : Valuation τ sig (Elt F)) : after opsD1 V (Proc.devRef .tc main_arg9) = V (Proc.devRef .tc main_arg9) := by after_results_simp
theorem opsD1_arg10 (V : Valuation τ sig (Elt F)) : after opsD1 V (Proc.devRef .tc main_arg10) = V (Proc.devRef .tc main_arg10) := by after_results_simp
theorem opsD1_arg11 (V : Valuation τ sig (Elt F)) : after opsD1 V (Proc.devRef .tc main_arg11) = V (Proc.devRef .tc main_arg11) := by after_results_simp
theorem opsD1_arg12 (V : Valuation τ sig (Elt F)) : after opsD1 V (Proc.devRef .tc main_arg12) = V (Proc.devRef .tc main_arg12) := by after_results_simp
theorem opsD1_arg13 (V : Valuation τ sig (Elt F)) : after opsD1 V (Proc.devRef .tc main_arg13) = V (Proc.devRef .tc main_arg13) := by after_results_simp
theorem opsD1_arg14 (V : Valuation τ sig (Elt F)) : after opsD1 V (Proc.devRef .tc main_arg14) = V (Proc.devRef .tc main_arg14) := by after_results_simp
theorem opsD1_arg15 (V : Valuation τ sig (Elt F)) : after opsD1 V (Proc.devRef .tc main_arg15) = V (Proc.devRef .tc main_arg15) := by after_results_simp
theorem opsD1_arg16 (V : Valuation τ sig (Elt F)) : after opsD1 V (Proc.devRef .tc main_arg16) = V (Proc.devRef .tc main_arg16) := by after_results_simp

/-! ### opsD2 -/
theorem opsD2_arg0 (V : Valuation τ sig (Elt F)) : after opsD2 V (Proc.devRef .tc main_arg0) = V (Proc.devRef .tc main_arg0) := by after_results_simp
theorem opsD2_arg1 (V : Valuation τ sig (Elt F)) : after opsD2 V (Proc.devRef .tc main_arg1) = V (Proc.devRef .tc main_arg1) := by after_results_simp
theorem opsD2_arg2 (V : Valuation τ sig (Elt F)) : after opsD2 V (Proc.devRef .tc main_arg2) = V (Proc.devRef .tc main_arg2) := by after_results_simp
theorem opsD2_arg3 (V : Valuation τ sig (Elt F)) : after opsD2 V (Proc.devRef .tc main_arg3) = V (Proc.devRef .tc main_arg3) := by after_results_simp
theorem opsD2_arg4 (V : Valuation τ sig (Elt F)) : after opsD2 V (Proc.devRef .tc main_arg4) = V (Proc.devRef .tc main_arg4) := by after_results_simp
theorem opsD2_arg5 (V : Valuation τ sig (Elt F)) : after opsD2 V (Proc.devRef .tc main_arg5) = V (Proc.devRef .tc main_arg5) := by after_results_simp
theorem opsD2_arg6 (V : Valuation τ sig (Elt F)) : after opsD2 V (Proc.devRef .tc main_arg6) = V (Proc.devRef .tc main_arg6) := by after_results_simp
theorem opsD2_arg7 (V : Valuation τ sig (Elt F)) : after opsD2 V (Proc.devRef .tc main_arg7) = V (Proc.devRef .tc main_arg7) := by after_results_simp
theorem opsD2_arg8 (V : Valuation τ sig (Elt F)) : after opsD2 V (Proc.devRef .tc main_arg8) = V (Proc.devRef .tc main_arg8) := by after_results_simp
theorem opsD2_arg9 (V : Valuation τ sig (Elt F)) : after opsD2 V (Proc.devRef .tc main_arg9) = V (Proc.devRef .tc main_arg9) := by after_results_simp
theorem opsD2_arg10 (V : Valuation τ sig (Elt F)) : after opsD2 V (Proc.devRef .tc main_arg10) = V (Proc.devRef .tc main_arg10) := by after_results_simp
theorem opsD2_arg11 (V : Valuation τ sig (Elt F)) : after opsD2 V (Proc.devRef .tc main_arg11) = V (Proc.devRef .tc main_arg11) := by after_results_simp
theorem opsD2_arg12 (V : Valuation τ sig (Elt F)) : after opsD2 V (Proc.devRef .tc main_arg12) = V (Proc.devRef .tc main_arg12) := by after_results_simp
theorem opsD2_arg13 (V : Valuation τ sig (Elt F)) : after opsD2 V (Proc.devRef .tc main_arg13) = V (Proc.devRef .tc main_arg13) := by after_results_simp
theorem opsD2_arg14 (V : Valuation τ sig (Elt F)) : after opsD2 V (Proc.devRef .tc main_arg14) = V (Proc.devRef .tc main_arg14) := by after_results_simp
theorem opsD2_arg15 (V : Valuation τ sig (Elt F)) : after opsD2 V (Proc.devRef .tc main_arg15) = V (Proc.devRef .tc main_arg15) := by after_results_simp
theorem opsD2_arg16 (V : Valuation τ sig (Elt F)) : after opsD2 V (Proc.devRef .tc main_arg16) = V (Proc.devRef .tc main_arg16) := by after_results_simp

/-! ### opsD3 -/
theorem opsD3_arg0 (V : Valuation τ sig (Elt F)) : after opsD3 V (Proc.devRef .tc main_arg0) = V (Proc.devRef .tc main_arg0) := by after_results_simp
theorem opsD3_arg1 (V : Valuation τ sig (Elt F)) : after opsD3 V (Proc.devRef .tc main_arg1) = V (Proc.devRef .tc main_arg1) := by after_results_simp
theorem opsD3_arg2 (V : Valuation τ sig (Elt F)) : after opsD3 V (Proc.devRef .tc main_arg2) = V (Proc.devRef .tc main_arg2) := by after_results_simp
theorem opsD3_arg3 (V : Valuation τ sig (Elt F)) : after opsD3 V (Proc.devRef .tc main_arg3) = V (Proc.devRef .tc main_arg3) := by after_results_simp
theorem opsD3_arg4 (V : Valuation τ sig (Elt F)) : after opsD3 V (Proc.devRef .tc main_arg4) = V (Proc.devRef .tc main_arg4) := by after_results_simp
theorem opsD3_arg5 (V : Valuation τ sig (Elt F)) : after opsD3 V (Proc.devRef .tc main_arg5) = V (Proc.devRef .tc main_arg5) := by after_results_simp
theorem opsD3_arg6 (V : Valuation τ sig (Elt F)) : after opsD3 V (Proc.devRef .tc main_arg6) = V (Proc.devRef .tc main_arg6) := by after_results_simp
theorem opsD3_arg7 (V : Valuation τ sig (Elt F)) : after opsD3 V (Proc.devRef .tc main_arg7) = V (Proc.devRef .tc main_arg7) := by after_results_simp
theorem opsD3_arg8 (V : Valuation τ sig (Elt F)) : after opsD3 V (Proc.devRef .tc main_arg8) = V (Proc.devRef .tc main_arg8) := by after_results_simp
theorem opsD3_arg9 (V : Valuation τ sig (Elt F)) : after opsD3 V (Proc.devRef .tc main_arg9) = V (Proc.devRef .tc main_arg9) := by after_results_simp
theorem opsD3_arg10 (V : Valuation τ sig (Elt F)) : after opsD3 V (Proc.devRef .tc main_arg10) = V (Proc.devRef .tc main_arg10) := by after_results_simp
theorem opsD3_arg11 (V : Valuation τ sig (Elt F)) : after opsD3 V (Proc.devRef .tc main_arg11) = V (Proc.devRef .tc main_arg11) := by after_results_simp
theorem opsD3_arg12 (V : Valuation τ sig (Elt F)) : after opsD3 V (Proc.devRef .tc main_arg12) = V (Proc.devRef .tc main_arg12) := by after_results_simp
theorem opsD3_arg13 (V : Valuation τ sig (Elt F)) : after opsD3 V (Proc.devRef .tc main_arg13) = V (Proc.devRef .tc main_arg13) := by after_results_simp
theorem opsD3_arg14 (V : Valuation τ sig (Elt F)) : after opsD3 V (Proc.devRef .tc main_arg14) = V (Proc.devRef .tc main_arg14) := by after_results_simp
theorem opsD3_arg15 (V : Valuation τ sig (Elt F)) : after opsD3 V (Proc.devRef .tc main_arg15) = V (Proc.devRef .tc main_arg15) := by after_results_simp
theorem opsD3_arg16 (V : Valuation τ sig (Elt F)) : after opsD3 V (Proc.devRef .tc main_arg16) = V (Proc.devRef .tc main_arg16) := by after_results_simp

/-! ### opsE -/
theorem opsE_arg0 (V : Valuation τ sig (Elt F)) : after opsE V (Proc.devRef .tc main_arg0) = V (Proc.devRef .tc main_arg0) := by after_results_simp
theorem opsE_arg1 (V : Valuation τ sig (Elt F)) : after opsE V (Proc.devRef .tc main_arg1) = V (Proc.devRef .tc main_arg1) := by after_results_simp
theorem opsE_arg2 (V : Valuation τ sig (Elt F)) : after opsE V (Proc.devRef .tc main_arg2) = V (Proc.devRef .tc main_arg2) := by after_results_simp
theorem opsE_arg3 (V : Valuation τ sig (Elt F)) : after opsE V (Proc.devRef .tc main_arg3) = V (Proc.devRef .tc main_arg3) := by after_results_simp
theorem opsE_arg4 (V : Valuation τ sig (Elt F)) : after opsE V (Proc.devRef .tc main_arg4) = V (Proc.devRef .tc main_arg4) := by after_results_simp
theorem opsE_arg5 (V : Valuation τ sig (Elt F)) : after opsE V (Proc.devRef .tc main_arg5) = V (Proc.devRef .tc main_arg5) := by after_results_simp
theorem opsE_arg6 (V : Valuation τ sig (Elt F)) : after opsE V (Proc.devRef .tc main_arg6) = V (Proc.devRef .tc main_arg6) := by after_results_simp
theorem opsE_arg7 (V : Valuation τ sig (Elt F)) : after opsE V (Proc.devRef .tc main_arg7) = V (Proc.devRef .tc main_arg7) := by after_results_simp
theorem opsE_arg8 (V : Valuation τ sig (Elt F)) : after opsE V (Proc.devRef .tc main_arg8) = V (Proc.devRef .tc main_arg8) := by after_results_simp
theorem opsE_arg9 (V : Valuation τ sig (Elt F)) : after opsE V (Proc.devRef .tc main_arg9) = V (Proc.devRef .tc main_arg9) := by after_results_simp
theorem opsE_arg10 (V : Valuation τ sig (Elt F)) : after opsE V (Proc.devRef .tc main_arg10) = V (Proc.devRef .tc main_arg10) := by after_results_simp
theorem opsE_arg11 (V : Valuation τ sig (Elt F)) : after opsE V (Proc.devRef .tc main_arg11) = V (Proc.devRef .tc main_arg11) := by after_results_simp
theorem opsE_arg12 (V : Valuation τ sig (Elt F)) : after opsE V (Proc.devRef .tc main_arg12) = V (Proc.devRef .tc main_arg12) := by after_results_simp
theorem opsE_arg13 (V : Valuation τ sig (Elt F)) : after opsE V (Proc.devRef .tc main_arg13) = V (Proc.devRef .tc main_arg13) := by after_results_simp
theorem opsE_arg14 (V : Valuation τ sig (Elt F)) : after opsE V (Proc.devRef .tc main_arg14) = V (Proc.devRef .tc main_arg14) := by after_results_simp
theorem opsE_arg15 (V : Valuation τ sig (Elt F)) : after opsE V (Proc.devRef .tc main_arg15) = V (Proc.devRef .tc main_arg15) := by after_results_simp
theorem opsE_arg16 (V : Valuation τ sig (Elt F)) : after opsE V (Proc.devRef .tc main_arg16) = V (Proc.devRef .tc main_arg16) := by after_results_simp

/-! ## The whole line -/

/-- A buffer that every piece leaves as it was is left as it was by the eight pieces in a row. -/
theorem kept_of_pieces (V : Valuation τ sig (Elt F)) (b : DevRef τ sig)
    (hA : ∀ W : Valuation τ sig (Elt F), after opsA W b = W b) (hB1 : ∀ W : Valuation τ sig (Elt F), after opsB1 W b = W b)
    (hB2 : ∀ W : Valuation τ sig (Elt F), after opsB2 W b = W b) (hC : ∀ W : Valuation τ sig (Elt F), after opsC W b = W b)
    (hD1 : ∀ W : Valuation τ sig (Elt F), after opsD1 W b = W b) (hD2 : ∀ W : Valuation τ sig (Elt F), after opsD2 W b = W b)
    (hD3 : ∀ W : Valuation τ sig (Elt F), after opsD3 W b = W b) (hE : ∀ W : Valuation τ sig (Elt F), after opsE W b = W b) :
    after (opsA ++ (opsB1 ++ (opsB2 ++ (opsC ++ (opsD1 ++ (opsD2 ++ (opsD3 ++ opsE))))))) V b = V b := by
  rw [Cert.Lib.after_append, Cert.Lib.after_append, Cert.Lib.after_append, Cert.Lib.after_append, Cert.Lib.after_append,
    Cert.Lib.after_append, Cert.Lib.after_append, hE, hD3, hD2, hD1, hC, hB2, hB1, hA]

/-- Argument 0 after the whole reference program is argument 0 before it. -/
theorem arg0_kept (V : Valuation τ sig (Elt F)) :
    after (opsA ++ (opsB1 ++ (opsB2 ++ (opsC ++ (opsD1 ++ (opsD2 ++ (opsD3 ++ opsE))))))) V (Proc.devRef .tc main_arg0) = V (Proc.devRef .tc main_arg0) :=
  kept_of_pieces V _ opsA_arg0 opsB1_arg0 opsB2_arg0 opsC_arg0 opsD1_arg0 opsD2_arg0 opsD3_arg0 opsE_arg0

/-- Argument 1 after the whole reference program is argument 1 before it. -/
theorem arg1_kept (V : Valuation τ sig (Elt F)) :
    after (opsA ++ (opsB1 ++ (opsB2 ++ (opsC ++ (opsD1 ++ (opsD2 ++ (opsD3 ++ opsE))))))) V (Proc.devRef .tc main_arg1) = V (Proc.devRef .tc main_arg1) :=
  kept_of_pieces V _ opsA_arg1 opsB1_arg1 opsB2_arg1 opsC_arg1 opsD1_arg1 opsD2_arg1 opsD3_arg1 opsE_arg1

/-- Argument 2 after the whole reference program is argument 2 before it. -/
theorem arg2_kept (V : Valuation τ sig (Elt F)) :
    after (opsA ++ (opsB1 ++ (opsB2 ++ (opsC ++ (opsD1 ++ (opsD2 ++ (opsD3 ++ opsE))))))) V (Proc.devRef .tc main_arg2) = V (Proc.devRef .tc main_arg2) :=
  kept_of_pieces V _ opsA_arg2 opsB1_arg2 opsB2_arg2 opsC_arg2 opsD1_arg2 opsD2_arg2 opsD3_arg2 opsE_arg2

/-- Argument 3 after the whole reference program is argument 3 before it. -/
theorem arg3_kept (V : Valuation τ sig (Elt F)) :
    after (opsA ++ (opsB1 ++ (opsB2 ++ (opsC ++ (opsD1 ++ (opsD2 ++ (opsD3 ++ opsE))))))) V (Proc.devRef .tc main_arg3) = V (Proc.devRef .tc main_arg3) :=
  kept_of_pieces V _ opsA_arg3 opsB1_arg3 opsB2_arg3 opsC_arg3 opsD1_arg3 opsD2_arg3 opsD3_arg3 opsE_arg3

/-- Argument 4 after the whole reference program is argument 4 before it. -/
theorem arg4_kept (V : Valuation τ sig (Elt F)) :
    after (opsA ++ (opsB1 ++ (opsB2 ++ (opsC ++ (opsD1 ++ (opsD2 ++ (opsD3 ++ opsE))))))) V (Proc.devRef .tc main_arg4) = V (Proc.devRef .tc main_arg4) :=
  kept_of_pieces V _ opsA_arg4 opsB1_arg4 opsB2_arg4 opsC_arg4 opsD1_arg4 opsD2_arg4 opsD3_arg4 opsE_arg4

/-- Argument 5 after the whole reference program is argument 5 before it. -/
theorem arg5_kept (V : Valuation τ sig (Elt F)) :
    after (opsA ++ (opsB1 ++ (opsB2 ++ (opsC ++ (opsD1 ++ (opsD2 ++ (opsD3 ++ opsE))))))) V (Proc.devRef .tc main_arg5) = V (Proc.devRef .tc main_arg5) :=
  kept_of_pieces V _ opsA_arg5 opsB1_arg5 opsB2_arg5 opsC_arg5 opsD1_arg5 opsD2_arg5 opsD3_arg5 opsE_arg5

/-- Argument 6 after the whole reference program is argument 6 before it. -/
theorem arg6_kept (V : Valuation τ sig (Elt F)) :
    after (opsA ++ (opsB1 ++ (opsB2 ++ (opsC ++ (opsD1 ++ (opsD2 ++ (opsD3 ++ opsE))))))) V (Proc.devRef .tc main_arg6) = V (Proc.devRef .tc main_arg6) :=
  kept_of_pieces V _ opsA_arg6 opsB1_arg6 opsB2_arg6 opsC_arg6 opsD1_arg6 opsD2_arg6 opsD3_arg6 opsE_arg6

/-- Argument 7 after the whole reference program is argument 7 before it. -/
theorem arg7_kept (V : Valuation τ sig (Elt F)) :
    after (opsA ++ (opsB1 ++ (opsB2 ++ (opsC ++ (opsD1 ++ (opsD2 ++ (opsD3 ++ opsE))))))) V (Proc.devRef .tc main_arg7) = V (Proc.devRef .tc main_arg7) :=
  kept_of_pieces V _ opsA_arg7 opsB1_arg7 opsB2_arg7 opsC_arg7 opsD1_arg7 opsD2_arg7 opsD3_arg7 opsE_arg7

/-- Argument 8 after the whole reference program is argument 8 before it. -/
theorem arg8_kept (V : Valuation τ sig (Elt F)) :
    after (opsA ++ (opsB1 ++ (opsB2 ++ (opsC ++ (opsD1 ++ (opsD2 ++ (opsD3 ++ opsE))))))) V (Proc.devRef .tc main_arg8) = V (Proc.devRef .tc main_arg8) :=
  kept_of_pieces V _ opsA_arg8 opsB1_arg8 opsB2_arg8 opsC_arg8 opsD1_arg8 opsD2_arg8 opsD3_arg8 opsE_arg8

/-- Argument 9 after the whole reference program is argument 9 before it. -/
theorem arg9_kept (V : Valuation τ sig (Elt F)) :
    after (opsA ++ (opsB1 ++ (opsB2 ++ (opsC ++ (opsD1 ++ (opsD2 ++ (opsD3 ++ opsE))))))) V (Proc.devRef .tc main_arg9) = V (Proc.devRef .tc main_arg9) :=
  kept_of_pieces V _ opsA_arg9 opsB1_arg9 opsB2_arg9 opsC_arg9 opsD1_arg9 opsD2_arg9 opsD3_arg9 opsE_arg9

/-- Argument 10 after the whole reference program is argument 10 before it. -/
theorem arg10_kept (V : Valuation τ sig (Elt F)) :
    after (opsA ++ (opsB1 ++ (opsB2 ++ (opsC ++ (opsD1 ++ (opsD2 ++ (opsD3 ++ opsE))))))) V (Proc.devRef .tc main_arg10) = V (Proc.devRef .tc main_arg10) :=
  kept_of_pieces V _ opsA_arg10 opsB1_arg10 opsB2_arg10 opsC_arg10 opsD1_arg10 opsD2_arg10 opsD3_arg10 opsE_arg10

/-- Argument 11 after the whole reference program is argument 11 before it. -/
theorem arg11_kept (V : Valuation τ sig (Elt F)) :
    after (opsA ++ (opsB1 ++ (opsB2 ++ (opsC ++ (opsD1 ++ (opsD2 ++ (opsD3 ++ opsE))))))) V (Proc.devRef .tc main_arg11) = V (Proc.devRef .tc main_arg11) :=
  kept_of_pieces V _ opsA_arg11 opsB1_arg11 opsB2_arg11 opsC_arg11 opsD1_arg11 opsD2_arg11 opsD3_arg11 opsE_arg11

/-- Argument 12 after the whole reference program is argument 12 before it. -/
theorem arg12_kept (V : Valuation τ sig (Elt F)) :
    after (opsA ++ (opsB1 ++ (opsB2 ++ (opsC ++ (opsD1 ++ (opsD2 ++ (opsD3 ++ opsE))))))) V (Proc.devRef .tc main_arg12) = V (Proc.devRef .tc main_arg12) :=
  kept_of_pieces V _ opsA_arg12 opsB1_arg12 opsB2_arg12 opsC_arg12 opsD1_arg12 opsD2_arg12 opsD3_arg12 opsE_arg12

/-- Argument 13 after the whole reference program is argument 13 before it. -/
theorem arg13_kept (V : Valuation τ sig (Elt F)) :
    after (opsA ++ (opsB1 ++ (opsB2 ++ (opsC ++ (opsD1 ++ (opsD2 ++ (opsD3 ++ opsE))))))) V (Proc.devRef .tc main_arg13) = V (Proc.devRef .tc main_arg13) :=
  kept_of_pieces V _ opsA_arg13 opsB1_arg13 opsB2_arg13 opsC_arg13 opsD1_arg13 opsD2_arg13 opsD3_arg13 opsE_arg13

/-- Argument 14 after the whole reference program is argument 14 before it. -/
theorem arg14_kept (V : Valuation τ sig (Elt F)) :
    after (opsA ++ (opsB1 ++ (opsB2 ++ (opsC ++ (opsD1 ++ (opsD2 ++ (opsD3 ++ opsE))))))) V (Proc.devRef .tc main_arg14) = V (Proc.devRef .tc main_arg14) :=
  kept_of_pieces V _ opsA_arg14 opsB1_arg14 opsB2_arg14 opsC_arg14 opsD1_arg14 opsD2_arg14 opsD3_arg14 opsE_arg14

/-- Argument 15 after the whole reference program is argument 15 before it. -/
theorem arg15_kept (V : Valuation τ sig (Elt F)) :
    after (opsA ++ (opsB1 ++ (opsB2 ++ (opsC ++ (opsD1 ++ (opsD2 ++ (opsD3 ++ opsE))))))) V (Proc.devRef .tc main_arg15) = V (Proc.devRef .tc main_arg15) :=
  kept_of_pieces V _ opsA_arg15 opsB1_arg15 opsB2_arg15 opsC_arg15 opsD1_arg15 opsD2_arg15 opsD3_arg15 opsE_arg15

/-- Argument 16 after the whole reference program is argument 16 before it. -/
theorem arg16_kept (V : Valuation τ sig (Elt F)) :
    after (opsA ++ (opsB1 ++ (opsB2 ++ (opsC ++ (opsD1 ++ (opsD2 ++ (opsD3 ++ opsE))))))) V (Proc.devRef .tc main_arg16) = V (Proc.devRef .tc main_arg16) :=
  kept_of_pieces V _ opsA_arg16 opsB1_arg16 opsB2_arg16 opsC_arg16 opsD1_arg16 opsD2_arg16 opsD3_arg16 opsE_arg16

/-- All seventeen arguments at once, in order. -/
theorem args_kept (V : Valuation τ sig (Elt F)) :
    after (opsA ++ (opsB1 ++ (opsB2 ++ (opsC ++ (opsD1 ++ (opsD2 ++ (opsD3 ++ opsE))))))) V (Proc.devRef .tc main_arg0) = V (Proc.devRef .tc main_arg0)
    ∧ after (opsA ++ (opsB1 ++ (opsB2 ++ (opsC ++ (opsD1 ++ (opsD2 ++ (opsD3 ++ opsE))))))) V (Proc.devRef .tc main_arg1) = V (Proc.devRef .tc main_arg1)
    ∧ after (opsA ++ (opsB1 ++ (opsB2 ++ (opsC ++ (opsD1 ++ (opsD2 ++ (opsD3 ++ opsE))))))) V (Proc.devRef .tc main_arg2) = V (Proc.devRef .tc main_arg2)
    ∧ after (opsA ++ (opsB1 ++ (opsB2 ++ (opsC ++ (opsD1 ++ (opsD2 ++ (opsD3 ++ opsE))))))) V (Proc.devRef .tc main_arg3) = V (Proc.devRef .tc main_arg3)
    ∧ after (opsA ++ (opsB1 ++ (opsB2 ++ (opsC ++ (opsD1 ++ (opsD2 ++ (opsD3 ++ opsE))))))) V (Proc.devRef .tc main_arg4) = V (Proc.devRef .tc main_arg4)
    ∧ after (opsA ++ (opsB1 ++ (opsB2 ++ (opsC ++ (opsD1 ++ (opsD2 ++ (opsD3 ++ opsE))))))) V (Proc.devRef .tc main_arg5) = V (Proc.devRef .tc main_arg5)
    ∧ after (opsA ++ (opsB1 ++ (opsB2 ++ (opsC ++ (opsD1 ++ (opsD2 ++ (opsD3 ++ opsE))))))) V (Proc.devRef .tc main_arg6) = V (Proc.devRef .tc main_arg6)
    ∧ after (opsA ++ (opsB1 ++ (opsB2 ++ (opsC ++ (opsD1 ++ (opsD2 ++ (opsD3 ++ opsE))))))) V (Proc.devRef .tc main_arg7) = V (Proc.devRef .tc main_arg7)
    ∧ after (opsA ++ (opsB1 ++ (opsB2 ++ (opsC ++ (opsD1 ++ (opsD2 ++ (opsD3 ++ opsE))))))) V (Proc.devRef .tc main_arg8) = V (Proc.devRef .tc main_arg8)
    ∧ after (opsA ++ (opsB1 ++ (opsB2 ++ (opsC ++ (opsD1 ++ (opsD2 ++ (opsD3 ++ opsE))))))) V (Proc.devRef .tc main_arg9) = V (Proc.devRef .tc main_arg9)
    ∧ after (opsA ++ (opsB1 ++ (opsB2 ++ (opsC ++ (opsD1 ++ (opsD2 ++ (opsD3 ++ opsE))))))) V (Proc.devRef .tc main_arg10) = V (Proc.devRef .tc main_arg10)
    ∧ after (opsA ++ (opsB1 ++ (opsB2 ++ (opsC ++ (opsD1 ++ (opsD2 ++ (opsD3 ++ opsE))))))) V (Proc.devRef .tc main_arg11) = V (Proc.devRef .tc main_arg11)
    ∧ after (opsA ++ (opsB1 ++ (opsB2 ++ (opsC ++ (opsD1 ++ (opsD2 ++ (opsD3 ++ opsE))))))) V (Proc.devRef .tc main_arg12) = V (Proc.devRef .tc main_arg12)
    ∧ after (opsA ++ (opsB1 ++ (opsB2 ++ (opsC ++ (opsD1 ++ (opsD2 ++ (opsD3 ++ opsE))))))) V (Proc.devRef .tc main_arg13) = V (Proc.devRef .tc main_arg13)
    ∧ after (opsA ++ (opsB1 ++ (opsB2 ++ (opsC ++ (opsD1 ++ (opsD2 ++ (opsD3 ++ opsE))))))) V (Proc.devRef .tc main_arg14) = V (Proc.devRef .tc main_arg14)
    ∧ after (opsA ++ (opsB1 ++ (opsB2 ++ (opsC ++ (opsD1 ++ (opsD2 ++ (opsD3 ++ opsE))))))) V (Proc.devRef .tc main_arg15) = V (Proc.devRef .tc main_arg15)
    ∧ after (opsA ++ (opsB1 ++ (opsB2 ++ (opsC ++ (opsD1 ++ (opsD2 ++ (opsD3 ++ opsE))))))) V (Proc.devRef .tc main_arg16) = V (Proc.devRef .tc main_arg16) :=
  ⟨arg0_kept V, arg1_kept V, arg2_kept V, arg3_kept V, arg4_kept V, arg5_kept V, arg6_kept V, arg7_kept V, arg8_kept V, arg9_kept V, arg10_kept V, arg11_kept V, arg12_kept V, arg13_kept V, arg14_kept V, arg15_kept V, arg16_kept V⟩

end Cert.ReferenceIdeal.RefRun

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«167683_j50010599194662_2_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.Region0.lean ====
/-
  Region 0 of the kernel program: a row-tiled matrix product.

  The grid has five points; point t loads rows 2000 t .. 2000 t + 1999 of the activations (10000 x 128) and the whole
  weights (128 x 256), multiplies them into a zero accumulator and stores the 2000 x 256 block of rows
  2000 t .. 2000 t + 1999 of the result.  Entry (p, q) of the block's product is the sum over k of
  x (2000 t + p, k) * w (k, q), which is entry (2000 t + p, q) of the projection of the whole activations by the
  weights; the five blocks tile the 10000 rows, so after the region the result array is that projection.
-/
import proofs.«167683_j50010599194662_2_alg».proof.Proof.Gen.KernelIdeal.Frame
import proofs.«167683_j50010599194662_2_alg».proof.Proof.LibPlainDot
import proofs.«167683_j50010599194662_2_alg».proof.Proof.LibDenseLayers
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

theorem hz0 : (![0, 0] : Fin 2 → Nat) = fun _ => 0 := funext fun a => by fin_cases a <;> rfl

/-- The body's product at block coordinates (p, q): row p of the block of activations against column q of the weights. -/
theorem pay0_apply (x0 : Vec Ideal S2000x128 .bf16) (x1 : Vec Ideal S128x256 .bf16) (p : Fin 2000) (q : Fin 256) :
    Gen.k0_pay1 x0 x1 (ix2 p q) = ∑ k : Fin 128, x0 (ix2 p k) * x1 (ix2 k q) := by
  unfold Gen.k0_pay1
  rw [shapeCast_self, shapeCast_self]
  exact Cert.Lib.matmul_plain_zero_apply none x0 x1 p q

variable (V : (c : Dev nD) → (b : Ref sig .tc) → Buf (Elt Ideal) ((c : Thread nD τ).loc b))

/-- The index maps over the five grid points: the activations' and the result's block of point t is row block t,
    the weights' block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of 2000 rows of the product: when the block of activations holds rows 2000 s .. 2000 s + 1999 of the array A
    and the block of weights is the whole array B, the body's product at block index j is the projection of A by B
    at the array index i on row 2000 s + (row of j), same column. -/
theorem blk0_value (x0 : Vec Ideal S2000x128 .bf16) (x1 : Vec Ideal S128x256 .bf16)
    (A : (⟨2, ![10000, 128]⟩ : Shape).Idx → EReal) (B : (⟨2, ![128, 256]⟩ : Shape).Idx → EReal) (s : Nat)
    (h0 : ∀ (p : Fin 2000) (k : Fin 128) (P : Fin 10000), P.val = 2000 * s + p.val → x0 (ix2 p k) = A (ix2 P k))
    (h1 : ∀ (k : Fin 128) (q : Fin 256), x1 (ix2 k q) = B (ix2 k q))
    (j : (⟨2, ![2000, 256]⟩ : Shape).Idx) (i : (⟨2, ![10000, 256]⟩ : Shape).Idx)
    (hi0 : (i 0).val = 2000 * s + (j 0).val) (hi1 : (i 1).val = (j 1).val) :
    Gen.k0_pay1 x0 x1 j = Cert.Layers.project A B i := by
  obtain ⟨p, q, rfl⟩ : ∃ (p : Fin 2000) (q : Fin 256), j = ix2 p q := ⟨j 0, j 1, eq_ix2 j⟩
  obtain ⟨P, Q, rfl⟩ : ∃ (P : Fin 10000) (Q : Fin 256), i = ix2 P Q := ⟨i 0, i 1, eq_ix2 i⟩
  have hP : P.val = 2000 * s + p.val := hi0
  obtain rfl : Q = q := Fin.ext hi1
  rw [pay0_apply x0 x1 p Q, Cert.Layers.project_apply A B P Q]
  exact Finset.sum_congr rfl fun k _ => by rw [h0 p k P hP, h1 k Q]

/-- The block of activations at point t is rows 2000 t .. 2000 t + 1999 of the array. -/
theorem iblk0_0_apply (c : Dev nD) (t : Fin cfg0.N) (p : Fin 2000) (k : Fin 128) (P : Fin 10000)
    (hP : P.val = 2000 * t.val + p.val) :
    iblk0 V c 0 t (ix2 p k) = (V c main_v4 : (⟨2, ![10000, 128]⟩ : Shape).Idx → EReal) (ix2 P k) := by
  obtain ⟨e0, e1, -, -, -, -⟩ := idx_facts0 t
  show V c main_v4 (((cfg0.win 0).blk t).view.emb (ix2 p k)) = V c main_v4 (ix2 P k)
  refine congrArg _ (funext fun a => Fin.ext ?_)
  match a with
  | ⟨0, _⟩ => show win0_0.index t (0 : Fin 2) * 2000 + 1 * p.val = P.val; rw [e0, hP]; omega
  | ⟨1, _⟩ => show win0_0.index t (1 : Fin 2) * 128 + 1 * k.val = k.val; rw [e1]; omega

/-- The block of weights at every point is the whole array. -/
theorem iblk0_1_apply (c : Dev nD) (t : Fin cfg0.N) (k : Fin 128) (q : Fin 256) :
    iblk0 V c 1 t (ix2 k q) = (V c main_v5 : (⟨2, ![128, 256]⟩ : Shape).Idx → EReal) (ix2 k q) := by
  obtain ⟨-, -, e2, e3, -, -⟩ := idx_facts0 t
  show V c main_v5 (((cfg0.win 1).blk t).view.emb (ix2 k q)) = V c main_v5 (ix2 k q)
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 256 + 1 * q.val = q.val; rw [e3]; omega

/-- What point t writes back is block t of the projection of the activations by the weights. -/
theorem flushed0_eq (c : Dev nD) (t : Fin cfg0.N) :
    (dat0 (F := Ideal) V c).flushed 2 t = ((cfg0.win 2).blk t).view.read (Elt Ideal)
      (Cert.Layers.project (M := 10000) (K := 128) (N := 256) (V c main_v4) (V c main_v5)) := by
  show (cfg0.win 2).cut (grid0.coords t) ((dat0 (F := Ideal) V c).after 2 t) = _
  rw [after0_2]
  unfold out0_2
  rw [View.canon_unit_zero hz0]
  simp only [View.ld_unit_zero (S := S2000x128) hz0, View.ld_unit_zero (S := S128x256) hz0]
  funext j
  obtain ⟨-, -, -, -, e4, e5⟩ := idx_facts0 t
  show Gen.k0_pay1 (iblk0 V c 0 t) (iblk0 V c 1 t) j
    = Cert.Layers.project (M := 10000) (K := 128) (N := 256) (V c main_v4) (V c main_v5) (((cfg0.win 2).blk t).view.emb j)
  refine blk0_value (iblk0 V c 0 t) (iblk0 V c 1 t) (V c main_v4) (V c main_v5) t.val
    (iblk0_0_apply V c t) (iblk0_1_apply V c t) j (((cfg0.win 2).blk t).view.emb j) ?_ ?_
  · show win0_2.index t (0 : Fin 2) * 2000 + 1 * (j 0).val = 2000 * t.val + (j 0).val; rw [e4]; omega
  · show win0_2.index t (1 : Fin 2) * 256 + 1 * (j 1).val = (j 1).val; rw [e5]; omega

/-- An index of the result array is in point t's block iff each coordinate is in the block's range on its axis. -/
theorem mem_blk0 (t : Fin cfg0.N) (i : (⟨2, ![10000, 256]⟩ : Shape).Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v6).slice (win0_2.rect t)).set ↔ _
  rw [View.set_slice_whole, Rect.mem_set_unit]
  exact Iff.rfl

/-- Row r of the result array is in the block of point r / 2000. -/
theorem cover0 (i : (⟨2, ![10000, 256]⟩ : Shape).Idx) :
    ∃ t : Fin cfg0.N, (cfg0.win 2).flush t = true ∧ i ∈ ((cfg0.win 2).blk t).view.set := by
  have hi0 : (i 0).val < 10000 := idx2_lt0 i
  have hi1 : (i 1).val < 256 := idx2_lt1 i
  have hN : cfg0.N = 5 := N_0
  let t : Fin cfg0.N := ⟨(i 0).val / 2000, by rw [hN]; omega⟩
  have ht : t.val = (i 0).val / 2000 := rfl
  obtain ⟨-, -, -, -, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 256 ≤ (i 1).val ∧ (i 1).val < win0_2.index t (1 : Fin 2) * 256 + 256; rw [e5]; omega

/-- REGION 0: the result array after the region is the projection of the activations by the weights, as the region finds them. -/
theorem region0_arr (c : Dev nD) :
    (Gen.dat0 (F := Ideal) V c).arrAt 2 cfg0.N
      = Cert.Layers.project (M := 10000) (K := 128) (N := 256) (V c main_v4) (V c main_v5) :=
  (Gen.dat0 (F := Ideal) V c).arrAt_eq_of_cover 2 _ (fun t _ => flushed0_eq V c t) cover0

end Cert.KernelIdeal.Val

end
-- ==== Proof.Region1.lean ====
/-
  Region 1 of the kernel program: a row-tiled matrix product.

  The grid has five points; point t loads rows 2000 t .. 2000 t + 1999 of the activations (10000 x 512) and the whole
  weights (512 x 512), multiplies them into a zero accumulator and stores the 2000 x 512 block of rows
  2000 t .. 2000 t + 1999 of the result.  Entry (p, q) of the block's product is the sum over k of
  x (2000 t + p, k) * w (k, q), which is entry (2000 t + p, q) of the projection of the whole activations by the
  weights; the five blocks tile the 10000 rows, so after the region the result array is that projection.
-/
import proofs.«167683_j50010599194662_2_alg».proof.Proof.Gen.KernelIdeal.Frame
import proofs.«167683_j50010599194662_2_alg».proof.Proof.LibPlainDot
import proofs.«167683_j50010599194662_2_alg».proof.Proof.LibDenseLayers
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

theorem hz1 : (![0, 0] : Fin 2 → Nat) = fun _ => 0 := funext fun a => by fin_cases a <;> rfl

/-- The body's product at block coordinates (p, q): row p of the block of activations against column q of the weights. -/
theorem pay1_apply (x0 : Vec Ideal S2000x512 .bf16) (x1 : Vec Ideal S512x512 .bf16) (p : Fin 2000) (q : Fin 512) :
    Gen.k1_pay1 x0 x1 (ix2 p q) = ∑ k : Fin 512, x0 (ix2 p k) * x1 (ix2 k q) := by
  unfold Gen.k1_pay1
  rw [shapeCast_self, shapeCast_self]
  exact Cert.Lib.matmul_plain_zero_apply none x0 x1 p q

variable (V : (c : Dev nD) → (b : Ref sig .tc) → Buf (Elt Ideal) ((c : Thread nD τ).loc b))

/-- The index maps over the five grid points: the activations' and the result's block of point t is row block t,
    the weights' block is the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block of 2000 rows of the product: when the block of activations holds rows 2000 s .. 2000 s + 1999 of the array A
    and the block of weights is the whole array B, the body's product at block index j is the projection of A by B
    at the array index i on row 2000 s + (row of j), same column. -/
theorem blk1_value (x0 : Vec Ideal S2000x512 .bf16) (x1 : Vec Ideal S512x512 .bf16)
    (A : (⟨2, ![10000, 512]⟩ : Shape).Idx → EReal) (B : (⟨2, ![512, 512]⟩ : Shape).Idx → EReal) (s : Nat)
    (h0 : ∀ (p : Fin 2000) (k : Fin 512) (P : Fin 10000), P.val = 2000 * s + p.val → x0 (ix2 p k) = A (ix2 P k))
    (h1 : ∀ (k : Fin 512) (q : Fin 512), x1 (ix2 k q) = B (ix2 k q))
    (j : (⟨2, ![2000, 512]⟩ : Shape).Idx) (i : (⟨2, ![10000, 512]⟩ : Shape).Idx)
    (hi0 : (i 0).val = 2000 * s + (j 0).val) (hi1 : (i 1).val = (j 1).val) :
    Gen.k1_pay1 x0 x1 j = Cert.Layers.project A B i := by
  obtain ⟨p, q, rfl⟩ : ∃ (p : Fin 2000) (q : Fin 512), j = ix2 p q := ⟨j 0, j 1, eq_ix2 j⟩
  obtain ⟨P, Q, rfl⟩ : ∃ (P : Fin 10000) (Q : Fin 512), i = ix2 P Q := ⟨i 0, i 1, eq_ix2 i⟩
  have hP : P.val = 2000 * s + p.val := hi0
  obtain rfl : Q = q := Fin.ext hi1
  rw [pay1_apply x0 x1 p Q, Cert.Layers.project_apply A B P Q]
  exact Finset.sum_congr rfl fun k _ => by rw [h0 p k P hP, h1 k Q]

/-- The block of activations at point t is rows 2000 t .. 2000 t + 1999 of the array. -/
theorem iblk1_0_apply (c : Dev nD) (t : Fin cfg1.N) (p : Fin 2000) (k : Fin 512) (P : Fin 10000)
    (hP : P.val = 2000 * t.val + p.val) :
    iblk1 V c 0 t (ix2 p k) = (V c main_v68 : (⟨2, ![10000, 512]⟩ : Shape).Idx → EReal) (ix2 P k) := by
  obtain ⟨e0, e1, -, -, -, -⟩ := idx_facts1 t
  show V c main_v68 (((cfg1.win 0).blk t).view.emb (ix2 p k)) = V c main_v68 (ix2 P k)
  refine congrArg _ (funext fun a => Fin.ext ?_)
  match a with
  | ⟨0, _⟩ => show win1_0.index t (0 : Fin 2) * 2000 + 1 * p.val = P.val; rw [e0, hP]; omega
  | ⟨1, _⟩ => show win1_0.index t (1 : Fin 2) * 512 + 1 * k.val = k.val; rw [e1]; omega

/-- The block of weights at every point is the whole array. -/
theorem iblk1_1_apply (c : Dev nD) (t : Fin cfg1.N) (k : Fin 512) (q : Fin 512) :
    iblk1 V c 1 t (ix2 k q) = (V c main_v69 : (⟨2, ![512, 512]⟩ : Shape).Idx → EReal) (ix2 k q) := by
  obtain ⟨-, -, e2, e3, -, -⟩ := idx_facts1 t
  show V c main_v69 (((cfg1.win 1).blk t).view.emb (ix2 k q)) = V c main_v69 (ix2 k q)
  refine congrArg _ (funext fun a => Fin.ext ?_)
  match a with
  | ⟨0, _⟩ => show win1_1.index t (0 : Fin 2) * 512 + 1 * k.val = k.val; rw [e2]; omega
  | ⟨1, _⟩ => show win1_1.index t (1 : Fin 2) * 512 + 1 * q.val = q.val; rw [e3]; omega

/-- What point t writes back is block t of the projection of the activations by the weights. -/
theorem flushed1_eq (c : Dev nD) (t : Fin cfg1.N) :
    (dat1 (F := Ideal) V c).flushed 2 t = ((cfg1.win 2).blk t).view.read (Elt Ideal)
      (Cert.Layers.project (M := 10000) (K := 512) (N := 512) (V c main_v68) (V c main_v69)) := by
  show (cfg1.win 2).cut (grid1.coords t) ((dat1 (F := Ideal) V c).after 2 t) = _
  rw [after1_2]
  unfold out1_2
  rw [View.canon_unit_zero hz1]
  simp only [View.ld_unit_zero (S := S2000x512) hz1, View.ld_unit_zero (S := S512x512) hz1]
  funext j
  obtain ⟨-, -, -, -, e4, e5⟩ := idx_facts1 t
  show Gen.k1_pay1 (iblk1 V c 0 t) (iblk1 V c 1 t) j
    = Cert.Layers.project (M := 10000) (K := 512) (N := 512) (V c main_v68) (V c main_v69) (((cfg1.win 2).blk t).view.emb j)
  refine blk1_value (iblk1 V c 0 t) (iblk1 V c 1 t) (V c main_v68) (V c main_v69) t.val
    (iblk1_0_apply V c t) (iblk1_1_apply V c t) j (((cfg1.win 2).blk t).view.emb j) ?_ ?_
  · show win1_2.index t (0 : Fin 2) * 2000 + 1 * (j 0).val = 2000 * t.val + (j 0).val; rw [e4]; omega
  · show win1_2.index t (1 : Fin 2) * 512 + 1 * (j 1).val = (j 1).val; rw [e5]; omega

/-- An index of the result array is in point t's block iff each coordinate is in the block's range on its axis. -/
theorem mem_blk1 (t : Fin cfg1.N) (i : (⟨2, ![10000, 512]⟩ : Shape).Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v70).slice (win1_2.rect t)).set ↔ _
  rw [View.set_slice_whole, Rect.mem_set_unit]
  exact Iff.rfl

/-- Row r of the result array is in the block of point r / 2000. -/
theorem cover1 (i : (⟨2, ![10000, 512]⟩ : Shape).Idx) :
    ∃ t : Fin cfg1.N, (cfg1.win 2).flush t = true ∧ i ∈ ((cfg1.win 2).blk t).view.set := by
  have hi0 : (i 0).val < 10000 := idx2_lt0 i
  have hi1 : (i 1).val < 512 := idx2_lt1 i
  have hN : cfg1.N = 5 := N_1
  let t : Fin cfg1.N := ⟨(i 0).val / 2000, by rw [hN]; omega⟩
  have ht : t.val = (i 0).val / 2000 := rfl
  obtain ⟨-, -, -, -, e4, e5⟩ := idx_facts1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 512 ≤ (i 1).val ∧ (i 1).val < win1_2.index t (1 : Fin 2) * 512 + 512; rw [e5]; omega

/-- REGION 1: the result array after the region is the projection of the activations by the weights, as the region finds them. -/
theorem region1_arr (c : Dev nD) :
    (Gen.dat1 (F := Ideal) V c).arrAt 2 cfg1.N
      = Cert.Layers.project (M := 10000) (K := 512) (N := 512) (V c main_v68) (V c main_v69) :=
  (Gen.dat1 (F := Ideal) V c).arrAt_eq_of_cover 2 _ (fun t _ => flushed1_eq V c t) cover1

end Cert.KernelIdeal.Val

end
-- ==== Proof.Spec.lean ====
/-
  The edge scorer, as one index-by-index function over the extended reals.

  For each edge the two end points' features `e1`, `e2` (128 numbers each) are laid side by side as the 512 numbers
  `[e1 + e2, e1 * e2, e1, e2]`; two dense layers, each followed by the clamp at zero, take them to 1024 and then to 512
  numbers; the score is the logistic function of their dot product with the last weights plus the last bias.  Every
  step works on one edge's row alone, so the score of edge `r` depends only on row `r` of `e1` and of `e2`
  (`score_rows`): scoring a block of rows gives the rows of the whole array's scores.
-/
import Idealize.ShloMosaic.PureOps.Ideal
import Idealize.ShloMosaic.Lib.ValueIdx
import proofs.«167683_j50010599194662_2_alg».proof.Proof.LibDenseLayers

noncomputable section

namespace Cert.Spec

open Idealize.ShloMosaic Idealize.ShloMosaic.ValueIdx Cert.Layers

variable {M : Nat}

/-- Four arrays of 128 columns side by side: column `q` of the result is column `q mod 128` of piece `q / 128`. -/
def concat4 (a b c d : (⟨2, ![M, 128]⟩ : Shape).Idx → EReal) : (⟨2, ![M, 512]⟩ : Shape).Idx → EReal :=
  fun i =>
    if h0 : (i 1).val < 128 then a (ix2 (n0 := M) (i 0) ⟨(i 1).val, h0⟩)
    else if h1 : (i 1).val < 256 then b (ix2 (n0 := M) (i 0) ⟨(i 1).val - 128, by omega⟩)
    else if h2 : (i 1).val < 384 then c (ix2 (n0 := M) (i 0) ⟨(i 1).val - 256, by omega⟩)
    else d (ix2 (n0 := M) (i 0) ⟨(i 1).val - 384, by have := (i 1).isLt; change (i 1).val < 512 at this; omega⟩)

/-- An edge's feature row `[e1 + e2, e1 * e2, e1, e2]`. -/
def edgeFeat (e1 e2 : (⟨2, ![M, 128]⟩ : Shape).Idx → EReal) : (⟨2, ![M, 512]⟩ : Shape).Idx → EReal :=
  concat4 (fun i => e1 i + e2 i) (fun i => e1 i * e2 i) e1 e2

/-- The second hidden layer of the scorer: 512 numbers per edge. -/
def hidden (e1 e2 : (⟨2, ![M, 128]⟩ : Shape).Idx → EReal) (wi : (⟨2, ![512, 1024]⟩ : Shape).Idx → EReal)
    (bi : (⟨2, ![1, 1024]⟩ : Shape).Idx → EReal) (wf1 : (⟨2, ![1024, 512]⟩ : Shape).Idx → EReal)
    (bf1 : (⟨2, ![1, 512]⟩ : Shape).Idx → EReal) : (⟨2, ![M, 512]⟩ : Shape).Idx → EReal :=
  addRowClamp (project (addRowClamp (project (edgeFeat e1 e2) wi) bi) wf1) bf1

/-- The score of every edge: the logistic function of the hidden row's dot product with `w2`, plus `b2`. -/
def score (e1 e2 : (⟨2, ![M, 128]⟩ : Shape).Idx → EReal) (wi : (⟨2, ![512, 1024]⟩ : Shape).Idx → EReal)
    (bi : (⟨2, ![1, 1024]⟩ : Shape).Idx → EReal) (wf1 : (⟨2, ![1024, 512]⟩ : Shape).Idx → EReal)
    (bf1 : (⟨2, ![1, 512]⟩ : Shape).Idx → EReal) (w2 : Fin 512 → EReal) (b2 : EReal) :
    (⟨2, ![M, 1]⟩ : Shape).Idx → EReal :=
  fun i => Ideal.logistic ((∑ k : Fin 512, hidden e1 e2 wi bi wf1 bf1 (ix2 (n0 := M) (i 0) k) * w2 k) + b2)

theorem score_apply (e1 e2 : (⟨2, ![M, 128]⟩ : Shape).Idx → EReal) (wi : (⟨2, ![512, 1024]⟩ : Shape).Idx → EReal)
    (bi : (⟨2, ![1, 1024]⟩ : Shape).Idx → EReal) (wf1 : (⟨2, ![1024, 512]⟩ : Shape).Idx → EReal)
    (bf1 : (⟨2, ![1, 512]⟩ : Shape).Idx → EReal) (w2 : Fin 512 → EReal) (b2 : EReal) (p : Fin M) (u : Fin 1) :
    score e1 e2 wi bi wf1 bf1 w2 b2 (ix2 p u)
      = Ideal.logistic ((∑ k : Fin 512, hidden e1 e2 wi bi wf1 bf1 (ix2 p k) * w2 k) + b2) := rfl

/-- The side-by-side array read at coordinates. -/
theorem concat4_apply (a b c d : (⟨2, ![M, 128]⟩ : Shape).Idx → EReal) (p : Fin M) (q : Fin 512) :
    concat4 a b c d (ix2 p q) =
      if h0 : q.val < 128 then a (ix2 p ⟨q.val, h0⟩)
      else if h1 : q.val < 256 then b (ix2 p ⟨q.val - 128, by omega⟩)
      else if h2 : q.val < 384 then c (ix2 p ⟨q.val - 256, by omega⟩)
      else d (ix2 p ⟨q.val - 384, by have := q.isLt; omega⟩) := rfl

/-- Row `p` of the side-by-side array depends only on row `p` of the four pieces. -/
theorem concat4_rows {M' : Nat} (a b c d : (⟨2, ![M, 128]⟩ : Shape).Idx → EReal) (a' b' c' d' : (⟨2, ![M', 128]⟩ : Shape).Idx → EReal)
    (p : Fin M) (p' : Fin M') (ha : ∀ k : Fin 128, a (ix2 p k) = a' (ix2 p' k)) (hb : ∀ k : Fin 128, b (ix2 p k) = b' (ix2 p' k))
    (hc : ∀ k : Fin 128, c (ix2 p k) = c' (ix2 p' k)) (hd : ∀ k : Fin 128, d (ix2 p k) = d' (ix2 p' k)) (q : Fin 512) :
    concat4 a b c d (ix2 p q) = concat4 a' b' c' d' (ix2 p' q) := by
  rw [concat4_apply, concat4_apply]
  simp only [ha, hb, hc, hd]

/-- Row `p` of the feature array depends only on row `p` of the end points' features. -/
theorem edgeFeat_rows {M' : Nat} (e1 e2 : (⟨2, ![M, 128]⟩ : Shape).Idx → EReal) (e1' e2' : (⟨2, ![M', 128]⟩ : Shape).Idx → EReal)
    (p : Fin M) (p' : Fin M') (h1 : ∀ k : Fin 128, e1 (ix2 p k) = e1' (ix2 p' k)) (h2 : ∀ k : Fin 128, e2 (ix2 p k) = e2' (ix2 p' k))
    (q : Fin 512) : edgeFeat e1 e2 (ix2 p q) = edgeFeat e1' e2' (ix2 p' q) :=
  concat4_rows _ _ _ _ _ _ _ _ p p'
    (fun k => by show e1 (ix2 p k) + e2 (ix2 p k) = e1' (ix2 p' k) + e2' (ix2 p' k); rw [h1, h2])
    (fun k => by show e1 (ix2 p k) * e2 (ix2 p k) = e1' (ix2 p' k) * e2' (ix2 p' k); rw [h1, h2]) h1 h2 q

/-- Row `p` of the hidden layer depends only on row `p` of the end points' features. -/
theorem hidden_rows {M' : Nat} (e1 e2 : (⟨2, ![M, 128]⟩ : Shape).Idx → EReal) (e1' e2' : (⟨2, ![M', 128]⟩ : Shape).Idx → EReal)
    (wi : (⟨2, ![512, 1024]⟩ : Shape).Idx → EReal) (bi : (⟨2, ![1, 1024]⟩ : Shape).Idx → EReal)
    (wf1 : (⟨2, ![1024, 512]⟩ : Shape).Idx → EReal) (bf1 : (⟨2, ![1, 512]⟩ : Shape).Idx → EReal)
    (p : Fin M) (p' : Fin M') (h1 : ∀ k : Fin 128, e1 (ix2 p k) = e1' (ix2 p' k)) (h2 : ∀ k : Fin 128, e2 (ix2 p k) = e2' (ix2 p' k))
    (q : Fin 512) : hidden e1 e2 wi bi wf1 bf1 (ix2 p q) = hidden e1' e2' wi bi wf1 bf1 (ix2 p' q) := by
  show max ((∑ j : Fin 1024, max ((∑ l : Fin 512, edgeFeat e1 e2 (ix2 p l) * wi (ix2 l j)) + bi (ix2 (0 : Fin 1) j)) 0 * wf1 (ix2 j q)) + bf1 (ix2 (0 : Fin 1) q)) 0
     = max ((∑ j : Fin 1024, max ((∑ l : Fin 512, edgeFeat e1' e2' (ix2 p' l) * wi (ix2 l j)) + bi (ix2 (0 : Fin 1) j)) 0 * wf1 (ix2 j q)) + bf1 (ix2 (0 : Fin 1) q)) 0
  simp only [edgeFeat_rows e1 e2 e1' e2' p p' h1 h2]

/-- The score of edge `p` depends only on row `p` of the end points' features: a block of rows scored by itself
    carries the whole array's scores of those rows. -/
theorem score_rows {M' : Nat} (e1 e2 : (⟨2, ![M, 128]⟩ : Shape).Idx → EReal) (e1' e2' : (⟨2, ![M', 128]⟩ : Shape).Idx → EReal)
    (wi : (⟨2, ![512, 1024]⟩ : Shape).Idx → EReal) (bi : (⟨2, ![1, 1024]⟩ : Shape).Idx → EReal)
    (wf1 : (⟨2, ![1024, 512]⟩ : Shape).Idx → EReal) (bf1 : (⟨2, ![1, 512]⟩ : Shape).Idx → EReal) (w2 : Fin 512 → EReal) (b2 : EReal)
    (p : Fin M) (p' : Fin M') (h1 : ∀ k : Fin 128, e1 (ix2 p k) = e1' (ix2 p' k)) (h2 : ∀ k : Fin 128, e2 (ix2 p k) = e2' (ix2 p' k))
    (u u' : Fin 1) : score e1 e2 wi bi wf1 bf1 w2 b2 (ix2 p u) = score e1' e2' wi bi wf1 bf1 w2 b2 (ix2 p' u') := by
  rw [score_apply, score_apply]
  simp only [hidden_rows e1 e2 e1' e2' wi bi wf1 bf1 p p' h1 h2]

end Cert.Spec

end
-- ==== Proof.LibConcat4.lean ====
/-
  Four arrays of 128 columns laid side by side along the column axis, read index by index: the concatenation along
  axis 1 of four `[M, 128]` arrays is the function that, at column `q`, reads piece `q / 128` at column `q mod 128`.
-/
import Idealize.ShloMosaic.Lib.ValueIdx
import Idealize.ShloMosaic.Lib.Pipeline.Value
import proofs.«167683_j50010599194662_2_alg».proof.Proof.Spec

noncomputable section

namespace Cert.Lib

open Idealize.ShloMosaic Idealize.ShloMosaic.ValueIdx

variable {M : Nat}

/-- The concatenation along axis 1 of four `[M, 128]` arrays is `Cert.Spec.concat4`: at `(p, q)` the piece whose span
    of 128 columns holds `q` is read at row `p` and at the column `q` less the columns of the pieces before it. -/
theorem concatenate4_eq (a b c d : (⟨2, ![M, 128]⟩ : Shape).Idx → EReal)
    (h : Shape.Concatenates ([(⟨⟨2, ![M, 128]⟩, a⟩ : (s : Shape) × (s.Idx → EReal)), ⟨⟨2, ![M, 128]⟩, b⟩,
      ⟨⟨2, ![M, 128]⟩, c⟩, ⟨⟨2, ![M, 128]⟩, d⟩].map (·.1)) ⟨2, ![M, 512]⟩ 1) :
    concatenate ⟨2, ![M, 512]⟩ 1 [⟨⟨2, ![M, 128]⟩, a⟩, ⟨⟨2, ![M, 128]⟩, b⟩, ⟨⟨2, ![M, 128]⟩, c⟩, ⟨⟨2, ![M, 128]⟩, d⟩] h
      = Cert.Spec.concat4 a b c d := by
  funext i
  obtain ⟨p, q, rfl⟩ : ∃ (p : Fin M) (q : Fin 512), i = ix2 p q := ⟨i 0, i 1, eq_ix2 i⟩
  have hq := q.isLt
  -- off the column axis the piece's index and the whole's agree
  have hoff : ∀ (q' : Fin 128) (b' : Fin 2), b'.cast rfl ≠ (1 : Fin 2) →
      ((ix2 p q' : (⟨2, ![M, 128]⟩ : Shape).Idx) b').val = ((ix2 p q : (⟨2, ![M, 512]⟩ : Shape).Idx) (b'.cast rfl)).val := by
    intro q' b' hb
    match b', hb with
    | ⟨0, _⟩, _ => rfl
    | ⟨1, _⟩, hb => exact absurd rfl hb
  rw [Cert.Spec.concat4_apply]
  by_cases h0 : q.val < 128
  · rw [dif_pos h0]
    exact concatenate_apply_piece (1 : Fin 2) _ h (ix2 p q) 0 (by show (0 : ℕ) < 4; omega) ⟨2, ![M, 128]⟩ a rfl rfl 0 rfl
      (ix2 p ⟨q.val, h0⟩) (hoff _) (by show 0 + q.val = q.val; omega)
  · rw [dif_neg h0]
    by_cases h1 : q.val < 256
    · rw [dif_pos h1]
      exact concatenate_apply_piece (1 : Fin 2) _ h (ix2 p q) 1 (by show (1 : ℕ) < 4; omega) ⟨2, ![M, 128]⟩ b rfl rfl 128 rfl
        (ix2 p ⟨q.val - 128, by omega⟩) (hoff _) (by show 128 + (q.val - 128) = q.val; omega)
    · rw [dif_neg h1]
      by_cases h2 : q.val < 384
      · rw [dif_pos h2]
        exact concatenate_apply_piece (1 : Fin 2) _ h (ix2 p q) 2 (by show (2 : ℕ) < 4; omega) ⟨2, ![M, 128]⟩ c rfl rfl 256 rfl
          (ix2 p ⟨q.val - 256, by omega⟩) (hoff _) (by show 256 + (q.val - 256) = q.val; omega)
      · rw [dif_neg h2]
        exact concatenate_apply_piece (1 : Fin 2) _ h (ix2 p q) 3 (by show (3 : ℕ) < 4; omega) ⟨2, ![M, 128]⟩ d rfl rfl 384 rfl
          (ix2 p ⟨q.val - 384, by omega⟩) (hoff _) (by show 384 + (q.val - 384) = q.val; omega)

end Cert.Lib

end
-- ==== Proof.LibKernelDense.lean ====
/-
  A kernel's dense layer read as a whole-array function over the extended reals.

  Inside a kernel a dense layer is a `tpu.matmul` of the activations with the weights into a zero accumulator, plus
  the bias row `[1, N]` broadcast over the `M` rows, optionally clamped by a `maximum` with a splat zero.  With
  ordinary matrix-product dimension numbers that is `Cert.Layers.addRow (project x w) b`, respectively
  `addRowClamp (project x w) b`: the same sums and products, `0 + s = s` being the only law used (inside the
  matmul's reading).
-/
import Idealize.ShloMosaic.PureOps.Ideal
import Idealize.ShloMosaic.PureOps.Ideal.Laws
import Idealize.ShloMosaic.Lib.ValueIdx
import Idealize.ShloMosaic.Lib.ValueLayout
import proofs.«167683_j50010599194662_2_alg».proof.Proof.LibPlainDot
import proofs.«167683_j50010599194662_2_alg».proof.Proof.LibDenseLayers

noncomputable section

namespace Cert.Lib

open Idealize.ShloMosaic Idealize.ShloMosaic.ValueIdx Cert.Layers

variable {M K N : Nat}

/-- A `tpu.matmul` into the zero accumulator plus the broadcast bias row is the projection plus the bias row. -/
theorem matmul_bias_eq_addRow {φ₁ φ₂ : FTy} (d : DotDims ⟨2, ![M, K]⟩ ⟨2, ![K, N]⟩ ⟨2, ![M, N]⟩) (hd : d = DotDims.plain M K N)
    (prec : Option ContractPrecision) (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    addf (matmul d prec x w (constant ⟨2, ![M, N]⟩ .f32 0x00000000#32)) (broadcastTo ⟨2, ![M, N]⟩ b hb)
      = addRow (project x w) b := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      + broadcastTo ⟨2, ![M, N]⟩ b hb (ix2 p q) = (∑ k : Fin K, x (ix2 p k) * w (ix2 k q)) + b (ix2 (0 : Fin 1) q)
  rw [matmul_plain_zero_apply prec x w p q, broadcastTo_1b_ab_apply b hb p q]

/-- The same followed by the clamp at a splat zero is the projection plus the bias row, clamped at zero. -/
theorem matmul_bias_clamp_eq_addRowClamp {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec x w (constant ⟨2, ![M, N]⟩ .f32 0x00000000#32)) (broadcastTo ⟨2, ![M, N]⟩ b hb))
        (broadcast ⟨2, ![M, N]⟩ (Scalar.ofBits (F := Ideal) .f32 0x00000000#32))
      = addRowClamp (project x w) b := by
  rw [matmul_bias_eq_addRow d hd prec x w b hb]
  funext i
  show max (addRow (project x w) b i) (Ideal.ofBits .f32 0x00000000#32) = max (addRow (project x w) b i) 0
  rw [Ideal.ofBits_zero_f32]

end Cert.Lib

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Region2Pay.lean ====
/-
  The fused edge scorer's arithmetic on one block of 1600 edges is the specification's score of that block.

  The body concatenates `[e1 + e2, e1 * e2, e1, e2]`, applies two dense layers each clamped at zero (a matrix product
  into a zero accumulator, a bias row broadcast over the rows, a maximum with a splat zero; the narrowing format changes
  in between are the identity on extended reals), multiplies the result by the last weights' row, sums each row's 512
  lanes, and takes the logistic function of that sum plus the last bias.  Read index by index these are the sums and
  products of `Cert.Spec.score`, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«167683_j50010599194662_2_alg».proof.Proof.Gen.KernelIdeal.Skeleton
import proofs.«167683_j50010599194662_2_alg».proof.Proof.Spec
import proofs.«167683_j50010599194662_2_alg».proof.Proof.LibConcat4
import proofs.«167683_j50010599194662_2_alg».proof.Proof.LibKernelDense
import proofs.«167683_j50010599194662_2_alg».proof.Proof.LibKeepdims

noncomputable section

namespace Cert.KernelIdeal.Val

open Idealize.ShloMosaic Idealize.ShloMosaic.ValueIdx Cert.Layers

/-- The first layer's dimension numbers are the ordinary matrix product's. -/
theorem dot1_plain : dot_S1600x512_S512x1024_S1600x1024_1_0_0_1_n_n = DotDims.plain 1600 512 1024 := rfl

/-- The second layer's dimension numbers are the ordinary matrix product's. -/
theorem dot2_plain : dot_S1600x1024_S1024x512_S1600x512_1_0_0_1_n_n = DotDims.plain 1600 1024 512 := rfl

/-- The concatenated features of a block, narrowed for the first matrix product, are the specification's feature rows. -/
theorem feat_eq (x0 x1 : Vec Ideal S1600x128 .f32) :
    (truncf .bf16 (concatenate S1600x512 1
        [⟨S1600x128, addf (shapeCast S1600x128 x0 Gen.shapeCasts_S1600x128_S1600x128) (shapeCast S1600x128 x1 Gen.shapeCasts_S1600x128_S1600x128)⟩,
         ⟨S1600x128, mulf (shapeCast S1600x128 x0 Gen.shapeCasts_S1600x128_S1600x128) (shapeCast S1600x128 x1 Gen.shapeCasts_S1600x128_S1600x128)⟩,
         ⟨S1600x128, shapeCast S1600x128 x0 Gen.shapeCasts_S1600x128_S1600x128⟩,
         ⟨S1600x128, shapeCast S1600x128 x1 Gen.shapeCasts_S1600x128_S1600x128⟩]
        Gen.concatenates_S1600x128_S1600x128_S1600x128_S1600x128_S1600x512_d1) Gen.bitsLt_bf16_f32 : FVec Ideal S1600x512 .bf16)
      = Cert.Spec.edgeFeat (M := 1600) x0 x1 := by
  rw [shapeCast_self x0, shapeCast_self x1]
  exact Cert.Lib.concatenate4_eq (M := 1600) (fun i => x0 i + x1 i) (fun i => x0 i * x1 i) x0 x1
    Gen.concatenates_S1600x128_S1600x128_S1600x128_S1600x128_S1600x512_d1

/-- The source index of a row's lane in the lane sum. -/
theorem lift_eq (h : S1600x512.Reduces [1] S1600) (p : Fin 1600) (k : Fin 512) :
    h.lift (ix1 p) k = ix2 p k := by
  funext c
  refine Fin.ext ?_
  match c with
  | ⟨0, _⟩ => rfl
  | ⟨1, _⟩ => rfl

/-- A row's lane sum (into the zero word), at a row: the sum of the row's 512 entries. -/
theorem rowSum_apply (src : FVec Ideal S1600x512 .f32) (h : S1600x512.Reduces [1] S1600) (hφ : FKind.Formats .f32)
    (hacc : (0x00000000#32 : BitVec 32) = FKind.add.neutral .f32 hφ) (p : Fin 1600) :
    multiReduction (F := Ideal) .add [1] S1600 src 0x00000000#32 h hφ hacc (ix1 p) = ∑ k : Fin 512, src (ix2 p k) :=
  (Ideal.multiReduction_add_single src 0x00000000#32 h hφ hacc (ix1 p)).trans
    (Finset.sum_congr rfl fun k _ => congrArg src (lift_eq h p k))

/-- The payload is the specification's score of the block. -/
theorem k2_pay1_eq (x0 x1 : Vec Ideal S1600x128 .f32) (x2 : Vec Ideal S512x1024 .bf16) (x3 : Vec Ideal S1024 .f32)
    (x4 : Vec Ideal S1024x512 .bf16) (x5 : Vec Ideal S512 .f32) (x6 : Vec Ideal S1x512 .f32) (x7 : Vec Ideal S1 .f32) :
    Gen.k2_pay1 (F := Ideal) x0 x1 x2 x3 x4 x5 x6 x7
      = Cert.Spec.score (M := 1600) x0 x1 x2 (shapeCast S1x1024 x3 Gen.shapeCasts_S1024_S1x1024) x4
          (shapeCast S1x512 x5 Gen.shapeCasts_S512_S1x512) (fun k => x6 (ix2 (0 : Fin 1) k)) (x7 (ix1 (0 : Fin 1))) := by
  unfold Gen.k2_pay1
  dsimp only
  rw [feat_eq x0 x1]
  rw [shapeCast_self x2, shapeCast_self x4, shapeCast_self x6]
  rw [Cert.Lib.matmul_bias_clamp_eq_addRowClamp _ dot1_plain none (Cert.Spec.edgeFeat (M := 1600) x0 x1) x2
    (shapeCast S1x1024 x3 Gen.shapeCasts_S1024_S1x1024) Gen.broadcasts_S1x1024_S1600x1024]
  rw [Cert.Lib.matmul_bias_clamp_eq_addRowClamp _ dot2_plain none _ x4
    (shapeCast S1x512 x5 Gen.shapeCasts_S512_S1x512) Gen.broadcasts_S1x512_S1600x512]
  funext i
  obtain ⟨p, u, rfl⟩ : ∃ (p : Fin 1600) (u : Fin 1), i = ix2 p u := ⟨i 0, i 1, eq_ix2 i⟩
  rw [Cert.Spec.score_apply]
  refine congrArg Ideal.logistic ?_
  refine congrArg₂ (· + ·) ?_ ?_
  · refine (Cert.LibKeepdims.shapeCast_a_a1_apply _ _ p u).trans ?_
    refine (rowSum_apply _ _ _ _ p).trans ?_
    refine Finset.sum_congr rfl fun k _ => ?_
    refine (mulf_apply _ _ (ix2 p k)).trans ?_
    rw [broadcastTo_1b_ab_apply x6 _ p k]
    rfl
  · refine (broadcastTo_1b_ab_apply _ _ p u).trans ?_
    refine (shapeCast_a_1a_apply x7 _ (0 : Fin 1) u).trans ?_
    rw [Subsingleton.elim u (0 : Fin 1)]

end Cert.KernelIdeal.Val

end
-- ==== Proof.Region2.lean ====
/-
  The edge scores after the fused scorer's launch.

  The launch visits 100 points; point `t` loads rows `1600 t … 1600 t + 1599` of the two feature arrays and the weights
  and biases whole, and writes back rows `1600 t … 1600 t + 1599` of the score column.  A row's score depends only on
  that row of the features (`Cert.Spec.score_rows`), so what point `t` writes back is its block of the whole array's
  scores; the 100 blocks cover the column, which therefore ends holding the specification's scores.
-/
import Idealize.ShloMosaic.Lib.ValueIdx
import Idealize.ShloMosaic.Lib.Pipeline.Value
import proofs.«167683_j50010599194662_2_alg».proof.Proof.Gen.KernelIdeal.Frame
import proofs.«167683_j50010599194662_2_alg».proof.Proof.Spec
import proofs.«167683_j50010599194662_2_alg».proof.Proof.Region2Pay

noncomputable section

namespace Cert.KernelIdeal.Val

open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz2u : (![0] : Fin 1 → Nat) = fun _ => 0 := funext fun a => by fin_cases a; rfl

/-- The printed index maps, decided over the grid: the two feature windows and the score window are at block row `t`,
    column block 0; every other window's block is its whole array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- A block of 1600 rows scored with the weights and biases it was handed is the whole arrays' score at the rows' places:
    block row `r` of point `T` is array row `1600 T + r`. -/
theorem score_block (E1 E2 : S160000x128.Idx → EReal) (Wi wi : S512x1024.Idx → EReal) (Bi bi : S1024.Idx → EReal)
    (Wf wf : S1024x512.Idx → EReal) (Bf bf : S512.Idx → EReal) (W2 w2 : S1x512.Idx → EReal) (B2 b2 : S1.Idx → EReal)
    (e1 e2 : S1600x128.Idx → EReal) (T : ℕ) (hT : T < 100)
    (h1 : ∀ (r : Fin 1600) (k : Fin 128), e1 (ix2 r k) = E1 (ix2 (⟨T * 1600 + r.val, by have := r.isLt; omega⟩ : Fin 160000) k))
    (h2 : ∀ (r : Fin 1600) (k : Fin 128), e2 (ix2 r k) = E2 (ix2 (⟨T * 1600 + r.val, by have := r.isLt; omega⟩ : Fin 160000) k))
    (hwi : wi = Wi) (hbi : bi = Bi) (hwf : wf = Wf) (hbf : bf = Bf) (hw2 : w2 = W2) (hb2 : b2 = B2)
    (r : Fin 1600) (u : Fin 1) (i : S160000x1.Idx) (hi : (i 0).val = T * 1600 + r.val) :
    Cert.Spec.score (M := 1600) e1 e2 wi (shapeCast S1x1024 bi Gen.shapeCasts_S1024_S1x1024) wf
        (shapeCast S1x512 bf Gen.shapeCasts_S512_S1x512) (fun k => w2 (ix2 (0 : Fin 1) k)) (b2 (ix1 (0 : Fin 1))) (ix2 r u)
      = Cert.Spec.score (M := 160000) E1 E2 Wi (shapeCast S1x1024 Bi Gen.shapeCasts_S1024_S1x1024) Wf
        (shapeCast S1x512 Bf Gen.shapeCasts_S512_S1x512) (fun k => W2 (ix2 (0 : Fin 1) k)) (B2 (ix1 (0 : Fin 1))) i := by
  subst hwi hbi hwf hbf hw2 hb2
  have hb : T * 1600 + r.val < 160000 := by have := r.isLt; omega
  obtain ⟨P, U, rfl⟩ : ∃ (P : Fin 160000) (U : Fin 1), i = ix2 P U := ⟨i 0, i 1, eq_ix2 i⟩
  have hP : P = ⟨T * 1600 + r.val, hb⟩ := Fin.ext hi
  subst hP
  exact Cert.Spec.score_rows e1 e2 E1 E2 _ _ _ _ _ _ r _ (h1 r) (h2 r) u U

/-- The whole array's scores, of the arrays as the region finds them. -/
abbrev G (c : Dev nD) : S160000x1.Idx → EReal :=
  Cert.Spec.score (M := 160000) (V c main_v137) (V c main_v144) (V c main_v146)
    (shapeCast S1x1024 (V c main_arg12) Gen.shapeCasts_S1024_S1x1024) (V c main_v147)
    (shapeCast S1x512 (V c main_arg14) Gen.shapeCasts_S512_S1x512) (fun k => V c main_v145 (ix2 (0 : Fin 1) k))
    (V c main_arg16 (ix1 (0 : Fin 1)))

/-- WHAT POINT `t` WRITES BACK is block `t` of the whole array's scores. -/
theorem flushed_eq (c : Dev nD) (t : Fin cfg2.N) :
    (Gen.dat2 (F := Ideal) V c).flushed 8 t = ((cfg2.win 8).blk t).view.read (Elt Ideal) (G V c) := by
  show (cfg2.win 8).cut (grid2.coords t) ((Gen.dat2 V c).after 8 t) = _
  rw [Gen.after2_8]
  unfold Gen.out2_8
  rw [View.canon_unit_zero hz2]
  simp only [View.ld_unit_zero (S := S1600x128) hz2, View.ld_unit_zero (S := S512x1024) hz2, View.ld_unit_zero (S := S1024) hz2u,
    View.ld_unit_zero (S := S1024x512) hz2, View.ld_unit_zero (S := S512) hz2u, View.ld_unit_zero (S := S1x512) hz2,
    View.ld_unit_zero (S := S1) hz2u]
  rw [k2_pay1_eq]
  obtain ⟨f00, f01, f10, f11, f20, f21, f30, f40, f41, f50, f60, f61, f70, f80, f81⟩ := idx_facts t
  have ht : t.val < 100 := by have h := t.isLt; have e : cfg2.N = 100 := Gen.N_2; omega
  refine funext fun (j : S1600x1.Idx) => ?_
  obtain ⟨r, u, rfl⟩ : ∃ (r : Fin 1600) (u : Fin 1), j = ix2 r u := ⟨j 0, j 1, eq_ix2 j⟩
  show Cert.Spec.score (M := 1600) (Gen.iblk2 V c 0 t) (Gen.iblk2 V c 1 t) (Gen.iblk2 V c 2 t)
      (shapeCast S1x1024 (Gen.iblk2 V c 3 t) Gen.shapeCasts_S1024_S1x1024) (Gen.iblk2 V c 4 t)
      (shapeCast S1x512 (Gen.iblk2 V c 5 t) Gen.shapeCasts_S512_S1x512) (fun k => Gen.iblk2 V c 6 t (ix2 (0 : Fin 1) k))
      (Gen.iblk2 V c 7 t (ix1 (0 : Fin 1))) (ix2 r u)
    = G V c (((cfg2.win 8).blk t).view.emb (ix2 r u))
  refine score_block (V c main_v137) (V c main_v144) (V c main_v146) _ (V c main_arg12) _ (V c main_v147) _
    (V c main_arg14) _ (V c main_v145) _ (V c main_arg16) _ _ _ t.val ht ?_ ?_ ?_ ?_ ?_ ?_ ?_ ?_ r u _ ?_
  · intro r' k
    show V c main_v137 (((cfg2.win 0).blk t).view.emb (ix2 r' k)) = V c main_v137 (ix2 _ k)
    refine congrArg (V c main_v137 : S160000x128.Idx → EReal) (funext fun a => Fin.ext ?_)
    match a with
    | ⟨0, _⟩ => show win2_0.index t (0 : Fin 2) * 1600 + 1 * r'.val = t.val * 1600 + r'.val; rw [f00]; omega
    | ⟨1, _⟩ => show win2_0.index t (1 : Fin 2) * 128 + 1 * k.val = k.val; rw [f01]; omega
  · intro r' k
    show V c main_v144 (((cfg2.win 1).blk t).view.emb (ix2 r' k)) = V c main_v144 (ix2 _ k)
    refine congrArg (V c main_v144 : S160000x128.Idx → EReal) (funext fun a => Fin.ext ?_)
    match a with
    | ⟨0, _⟩ => show win2_1.index t (0 : Fin 2) * 1600 + 1 * r'.val = t.val * 1600 + r'.val; rw [f10]; omega
    | ⟨1, _⟩ => show win2_1.index t (1 : Fin 2) * 128 + 1 * k.val = k.val; rw [f11]; omega
  · funext y
    show V c main_v146 (((cfg2.win 2).blk t).view.emb y) = V c main_v146 y
    refine congrArg (V c main_v146 : S512x1024.Idx → EReal) (funext fun a => Fin.ext ?_)
    match a with
    | ⟨0, _⟩ => show win2_2.index t (0 : Fin 2) * 512 + 1 * (y 0).val = (y 0).val; rw [f20]; omega
    | ⟨1, _⟩ => show win2_2.index t (1 : Fin 2) * 1024 + 1 * (y 1).val = (y 1).val; rw [f21]; omega
  · funext y
    show V c main_arg12 (((cfg2.win 3).blk t).view.emb y) = V c main_arg12 y
    refine congrArg (V c main_arg12 : S1024.Idx → EReal) (funext fun a => Fin.ext ?_)
    match a with
    | ⟨0, _⟩ => show win2_3.index t (0 : Fin 1) * 1024 + 1 * (y 0).val = (y 0).val; rw [f30]; omega
  · funext y
    show V c main_v147 (((cfg2.win 4).blk t).view.emb y) = V c main_v147 y
    refine congrArg (V c main_v147 : S1024x512.Idx → EReal) (funext fun a => Fin.ext ?_)
    match a with
    | ⟨0, _⟩ => show win2_4.index t (0 : Fin 2) * 1024 + 1 * (y 0).val = (y 0).val; rw [f40]; omega
    | ⟨1, _⟩ => show win2_4.index t (1 : Fin 2) * 512 + 1 * (y 1).val = (y 1).val; rw [f41]; omega
  · funext y
    show V c main_arg14 (((cfg2.win 5).blk t).view.emb y) = V c main_arg14 y
    refine congrArg (V c main_arg14 : S512.Idx → EReal) (funext fun a => Fin.ext ?_)
    match a with
    | ⟨0, _⟩ => show win2_5.index t (0 : Fin 1) * 512 + 1 * (y 0).val = (y 0).val; rw [f50]; omega
  · funext y
    show V c main_v145 (((cfg2.win 6).blk t).view.emb y) = V c main_v145 y
    refine congrArg (V c main_v145 : S1x512.Idx → EReal) (funext fun a => Fin.ext ?_)
    match a with
    | ⟨0, _⟩ => show win2_6.index t (0 : Fin 2) * 1 + 1 * (y 0).val = (y 0).val; rw [f60]; omega
    | ⟨1, _⟩ => show win2_6.index t (1 : Fin 2) * 512 + 1 * (y 1).val = (y 1).val; rw [f61]; omega
  · funext y
    show V c main_arg16 (((cfg2.win 7).blk t).view.emb y) = V c main_arg16 y
    refine congrArg (V c main_arg16 : S1.Idx → EReal) (funext fun a => Fin.ext ?_)
    match a with
    | ⟨0, _⟩ => show win2_7.index t (0 : Fin 1) * 1 + 1 * (y 0).val = (y 0).val; rw [f70]; omega
  · show win2_8.index t (0 : Fin 2) * 1600 + 1 * r.val = t.val * 1600 + r.val
    rw [f80]; omega

/-- An index of the score column is in point `t`'s block iff each coordinate is in the block's range on its axis. -/
theorem mem_blk (t : Fin cfg2.N) (i : S160000x1.Idx) :
    i ∈ ((cfg2.win 8).blk t).view.set ↔ ∀ a : Fin 2, win2_8.index t a * S1600x1.size a ≤ (i a).val
      ∧ (i a).val < win2_8.index t a * S1600x1.size a + S1600x1.size a := by
  show i ∈ ((View.whole main_v148).slice (win2_8.rect t)).set ↔ _
  rw [View.set_slice_whole, Rect.mem_set_unit]
  exact Iff.rfl

/-- Every row of the score column is in the block of the point `row / 1600`, which is written back. -/
theorem cover (i : S160000x1.Idx) :
    ∃ t : Fin cfg2.N, (cfg2.win 8).flush t = true ∧ i ∈ ((cfg2.win 8).blk t).view.set := by
  have hi0 : (i 0).val < 160000 := (i 0).isLt
  have hi1 : (i 1).val < 1 := (i 1).isLt
  have hN : cfg2.N = 100 := Gen.N_2
  obtain ⟨t, ht⟩ : ∃ t : Fin cfg2.N, t.val = (i 0).val / 1600 := ⟨⟨(i 0).val / 1600, by rw [hN]; omega⟩, rfl⟩
  obtain ⟨-, -, -, -, -, -, -, -, -, -, -, -, -, f80, f81⟩ := idx_facts t
  refine ⟨t, Gen.flush2_8 t, ?_⟩
  rw [mem_blk]
  intro a
  match a with
  | ⟨0, _⟩ =>
    show win2_8.index t (0 : Fin 2) * 1600 ≤ (i 0).val ∧ (i 0).val < win2_8.index t (0 : Fin 2) * 1600 + 1600
    rw [f80, ht]; omega
  | ⟨1, _⟩ =>
    show win2_8.index t (1 : Fin 2) * 1 ≤ (i 1).val ∧ (i 1).val < win2_8.index t (1 : Fin 2) * 1 + 1
    rw [f81]; omega

/-- THE SCORE COLUMN after the launch: the specification's scores of the arrays as the region finds them. -/
theorem region2_arr (c : Dev nD) :
    (Gen.dat2 (F := Ideal) V c).arrAt 8 cfg2.N
      = Cert.Spec.score (M := 160000) (V c main_v137) (V c main_v144) (V c main_v146)
          (shapeCast S1x1024 (V c main_arg12) Gen.shapeCasts_S1024_S1x1024) (V c main_v147)
          (shapeCast S1x512 (V c main_arg14) Gen.shapeCasts_S512_S1x512) (fun k => V c main_v145 (ix2 (0 : Fin 1) k))
          (V c main_arg16 (ix1 (0 : Fin 1))) :=
  (Gen.dat2 (F := Ideal) V c).arrAt_eq_of_cover 8 (G V c) (fun t _ => flushed_eq V c t) cover

end Cert.KernelIdeal.Val

end
-- ==== Proof.KernelReads.lean ====
/-
  The idealized kernel program's buffers at the boundaries of its run.

  The run's buffer contents are a fold: each host stretch applies its operations, each kernel region replaces its
  output array by what its write-backs leave and keeps every other buffer.  Here the three regions' outputs are
  stated as values — the two projections as matrix products of the region's operand arrays, the scores as the
  specification's scorer of the region's eight operand arrays — and a buffer that is no array of a region is read
  through it unchanged.
-/
import proofs.«167683_j50010599194662_2_alg».proof.Proof.KernelRun
import proofs.«167683_j50010599194662_2_alg».proof.Proof.Region0
import proofs.«167683_j50010599194662_2_alg».proof.Proof.Region1
import proofs.«167683_j50010599194662_2_alg».proof.Proof.Region2
import Idealize.ShloMosaic.Lib.StableHlo.Run

noncomputable section

namespace Cert.KernelIdeal.Val

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- After region 0 its output array holds the product of its two operand arrays. -/
theorem W2_v6 : W2 m ρ c (Proc.devRef .tc main_v6)
    = Cert.Layers.project (M := 10000) (K := 128) (N := 256) (W1 m ρ c (Proc.devRef .tc main_v4)) (W1 m ρ c (Proc.devRef .tc main_v5)) :=
  (W2_arr m ρ c 2).trans (region0_arr (V1 m ρ) c)

/-- After region 1 its output array holds the product of its two operand arrays. -/
theorem W8_v70 : W8 m ρ c (Proc.devRef .tc main_v70)
    = Cert.Layers.project (M := 10000) (K := 512) (N := 512) (W7 m ρ c (Proc.devRef .tc main_v68)) (W7 m ρ c (Proc.devRef .tc main_v69)) :=
  (W8_arr m ρ c 2).trans (region1_arr (V7 m ρ) c)

/-- After region 2 the result array holds the scorer of the region's eight operand arrays. -/
theorem W14_v148 : W14 m ρ c (Proc.devRef .tc main_v148)
    = Cert.Spec.score (M := 160000) (W13 m ρ c (Proc.devRef .tc main_v137)) (W13 m ρ c (Proc.devRef .tc main_v144))
        (W13 m ρ c (Proc.devRef .tc main_v146))
        (shapeCast S1x1024 (W13 m ρ c (Proc.devRef .tc main_arg12)) Gen.shapeCasts_S1024_S1x1024) (W13 m ρ c (Proc.devRef .tc main_v147))
        (shapeCast S1x512 (W13 m ρ c (Proc.devRef .tc main_arg14)) Gen.shapeCasts_S512_S1x512)
        (fun k => W13 m ρ c (Proc.devRef .tc main_v145) (ix2 (0 : Fin 1) k))
        (W13 m ρ c (Proc.devRef .tc main_arg16) (ix1 (0 : Fin 1))) :=
  (W14_arr m ρ c 8).trans (region2_arr (V13 m ρ) c)

/-- Region 0 keeps every buffer that is none of its arrays. -/
theorem W2_keep (b : Ref sig .tc) (hb : ∀ w, Pipeline.arrRef spec0 w ≠ b) :
    W2 m ρ c (no_index (Proc.devRef .tc b)) = W1 m ρ c (Proc.devRef .tc b) := W2_of_ne m ρ c b hb

/-- Region 1 keeps every buffer that is none of its arrays. -/
theorem W8_keep (b : Ref sig .tc) (hb : ∀ w, Pipeline.arrRef spec1 w ≠ b) :
    W8 m ρ c (no_index (Proc.devRef .tc b)) = W7 m ρ c (Proc.devRef .tc b) := W8_of_ne m ρ c b hb

end Cert.KernelIdeal.Val

end
-- ==== Proof.ConcatReads.lean ====
/-
  Concatenations read through their operands.

  A host concatenation's result is a function of its operands' contents.  Naming that function (`catK`, `catR`,
  `cat4R`) lets the reading of a line of operations go on into the operands: the buffer after the concatenation is the
  named function of what the line leaves in the operand buffers.
-/
import proofs.«167683_j50010599194662_2_alg».proof.Proof.Gen.KernelIdeal.Launch
import proofs.«167683_j50010599194662_2_alg».proof.Proof.RefOps
import Idealize.ShloMosaic.Lib.StableHlo.Run
import Idealize.ShloMosaic.PureOps.Ideal

noncomputable section

namespace Cert.Stages

open Idealize.ShloMosaic Idealize.ShloMosaic.TcCoe Idealize.ShloMosaic.StableHlo

/-- The kernel program's concatenation of the aggregated messages with the residual features, along the feature axis. -/
def catK (x y : FVec Ideal Cert.KernelIdeal.S10000x2x128 .f32) : FVec Ideal Cert.KernelIdeal.S10000x2x256 .f32 :=
  concatenate Cert.KernelIdeal.S10000x2x256 2 [⟨Cert.KernelIdeal.S10000x2x128, x⟩, ⟨Cert.KernelIdeal.S10000x2x128, y⟩]
    Cert.KernelIdeal.Facts₀.concatenates_S10000x2x128_S10000x2x128_S10000x2x256_d2

/-- The reference's concatenation of the aggregated messages with the residual features. -/
def catR (x y : FVec Ideal Cert.ReferenceIdeal.S10000x2x128 .f32) : FVec Ideal Cert.ReferenceIdeal.S10000x2x256 .f32 :=
  concatenate Cert.ReferenceIdeal.S10000x2x256 2 [⟨Cert.ReferenceIdeal.S10000x2x128, x⟩, ⟨Cert.ReferenceIdeal.S10000x2x128, y⟩]
    Cert.ReferenceIdeal.Facts₀.concatenates_S10000x2x128_S10000x2x128_S10000x2x256_d2

/-- The reference's concatenation of the four edge-feature pieces. -/
def cat4R (a b c d : FVec Ideal Cert.ReferenceIdeal.S160000x128 .f32) : FVec Ideal Cert.ReferenceIdeal.S160000x512 .f32 :=
  concatenate Cert.ReferenceIdeal.S160000x512 1 [⟨Cert.ReferenceIdeal.S160000x128, a⟩, ⟨Cert.ReferenceIdeal.S160000x128, b⟩,
      ⟨Cert.ReferenceIdeal.S160000x128, c⟩, ⟨Cert.ReferenceIdeal.S160000x128, d⟩]
    Cert.ReferenceIdeal.Facts₀.concatenates_S160000x128_S160000x128_S160000x128_S160000x128_S160000x512_d1

section K
open Cert.KernelIdeal Cert.KernelIdeal.Facts₀
/-- The kernel program's concatenation, read: the named function of the two operand buffers' contents. -/
theorem catK_read (hx hy hz) (W : Valuation τ sig (Elt Ideal)) :
    (StableHlo.binary (τ := τ) main_v59 main_v61 main_v62 ((fun a b => concatenate S10000x2x256 2 [⟨S10000x2x128, a⟩, ⟨S10000x2x128, b⟩] concatenates_S10000x2x128_S10000x2x128_S10000x2x256_d2) : (⟨S10000x2x128, .f32⟩ : BufTy).Contents (Elt Ideal) → (⟨S10000x2x128, .f32⟩ : BufTy).Contents (Elt Ideal) → (⟨S10000x2x256, .f32⟩ : BufTy).Contents (Elt Ideal)) hx hy hz).result W (no_index (Proc.devRef .tc main_v62))
      = catK (W (Proc.devRef .tc main_v59)) (W (Proc.devRef .tc main_v61)) :=
  binary_result' _ hx hy hz W
end K

section R
open Cert.ReferenceIdeal Cert.ReferenceIdeal.Facts₀
/-- The reference's two-piece concatenation, read. -/
theorem catR_read (hx hy hz) (W : Valuation τ sig (Elt Ideal)) :
    (StableHlo.binary (τ := τ) main_v57 main_v59 main_v60 ((fun a b => concatenate S10000x2x256 2 [⟨S10000x2x128, a⟩, ⟨S10000x2x128, b⟩] concatenates_S10000x2x128_S10000x2x128_S10000x2x256_d2) : (⟨S10000x2x128, .f32⟩ : BufTy).Contents (Elt Ideal) → (⟨S10000x2x128, .f32⟩ : BufTy).Contents (Elt Ideal) → (⟨S10000x2x256, .f32⟩ : BufTy).Contents (Elt Ideal)) hx hy hz).result W (no_index (Proc.devRef .tc main_v60))
      = catR (W (Proc.devRef .tc main_v57)) (W (Proc.devRef .tc main_v59)) :=
  binary_result' _ hx hy hz W

/-- The reference's four-piece concatenation, read. -/
theorem cat4R_read (hxs hy) (W : Valuation τ sig (Elt Ideal)) :
    (StableHlo.nary (τ := τ) ![main_v149, main_v150, main_v139, main_v148] main_v151 (fun u => concatenate S160000x512 1 [⟨S160000x128, u 0⟩, ⟨S160000x128, u 1⟩, ⟨S160000x128, u 2⟩, ⟨S160000x128, u 3⟩] concatenates_S160000x128_S160000x128_S160000x128_S160000x128_S160000x512_d1) hxs hy).result W (no_index (Proc.devRef .tc main_v151))
      = cat4R (W (Proc.devRef .tc main_v149)) (W (Proc.devRef .tc main_v150)) (W (Proc.devRef .tc main_v139)) (W (Proc.devRef .tc main_v148)) :=
  nary4_result' _ hxs hy W
end R

end Cert.Stages

end
-- ==== Proof.EdgeRows.lean ====
/-
  The two rows of the edge table — the sources and the targets of the edges — as vectors: row 0 and row 1 of the
  2 × E table, each sliced out and reshaped to length E.
-/
import proofs.«167683_j50010599194662_2_alg».proof.Proof.ConcatReads

noncomputable section

namespace Cert.Stages

open Idealize.ShloMosaic Idealize.ShloMosaic.TcCoe Idealize.ShloMosaic.StableHlo

/-- The edge table's first row (the sources) as a vector. -/
def srcOf (E : (⟨Cert.KernelIdeal.S2x160000, .i32⟩ : BufTy).Contents (Elt Ideal)) :
    (⟨Cert.KernelIdeal.S160000, .i32⟩ : BufTy).Contents (Elt Ideal) :=
  fun i => shapeCast Cert.KernelIdeal.S160000
    (extractStridedSlice Cert.KernelIdeal.S1x160000 ![0, 0] E Cert.KernelIdeal.Facts₀.slices_S2x160000_S1x160000_0_0)
    Cert.KernelIdeal.Facts₀.shapeCasts_S1x160000_S160000 i

/-- The edge table's second row (the targets) as a vector. -/
def trgOf (E : (⟨Cert.KernelIdeal.S2x160000, .i32⟩ : BufTy).Contents (Elt Ideal)) :
    (⟨Cert.KernelIdeal.S160000, .i32⟩ : BufTy).Contents (Elt Ideal) :=
  fun i => shapeCast Cert.KernelIdeal.S160000
    (extractStridedSlice Cert.KernelIdeal.S1x160000 ![1, 0] E Cert.KernelIdeal.Facts₀.slices_S2x160000_S1x160000_1_0)
    Cert.KernelIdeal.Facts₀.shapeCasts_S1x160000_S160000 i

end Cert.Stages

end
-- ==== Proof.BridgeDefs.lean ====
/-
  The reference's buffer contents at the boundaries of the proof's stages, and what it means for the two launch
  memories to agree on the arguments.
-/
import proofs.«167683_j50010599194662_2_alg».proof.Proof.KernelReads
import proofs.«167683_j50010599194662_2_alg».proof.Proof.RefRun
import proofs.«167683_j50010599194662_2_alg».proof.Proof.EdgeRows

noncomputable section

namespace Cert.Bridge

open Idealize.ShloMosaic Idealize.ShloMosaic.TcCoe Idealize.ShloMosaic.StableHlo Idealize.ShloMosaic.ValueIdx Idealize.SL.Sem
open Cert.KernelIdeal.Gen (W0 W1 W2 W3 W4 W5 W6 W7 W8 W9 W10 W11 W12 W13 W14)
open Cert.KernelIdeal.Val (W2_v6 W8_v70 W14_v148 W2_keep W8_keep)
open Cert.ReferenceIdeal.RefRun (opsA opsB1 opsB2 opsC opsD1 opsD2 opsD3 opsE)
open Cert.Stages (srcOf trgOf)

/-- Reads a buffer back through the run: through a kernel region a buffer that is none of its arrays is kept, and through
    a line of host operations each operation either wrote the buffer (then the buffer holds the operation's function of
    its operands' contents) or did not (then it holds what was there), which of the two being decided on the references. -/
macro "read_back" : tactic =>
  `(tactic| (simp (disch := decide) only [W8_keep, W2_keep, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']; try rfl))

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The two launch memories hold the same seventeen argument arrays on core `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

/-- The reference's buffers at launch. -/
abbrev X0 : Valuation Cert.ReferenceIdeal.τ Cert.ReferenceIdeal.sig (Elt Ideal) := launchContents m' c
/-- … after the first projection. -/
abbrev XA : Valuation Cert.ReferenceIdeal.τ Cert.ReferenceIdeal.sig (Elt Ideal) := after (opsA (F := Ideal)) (X0 m' c)
/-- … after the first layer. -/
abbrev XB : Valuation Cert.ReferenceIdeal.τ Cert.ReferenceIdeal.sig (Elt Ideal) := after (opsB2 (F := Ideal)) (after (opsB1 (F := Ideal)) (XA m' c))
/-- … after the second projection. -/
abbrev XC : Valuation Cert.ReferenceIdeal.τ Cert.ReferenceIdeal.sig (Elt Ideal) := after (opsC (F := Ideal)) (XB m' c)
/-- … after the second layer and the two gathers. -/
abbrev XD : Valuation Cert.ReferenceIdeal.τ Cert.ReferenceIdeal.sig (Elt Ideal) :=
  after (opsD3 (F := Ideal)) (after (opsD2 (F := Ideal)) (after (opsD1 (F := Ideal)) (XC m' c)))

end Cert.Bridge

end
-- ==== Proof.StageB.lean ====
/-
  The first attention layer's host side, the same in both programs.

  Between the first projection and the second, both programs apply the same line of host operations — the per-head
  scores, their gathers along the edges, the leaky clamp, the shift by the global maximum, the exponential, the
  per-target sums and the normalisation, the weighted messages summed per target, the residual features set beside
  them, the bias and the exponential-linear clamp — to the projected features, the two rows of the edge table and
  four parameter arrays.  Read from contents that agree on those seven buffers, the two lines leave the same array:
  each side's line reads, operation by operation, to one composed term over the seven inputs, and the two terms are
  the same operations in the same order.
-/
import proofs.«167683_j50010599194662_2_alg».proof.Proof.ConcatReads

noncomputable section

namespace Cert.Stages

open Idealize.ShloMosaic Idealize.ShloMosaic.TcCoe Idealize.ShloMosaic.StableHlo

-- the two lines read to composed terms of some two hundred operations: one pass over each, beyond the default budget
set_option maxHeartbeats 4000000 in
/-- The first layer's output is the same function of the projected features, the edge rows and the parameters in
    both programs. -/
theorem layer1_glue
    (Wk : Valuation Cert.KernelIdeal.τ Cert.KernelIdeal.sig (Elt Ideal))
    (Wr : Valuation Cert.ReferenceIdeal.τ Cert.ReferenceIdeal.sig (Elt Ideal))
    (hP : Wk (Proc.devRef .tc Cert.KernelIdeal.main_v6) = Wr (Proc.devRef .tc Cert.ReferenceIdeal.main_v4))
    (hs : Wk (Proc.devRef .tc Cert.KernelIdeal.main_v1) = Wr (Proc.devRef .tc Cert.ReferenceIdeal.main_v1))
    (ht : Wk (Proc.devRef .tc Cert.KernelIdeal.main_v3) = Wr (Proc.devRef .tc Cert.ReferenceIdeal.main_v3))
    (h2 : Wk (Proc.devRef .tc Cert.KernelIdeal.main_arg2) = Wr (Proc.devRef .tc Cert.ReferenceIdeal.main_arg2))
    (h4 : Wk (Proc.devRef .tc Cert.KernelIdeal.main_arg4) = Wr (Proc.devRef .tc Cert.ReferenceIdeal.main_arg4))
    (h5 : Wk (Proc.devRef .tc Cert.KernelIdeal.main_arg5) = Wr (Proc.devRef .tc Cert.ReferenceIdeal.main_arg5))
    (h6 : Wk (Proc.devRef .tc Cert.KernelIdeal.main_arg6) = Wr (Proc.devRef .tc Cert.ReferenceIdeal.main_arg6)) :
    after (Cert.KernelIdeal.Gen.hostOps1_3 (F := Ideal)) (after (Cert.KernelIdeal.Gen.hostOps1_2 (F := Ideal))
        (after (Cert.KernelIdeal.Gen.hostOps1_1 (F := Ideal)) (after (Cert.KernelIdeal.Gen.hostOps1 (F := Ideal)) Wk)))
        (Proc.devRef .tc Cert.KernelIdeal.main_v67)
      = after (Cert.ReferenceIdeal.RefRun.opsB2 (F := Ideal)) (after (Cert.ReferenceIdeal.RefRun.opsB1 (F := Ideal)) Wr)
        (Proc.devRef .tc Cert.ReferenceIdeal.main_v65) := by
  simp (disch := decide) only [↓catK_read, ↓catR_read, ↓cat4R_read, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [hP, hs, ht, h2, h4, h5, h6]
  rfl

end Cert.Stages

end
-- ==== Proof.BridgeAB.lean ====
/-
  The first projection and the first attention layer agree in the two programs.

  The kernel program's first region leaves the product of the (format-changed, hence unchanged) features and weights;
  the reference's first matrix product is the same product of arrays that agree.  From there the first layer's host
  side is one function of the projected features, the edge rows and the parameters in both programs
  (`Stages.layer1_glue`), and the edge rows are the two rows of edge tables that agree.
-/
import proofs.«167683_j50010599194662_2_alg».proof.Proof.BridgeDefs
import proofs.«167683_j50010599194662_2_alg».proof.Proof.StageB
import proofs.«167683_j50010599194662_2_alg».proof.Proof.LibDenseLayers
import proofs.«167683_j50010599194662_2_alg».proof.Proof.RefArgs

noncomputable section

namespace Cert.Bridge

open Idealize.ShloMosaic Idealize.ShloMosaic.TcCoe Idealize.ShloMosaic.StableHlo Idealize.ShloMosaic.ValueIdx Idealize.SL.Sem
open Cert.KernelIdeal.Gen (W0 W1 W2 W3 W4 W5 W6 W7 W8 W9 W10 W11 W12 W13 W14)
open Cert.KernelIdeal.Val (W2_v6 W8_v70 W14_v148 W2_keep W8_keep)
open Cert.ReferenceIdeal.RefRun (opsA opsB1 opsB2 opsC opsD1 opsD2 opsD3 opsE)
open Cert.Stages (srcOf trgOf)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The first region's output is the reference's first projection. -/
theorem stageA (hag : Agree m m' c) : W2 m ρ c (Proc.devRef .tc Cert.KernelIdeal.main_v6) = XA m' c (Proc.devRef .tc Cert.ReferenceIdeal.main_v4) := by
  obtain ⟨a0, -, -, a3, -⟩ := hag
  have hx : (W1 m ρ c (Proc.devRef .tc Cert.KernelIdeal.main_v4) : Cert.KernelIdeal.S10000x128.Idx → EReal) = m' ((c.tc : Thread Cert.ReferenceIdeal.nD Cert.ReferenceIdeal.τ).loc Cert.ReferenceIdeal.main_arg0) := by
    rw [a0]; read_back
  have hw : (W1 m ρ c (Proc.devRef .tc Cert.KernelIdeal.main_v5) : Cert.KernelIdeal.S128x256.Idx → EReal) = m' ((c.tc : Thread Cert.ReferenceIdeal.nD Cert.ReferenceIdeal.τ).loc Cert.ReferenceIdeal.main_arg3) := by
    rw [a3]; read_back
  have hR : XA m' c (Proc.devRef .tc Cert.ReferenceIdeal.main_v4)
      = Host.dotGeneral (F := Ideal) (φ₁ := .f32) (φ₂ := .f32) Cert.ReferenceIdeal.dot_S10000x128_S128x256_S10000x256_1_0_0_1_n_n none
          (m' ((c.tc : Thread Cert.ReferenceIdeal.nD Cert.ReferenceIdeal.τ).loc Cert.ReferenceIdeal.main_arg0) : FVec Ideal Cert.ReferenceIdeal.S10000x128 .f32) (m' ((c.tc : Thread Cert.ReferenceIdeal.nD Cert.ReferenceIdeal.τ).loc Cert.ReferenceIdeal.main_arg3) : FVec Ideal Cert.ReferenceIdeal.S128x256 .f32) := by
    read_back
  refine (W2_v6 m ρ c).trans (Eq.trans ?_ hR.symm)
  refine Eq.trans ?_ (Cert.Layers.dotGeneral_eq_project (M := 10000) (K := 128) (N := 256)
    Cert.ReferenceIdeal.dot_S10000x128_S128x256_S10000x256_1_0_0_1_n_n rfl none _ _).symm
  exact congrArg₂ (Cert.Layers.project (M := 10000) (K := 128) (N := 256)) hx hw

/-- The kernel program's source row is the reference's. -/
theorem src_eq (hag : Agree m m' c) : W2 m ρ c (Proc.devRef .tc Cert.KernelIdeal.main_v1) = XA m' c (Proc.devRef .tc Cert.ReferenceIdeal.main_v1) := by
  obtain ⟨-, a1, -⟩ := hag
  have hk : W2 m ρ c (Proc.devRef .tc Cert.KernelIdeal.main_v1) = srcOf (m ((c.tc : Thread Cert.KernelIdeal.nD Cert.KernelIdeal.τ).loc Cert.KernelIdeal.main_arg1)) := by read_back
  have hr : XA m' c (Proc.devRef .tc Cert.ReferenceIdeal.main_v1) = srcOf (m' ((c.tc : Thread Cert.ReferenceIdeal.nD Cert.ReferenceIdeal.τ).loc Cert.ReferenceIdeal.main_arg1)) := by read_back
  rw [hk, hr, a1]

/-- The kernel program's target row is the reference's. -/
theorem trg_eq (hag : Agree m m' c) : W2 m ρ c (Proc.devRef .tc Cert.KernelIdeal.main_v3) = XA m' c (Proc.devRef .tc Cert.ReferenceIdeal.main_v3) := by
  obtain ⟨-, a1, -⟩ := hag
  have hk : W2 m ρ c (Proc.devRef .tc Cert.KernelIdeal.main_v3) = trgOf (m ((c.tc : Thread Cert.KernelIdeal.nD Cert.KernelIdeal.τ).loc Cert.KernelIdeal.main_arg1)) := by read_back
  have hr : XA m' c (Proc.devRef .tc Cert.ReferenceIdeal.main_v3) = trgOf (m' ((c.tc : Thread Cert.ReferenceIdeal.nD Cert.ReferenceIdeal.τ).loc Cert.ReferenceIdeal.main_arg1)) := by read_back
  rw [hk, hr, a1]

/-- The first layer's output is the same array in the two programs. -/
theorem stageB (hag : Agree m m' c) : W6 m ρ c (Proc.devRef .tc Cert.KernelIdeal.main_v67) = XB m' c (Proc.devRef .tc Cert.ReferenceIdeal.main_v65) := by
  have hA := stageA m ρ m' c hag
  have hs := src_eq m ρ m' c hag
  have ht := trg_eq m ρ m' c hag
  obtain ⟨-, -, a2, -, a4, a5, a6, -⟩ := hag
  refine Cert.Stages.layer1_glue (W2 m ρ c) (XA m' c) hA hs ht ?_ ?_ ?_ ?_
  · rw [(by read_back : W2 m ρ c (Proc.devRef .tc Cert.KernelIdeal.main_arg2) = m ((c.tc : Thread Cert.KernelIdeal.nD Cert.KernelIdeal.τ).loc Cert.KernelIdeal.main_arg2)),
      (by
      show after (opsA (F := Ideal)) (X0 m' c) (Proc.devRef .tc Cert.ReferenceIdeal.main_arg2) = _
      rw [Cert.ReferenceIdeal.RefRun.opsA_arg2] : XA m' c (Proc.devRef .tc Cert.ReferenceIdeal.main_arg2) = m' ((c.tc : Thread Cert.ReferenceIdeal.nD Cert.ReferenceIdeal.τ).loc Cert.ReferenceIdeal.main_arg2)), a2]
  · rw [(by read_back : W2 m ρ c (Proc.devRef .tc Cert.KernelIdeal.main_arg4) = m ((c.tc : Thread Cert.KernelIdeal.nD Cert.KernelIdeal.τ).loc Cert.KernelIdeal.main_arg4)),
      (by
      show after (opsA (F := Ideal)) (X0 m' c) (Proc.devRef .tc Cert.ReferenceIdeal.main_arg4) = _
      rw [Cert.ReferenceIdeal.RefRun.opsA_arg4] : XA m' c (Proc.devRef .tc Cert.ReferenceIdeal.main_arg4) = m' ((c.tc : Thread Cert.ReferenceIdeal.nD Cert.ReferenceIdeal.τ).loc Cert.ReferenceIdeal.main_arg4)), a4]
  · rw [(by read_back : W2 m ρ c (Proc.devRef .tc Cert.KernelIdeal.main_arg5) = m ((c.tc : Thread Cert.KernelIdeal.nD Cert.KernelIdeal.τ).loc Cert.KernelIdeal.main_arg5)),
      (by
      show after (opsA (F := Ideal)) (X0 m' c) (Proc.devRef .tc Cert.ReferenceIdeal.main_arg5) = _
      rw [Cert.ReferenceIdeal.RefRun.opsA_arg5] : XA m' c (Proc.devRef .tc Cert.ReferenceIdeal.main_arg5) = m' ((c.tc : Thread Cert.ReferenceIdeal.nD Cert.ReferenceIdeal.τ).loc Cert.ReferenceIdeal.main_arg5)), a5]
  · rw [(by read_back : W2 m ρ c (Proc.devRef .tc Cert.KernelIdeal.main_arg6) = m ((c.tc : Thread Cert.KernelIdeal.nD Cert.KernelIdeal.τ).loc Cert.KernelIdeal.main_arg6)),
      (by
      show after (opsA (F := Ideal)) (X0 m' c) (Proc.devRef .tc Cert.ReferenceIdeal.main_arg6) = _
      rw [Cert.ReferenceIdeal.RefRun.opsA_arg6] : XA m' c (Proc.devRef .tc Cert.ReferenceIdeal.main_arg6) = m' ((c.tc : Thread Cert.ReferenceIdeal.nD Cert.ReferenceIdeal.τ).loc Cert.ReferenceIdeal.main_arg6)), a6]

end Cert.Bridge

end
-- ==== Proof.StageD1.lean ====
/-
  The second attention layer's host side and the gather of its output along the edges, the same in both programs.

  After the second projection both programs apply the same line of host operations to the projected features, the
  edge rows and three parameter arrays — the attention layer again, now with four heads averaged instead of set side
  by side — and then gather the resulting node features at the edges' sources.  The kernel program reuses the edge rows
  it sliced once; the reference slices them out of the edge table again.  Read from contents that agree on the
  projected features and the parameters and whose edge rows are those of one table, the two lines leave the same
  gathered array.
-/
import proofs.«167683_j50010599194662_2_alg».proof.Proof.ConcatReads
import proofs.«167683_j50010599194662_2_alg».proof.Proof.EdgeRows

noncomputable section

namespace Cert.Stages

open Idealize.ShloMosaic Idealize.ShloMosaic.TcCoe Idealize.ShloMosaic.StableHlo

-- the two lines read to composed terms of some two hundred operations: one pass over each, beyond the default budget
set_option maxHeartbeats 4000000 in
/-- The node features gathered at the edges' sources are the same function of the projected features, the edge table and the
    parameters in both programs. -/
theorem layer2_src
    (Wk : Valuation Cert.KernelIdeal.τ Cert.KernelIdeal.sig (Elt Ideal))
    (Wr : Valuation Cert.ReferenceIdeal.τ Cert.ReferenceIdeal.sig (Elt Ideal))
    (E : (⟨Cert.KernelIdeal.S2x160000, .i32⟩ : BufTy).Contents (Elt Ideal))
    (hP : Wk (Proc.devRef .tc Cert.KernelIdeal.main_v70) = Wr (Proc.devRef .tc Cert.ReferenceIdeal.main_v70))
    (hk1 : Wk (Proc.devRef .tc Cert.KernelIdeal.main_v1) = srcOf E) (hk3 : Wk (Proc.devRef .tc Cert.KernelIdeal.main_v3) = trgOf E)
    (hr67 : Wr (Proc.devRef .tc Cert.ReferenceIdeal.main_v67) = srcOf E) (hr69 : Wr (Proc.devRef .tc Cert.ReferenceIdeal.main_v69) = trgOf E)
    (hr1 : Wr (Proc.devRef .tc Cert.ReferenceIdeal.main_arg1) = E)
    (h8 : Wk (Proc.devRef .tc Cert.KernelIdeal.main_arg8) = Wr (Proc.devRef .tc Cert.ReferenceIdeal.main_arg8))
    (h9 : Wk (Proc.devRef .tc Cert.KernelIdeal.main_arg9) = Wr (Proc.devRef .tc Cert.ReferenceIdeal.main_arg9))
    (h10 : Wk (Proc.devRef .tc Cert.KernelIdeal.main_arg10) = Wr (Proc.devRef .tc Cert.ReferenceIdeal.main_arg10)) :
    after (Cert.KernelIdeal.Gen.hostOps2_4 (F := Ideal)) (after (Cert.KernelIdeal.Gen.hostOps2_3 (F := Ideal))
        (after (Cert.KernelIdeal.Gen.hostOps2_2 (F := Ideal)) (after (Cert.KernelIdeal.Gen.hostOps2_1 (F := Ideal))
          (after (Cert.KernelIdeal.Gen.hostOps2 (F := Ideal)) Wk)))) (Proc.devRef .tc Cert.KernelIdeal.main_v137)
      = after (Cert.ReferenceIdeal.RefRun.opsD3 (F := Ideal)) (after (Cert.ReferenceIdeal.RefRun.opsD2 (F := Ideal))
          (after (Cert.ReferenceIdeal.RefRun.opsD1 (F := Ideal)) Wr)) (Proc.devRef .tc Cert.ReferenceIdeal.main_v139) := by
  simp (disch := decide) only [↓catK_read, ↓catR_read, ↓cat4R_read, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [hP, hk1, hk3, hr67, hr69, hr1, h8, h9, h10]
  rfl

end Cert.Stages

end
-- ==== Proof.StageD2.lean ====
/-
  The second attention layer's host side and the gather of its output along the edges, the same in both programs.

  After the second projection both programs apply the same line of host operations to the projected features, the
  edge rows and three parameter arrays — the attention layer again, now with four heads averaged instead of set side
  by side — and then gather the resulting node features at the edges' targets.  The kernel program reuses the edge rows
  it sliced once; the reference slices them out of the edge table again.  Read from contents that agree on the
  projected features and the parameters and whose edge rows are those of one table, the two lines leave the same
  gathered array.
-/
import proofs.«167683_j50010599194662_2_alg».proof.Proof.ConcatReads
import proofs.«167683_j50010599194662_2_alg».proof.Proof.EdgeRows

noncomputable section

namespace Cert.Stages

open Idealize.ShloMosaic Idealize.ShloMosaic.TcCoe Idealize.ShloMosaic.StableHlo

-- the two lines read to composed terms of some two hundred operations: one pass over each, beyond the default budget
set_option maxHeartbeats 4000000 in
/-- The node features gathered at the edges' targets are the same function of the projected features, the edge table and the
    parameters in both programs. -/
theorem layer2_trg
    (Wk : Valuation Cert.KernelIdeal.τ Cert.KernelIdeal.sig (Elt Ideal))
    (Wr : Valuation Cert.ReferenceIdeal.τ Cert.ReferenceIdeal.sig (Elt Ideal))
    (E : (⟨Cert.KernelIdeal.S2x160000, .i32⟩ : BufTy).Contents (Elt Ideal))
    (hP : Wk (Proc.devRef .tc Cert.KernelIdeal.main_v70) = Wr (Proc.devRef .tc Cert.ReferenceIdeal.main_v70))
    (hk1 : Wk (Proc.devRef .tc Cert.KernelIdeal.main_v1) = srcOf E) (hk3 : Wk (Proc.devRef .tc Cert.KernelIdeal.main_v3) = trgOf E)
    (hr67 : Wr (Proc.devRef .tc Cert.ReferenceIdeal.main_v67) = srcOf E) (hr69 : Wr (Proc.devRef .tc Cert.ReferenceIdeal.main_v69) = trgOf E)
    (hr1 : Wr (Proc.devRef .tc Cert.ReferenceIdeal.main_arg1) = E)
    (h8 : Wk (Proc.devRef .tc Cert.KernelIdeal.main_arg8) = Wr (Proc.devRef .tc Cert.ReferenceIdeal.main_arg8))
    (h9 : Wk (Proc.devRef .tc Cert.KernelIdeal.main_arg9) = Wr (Proc.devRef .tc Cert.ReferenceIdeal.main_arg9))
    (h10 : Wk (Proc.devRef .tc Cert.KernelIdeal.main_arg10) = Wr (Proc.devRef .tc Cert.ReferenceIdeal.main_arg10)) :
    after (Cert.KernelIdeal.Gen.hostOps2_4 (F := Ideal)) (after (Cert.KernelIdeal.Gen.hostOps2_3 (F := Ideal))
        (after (Cert.KernelIdeal.Gen.hostOps2_2 (F := Ideal)) (after (Cert.KernelIdeal.Gen.hostOps2_1 (F := Ideal))
          (after (Cert.KernelIdeal.Gen.hostOps2 (F := Ideal)) Wk)))) (Proc.devRef .tc Cert.KernelIdeal.main_v144)
      = after (Cert.ReferenceIdeal.RefRun.opsD3 (F := Ideal)) (after (Cert.ReferenceIdeal.RefRun.opsD2 (F := Ideal))
          (after (Cert.ReferenceIdeal.RefRun.opsD1 (F := Ideal)) Wr)) (Proc.devRef .tc Cert.ReferenceIdeal.main_v148) := by
  simp (disch := decide) only [↓catK_read, ↓catR_read, ↓cat4R_read, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [hP, hk1, hk3, hr67, hr69, hr1, h8, h9, h10]
  rfl

end Cert.Stages

end
-- ==== Proof.BridgeCD.lean ====
/-
  The second projection, the second attention layer and the two gathers agree in the two programs.

  The kernel program's second region leaves the product of the first layer's output with the second weights, the
  reference's second matrix product the same product.  From there the second layer's host side followed by the
  gather along the edges is one function of the projected features, the edge table and the parameters in both
  programs (`Stages.layer2_src`, `Stages.layer2_trg`): the kernel program carries the edge rows it sliced at the
  start, the reference slices them again, out of edge tables that agree.
-/
import proofs.«167683_j50010599194662_2_alg».proof.Proof.BridgeAB
import proofs.«167683_j50010599194662_2_alg».proof.Proof.StageD1
import proofs.«167683_j50010599194662_2_alg».proof.Proof.StageD2
import proofs.«167683_j50010599194662_2_alg».proof.Proof.RefArgs

noncomputable section

namespace Cert.Bridge

open Idealize.ShloMosaic Idealize.ShloMosaic.TcCoe Idealize.ShloMosaic.StableHlo Idealize.ShloMosaic.ValueIdx Idealize.SL.Sem
open Cert.KernelIdeal.Gen (W0 W1 W2 W3 W4 W5 W6 W7 W8 W9 W10 W11 W12 W13 W14)
open Cert.KernelIdeal.Val (W2_v6 W8_v70 W14_v148 W2_keep W8_keep)
open Cert.ReferenceIdeal.RefRun (opsA opsB1 opsB2 opsC opsD1 opsD2 opsD3 opsE)
open Cert.Stages (srcOf trgOf)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

section Reads
variable (Y : Valuation Cert.KernelIdeal.τ Cert.KernelIdeal.sig (Elt Ideal)) (Z : Valuation Cert.ReferenceIdeal.τ Cert.ReferenceIdeal.sig (Elt Ideal))

/-- The format change before the second region leaves the first layer's output as it is. -/
theorem k_v68 : (after (Cert.KernelIdeal.Gen.hostOps1_4 (F := Ideal)) Y (Proc.devRef .tc Cert.KernelIdeal.main_v68) : Cert.KernelIdeal.S10000x512.Idx → EReal) = Y (Proc.devRef .tc Cert.KernelIdeal.main_v67) := by
  read_back
/-- … and the second weights as they are. -/
theorem k_v69 : (after (Cert.KernelIdeal.Gen.hostOps1_4 (F := Ideal)) Y (Proc.devRef .tc Cert.KernelIdeal.main_v69) : Cert.KernelIdeal.S512x512.Idx → EReal) = Y (Proc.devRef .tc Cert.KernelIdeal.main_arg7) := by
  read_back
/-- The reference's second projection is the matrix product of the first layer's output with the second weights. -/
theorem r_v70 : after (Cert.ReferenceIdeal.RefRun.opsC (F := Ideal)) Z (Proc.devRef .tc Cert.ReferenceIdeal.main_v70)
    = Host.dotGeneral (F := Ideal) (φ₁ := .f32) (φ₂ := .f32) Cert.ReferenceIdeal.dot_S10000x512_S512x512_S10000x512_1_0_0_1_n_n none
        (Z (Proc.devRef .tc Cert.ReferenceIdeal.main_v65) : FVec Ideal Cert.ReferenceIdeal.S10000x512 .f32) (Z (Proc.devRef .tc Cert.ReferenceIdeal.main_arg7) : FVec Ideal Cert.ReferenceIdeal.S512x512 .f32) := by
  read_back
/-- The reference's second slicing of the edge table gives its source row … -/
theorem r_v67 : after (Cert.ReferenceIdeal.RefRun.opsC (F := Ideal)) Z (Proc.devRef .tc Cert.ReferenceIdeal.main_v67) = srcOf (Z (Proc.devRef .tc Cert.ReferenceIdeal.main_arg1)) := by
  read_back
/-- … and its target row. -/
theorem r_v69 : after (Cert.ReferenceIdeal.RefRun.opsC (F := Ideal)) Z (Proc.devRef .tc Cert.ReferenceIdeal.main_v69) = trgOf (Z (Proc.devRef .tc Cert.ReferenceIdeal.main_arg1)) := by
  read_back
end Reads

/-- The second region's output is the reference's second projection. -/
theorem stageC (hag : Agree m m' c) : W8 m ρ c (Proc.devRef .tc Cert.KernelIdeal.main_v70) = XC m' c (Proc.devRef .tc Cert.ReferenceIdeal.main_v70) := by
  have hB := stageB m ρ m' c hag
  obtain ⟨-, -, -, -, -, -, -, a7, -⟩ := hag
  have hx : (W7 m ρ c (Proc.devRef .tc Cert.KernelIdeal.main_v68) : Cert.KernelIdeal.S10000x512.Idx → EReal) = XB m' c (Proc.devRef .tc Cert.ReferenceIdeal.main_v65) :=
    (k_v68 (W6 m ρ c)).trans hB
  have h1 := (by read_back : W6 m ρ c (Proc.devRef .tc Cert.KernelIdeal.main_arg7) = m ((c.tc : Thread Cert.KernelIdeal.nD Cert.KernelIdeal.τ).loc Cert.KernelIdeal.main_arg7))
  have h2 := (by
      show after (opsB2 (F := Ideal)) (after (opsB1 (F := Ideal)) (after (opsA (F := Ideal)) (X0 m' c))) (Proc.devRef .tc Cert.ReferenceIdeal.main_arg7) = _
      rw [Cert.ReferenceIdeal.RefRun.opsB2_arg7, Cert.ReferenceIdeal.RefRun.opsB1_arg7, Cert.ReferenceIdeal.RefRun.opsA_arg7] : XB m' c (Proc.devRef .tc Cert.ReferenceIdeal.main_arg7) = m' ((c.tc : Thread Cert.ReferenceIdeal.nD Cert.ReferenceIdeal.τ).loc Cert.ReferenceIdeal.main_arg7))
  have hw : (W7 m ρ c (Proc.devRef .tc Cert.KernelIdeal.main_v69) : Cert.KernelIdeal.S512x512.Idx → EReal) = XB m' c (Proc.devRef .tc Cert.ReferenceIdeal.main_arg7) := by
    refine (k_v69 (W6 m ρ c)).trans ?_
    rw [h1, h2, a7]
  refine (W8_v70 m ρ c).trans (Eq.trans ?_ (r_v70 (XB m' c)).symm)
  refine Eq.trans ?_ (Cert.Layers.dotGeneral_eq_project (M := 10000) (K := 512) (N := 512)
    Cert.ReferenceIdeal.dot_S10000x512_S512x512_S10000x512_1_0_0_1_n_n rfl none _ _).symm
  exact congrArg₂ (Cert.Layers.project (M := 10000) (K := 512) (N := 512)) hx hw

-- each read walks back through some hundred operations, one decided inequality of references per operation
set_option maxHeartbeats 4000000 in
/-- What the layer-2 stage lemmas ask of the two programs' contents after the second projection: the edge rows of
    one table, and parameters that agree. -/
theorem stageD_hyps (hag : Agree m m' c) :
    W8 m ρ c (Proc.devRef .tc Cert.KernelIdeal.main_v1) = srcOf (m ((c.tc : Thread Cert.KernelIdeal.nD Cert.KernelIdeal.τ).loc Cert.KernelIdeal.main_arg1)) ∧ W8 m ρ c (Proc.devRef .tc Cert.KernelIdeal.main_v3) = trgOf (m ((c.tc : Thread Cert.KernelIdeal.nD Cert.KernelIdeal.τ).loc Cert.KernelIdeal.main_arg1))
    ∧ XC m' c (Proc.devRef .tc Cert.ReferenceIdeal.main_v67) = srcOf (m ((c.tc : Thread Cert.KernelIdeal.nD Cert.KernelIdeal.τ).loc Cert.KernelIdeal.main_arg1)) ∧ XC m' c (Proc.devRef .tc Cert.ReferenceIdeal.main_v69) = trgOf (m ((c.tc : Thread Cert.KernelIdeal.nD Cert.KernelIdeal.τ).loc Cert.KernelIdeal.main_arg1))
    ∧ XC m' c (Proc.devRef .tc Cert.ReferenceIdeal.main_arg1) = m ((c.tc : Thread Cert.KernelIdeal.nD Cert.KernelIdeal.τ).loc Cert.KernelIdeal.main_arg1)
    ∧ W8 m ρ c (Proc.devRef .tc Cert.KernelIdeal.main_arg8) = XC m' c (Proc.devRef .tc Cert.ReferenceIdeal.main_arg8)
    ∧ W8 m ρ c (Proc.devRef .tc Cert.KernelIdeal.main_arg9) = XC m' c (Proc.devRef .tc Cert.ReferenceIdeal.main_arg9)
    ∧ W8 m ρ c (Proc.devRef .tc Cert.KernelIdeal.main_arg10) = XC m' c (Proc.devRef .tc Cert.ReferenceIdeal.main_arg10) := by
  obtain ⟨-, a1, -, -, -, -, -, -, a8, a9, a10, -⟩ := hag
  have hB1 := (by
      show after (opsB2 (F := Ideal)) (after (opsB1 (F := Ideal)) (after (opsA (F := Ideal)) (X0 m' c))) (Proc.devRef .tc Cert.ReferenceIdeal.main_arg1) = _
      rw [Cert.ReferenceIdeal.RefRun.opsB2_arg1, Cert.ReferenceIdeal.RefRun.opsB1_arg1, Cert.ReferenceIdeal.RefRun.opsA_arg1] : XB m' c (Proc.devRef .tc Cert.ReferenceIdeal.main_arg1) = m' ((c.tc : Thread Cert.ReferenceIdeal.nD Cert.ReferenceIdeal.τ).loc Cert.ReferenceIdeal.main_arg1))
  have hC1 := (by
      show after (opsC (F := Ideal)) (after (opsB2 (F := Ideal)) (after (opsB1 (F := Ideal)) (after (opsA (F := Ideal)) (X0 m' c)))) (Proc.devRef .tc Cert.ReferenceIdeal.main_arg1) = _
      rw [Cert.ReferenceIdeal.RefRun.opsC_arg1, Cert.ReferenceIdeal.RefRun.opsB2_arg1, Cert.ReferenceIdeal.RefRun.opsB1_arg1, Cert.ReferenceIdeal.RefRun.opsA_arg1] : XC m' c (Proc.devRef .tc Cert.ReferenceIdeal.main_arg1) = m' ((c.tc : Thread Cert.ReferenceIdeal.nD Cert.ReferenceIdeal.τ).loc Cert.ReferenceIdeal.main_arg1))
  refine ⟨by read_back, by read_back, ?_, ?_, ?_, ?_, ?_, ?_⟩
  · refine (r_v67 (XB m' c)).trans ?_
    rw [hB1, a1]
  · refine (r_v69 (XB m' c)).trans ?_
    rw [hB1, a1]
  · rw [hC1, a1]
  · rw [(by read_back : W8 m ρ c (Proc.devRef .tc Cert.KernelIdeal.main_arg8) = m ((c.tc : Thread Cert.KernelIdeal.nD Cert.KernelIdeal.τ).loc Cert.KernelIdeal.main_arg8)),
      (by
      show after (opsC (F := Ideal)) (after (opsB2 (F := Ideal)) (after (opsB1 (F := Ideal)) (after (opsA (F := Ideal)) (X0 m' c)))) (Proc.devRef .tc Cert.ReferenceIdeal.main_arg8) = _
      rw [Cert.ReferenceIdeal.RefRun.opsC_arg8, Cert.ReferenceIdeal.RefRun.opsB2_arg8, Cert.ReferenceIdeal.RefRun.opsB1_arg8, Cert.ReferenceIdeal.RefRun.opsA_arg8] : XC m' c (Proc.devRef .tc Cert.ReferenceIdeal.main_arg8) = m' ((c.tc : Thread Cert.ReferenceIdeal.nD Cert.ReferenceIdeal.τ).loc Cert.ReferenceIdeal.main_arg8)), a8]
  · rw [(by read_back : W8 m ρ c (Proc.devRef .tc Cert.KernelIdeal.main_arg9) = m ((c.tc : Thread Cert.KernelIdeal.nD Cert.KernelIdeal.τ).loc Cert.KernelIdeal.main_arg9)),
      (by
      show after (opsC (F := Ideal)) (after (opsB2 (F := Ideal)) (after (opsB1 (F := Ideal)) (after (opsA (F := Ideal)) (X0 m' c)))) (Proc.devRef .tc Cert.ReferenceIdeal.main_arg9) = _
      rw [Cert.ReferenceIdeal.RefRun.opsC_arg9, Cert.ReferenceIdeal.RefRun.opsB2_arg9, Cert.ReferenceIdeal.RefRun.opsB1_arg9, Cert.ReferenceIdeal.RefRun.opsA_arg9] : XC m' c (Proc.devRef .tc Cert.ReferenceIdeal.main_arg9) = m' ((c.tc : Thread Cert.ReferenceIdeal.nD Cert.ReferenceIdeal.τ).loc Cert.ReferenceIdeal.main_arg9)), a9]
  · rw [(by read_back : W8 m ρ c (Proc.devRef .tc Cert.KernelIdeal.main_arg10) = m ((c.tc : Thread Cert.KernelIdeal.nD Cert.KernelIdeal.τ).loc Cert.KernelIdeal.main_arg10)),
      (by
      show after (opsC (F := Ideal)) (after (opsB2 (F := Ideal)) (after (opsB1 (F := Ideal)) (after (opsA (F := Ideal)) (X0 m' c)))) (Proc.devRef .tc Cert.ReferenceIdeal.main_arg10) = _
      rw [Cert.ReferenceIdeal.RefRun.opsC_arg10, Cert.ReferenceIdeal.RefRun.opsB2_arg10, Cert.ReferenceIdeal.RefRun.opsB1_arg10, Cert.ReferenceIdeal.RefRun.opsA_arg10] : XC m' c (Proc.devRef .tc Cert.ReferenceIdeal.main_arg10) = m' ((c.tc : Thread Cert.ReferenceIdeal.nD Cert.ReferenceIdeal.τ).loc Cert.ReferenceIdeal.main_arg10)), a10]

/-- The features gathered at the edges' sources are the same array in the two programs. -/
theorem stageD1 (hag : Agree m m' c) : W13 m ρ c (Proc.devRef .tc Cert.KernelIdeal.main_v137) = XD m' c (Proc.devRef .tc Cert.ReferenceIdeal.main_v139) := by
  obtain ⟨h1, h3, h67, h69, hr1, h8, h9, h10⟩ := stageD_hyps m ρ m' c hag
  exact Cert.Stages.layer2_src (W8 m ρ c) (XC m' c) (m ((c.tc : Thread Cert.KernelIdeal.nD Cert.KernelIdeal.τ).loc Cert.KernelIdeal.main_arg1)) (stageC m ρ m' c hag) h1 h3 h67 h69 hr1 h8 h9 h10

/-- The features gathered at the edges' targets are the same array in the two programs. -/
theorem stageD2 (hag : Agree m m' c) : W13 m ρ c (Proc.devRef .tc Cert.KernelIdeal.main_v144) = XD m' c (Proc.devRef .tc Cert.ReferenceIdeal.main_v148) := by
  obtain ⟨h1, h3, h67, h69, hr1, h8, h9, h10⟩ := stageD_hyps m ρ m' c hag
  exact Cert.Stages.layer2_trg (W8 m ρ c) (XC m' c) (m ((c.tc : Thread Cert.KernelIdeal.nD Cert.KernelIdeal.τ).loc Cert.KernelIdeal.main_arg1)) (stageC m ρ m' c hag) h1 h3 h67 h69 hr1 h8 h9 h10

end Cert.Bridge

end
-- ==== Proof.RefTail.lean ====
/-
  The reference's edge scorer is the specification.

  On the host the scorer is spelt with whole-array operations: the four feature pieces concatenated along the feature
  axis, three matrix products with their bias vectors broadcast over the edges, the clamp `max (·) 0` after the first
  two, and the logistic function written out as `1 / (1 + exp (-x))`.  Read index by index these are the
  specification's sums: a product with ordinary dimension numbers is `project`, adding the twice-broadcast bias and
  clamping is `addRowClamp`, the last product has a single output column, so its entry is the hidden row's dot product
  with that column, and `1 / (1 + exp (-x))` is the logistic function by definition (the literal `1.0` is the real 1).
-/
import proofs.«167683_j50010599194662_2_alg».proof.ReferenceIdeal
import proofs.«167683_j50010599194662_2_alg».proof.Proof.Gen.ReferenceIdeal
import proofs.«167683_j50010599194662_2_alg».proof.Proof.Spec
import proofs.«167683_j50010599194662_2_alg».proof.Proof.LibConcat4
import Idealize.ShloMosaic.Lib.ValueLayout

noncomputable section

namespace Cert.ReferenceIdeal.RefValue

open Cert.ReferenceIdeal Cert.ReferenceIdeal.Facts₀ Idealize.ShloMosaic Idealize.ShloMosaic.ValueIdx Cert.Layers

/-- The float pattern of `1.0` denotes the real number one. -/
theorem ofBits_one : Ideal.ofBits .f32 0x3F800000#32 = 1 := by
  simp [Ideal.ofBits, Ideal.ieee, -EReal.coe_mul]; norm_num

/-- The scorer as the host spells it, from the two gathered feature arrays and the six parameter arrays. -/
def hostScore (e1 e2 : FVec Ideal S160000x128 .f32) (wi : FVec Ideal S512x1024 .f32) (bi : FVec Ideal S1024 .f32)
    (wf1 : FVec Ideal S1024x512 .f32) (bf1 : FVec Ideal S512 .f32) (wf2 : FVec Ideal S512x1 .f32) (bf2 : FVec Ideal S1 .f32) :
    FVec Ideal S160000x1 .f32 :=
  Host.divf (broadcastInDim S160000x1 ![] bcast_S_S160000x1 (constant (F := Ideal) S_ .f32 0x3F800000#32))
    (addf (broadcastInDim S160000x1 ![] bcast_S_S160000x1 (constant (F := Ideal) S_ .f32 0x3F800000#32))
      (Host.exp (Host.negf (addf
        (Host.dotGeneral dot_S160000x512_S512x1_S160000x1_1_0_0_1_n_n none
          (maximumf (addf (Host.dotGeneral dot_S160000x1024_S1024x512_S160000x512_1_0_0_1_n_n none
              (maximumf (addf (Host.dotGeneral dot_S160000x512_S512x1024_S160000x1024_1_0_0_1_n_n none
                    (concatenate S160000x512 1 [⟨S160000x128, addf e1 e2⟩, ⟨S160000x128, mulf e1 e2⟩, ⟨S160000x128, e1⟩, ⟨S160000x128, e2⟩]
                      concatenates_S160000x128_S160000x128_S160000x128_S160000x128_S160000x512_d1) wi)
                  (broadcastInDim S160000x1024 ![0, 1] bcast_S1x1024_S160000x1024_0_1 (broadcastInDim S1x1024 ![1] bcast_S1024_S1x1024_1 bi)))
                (broadcastInDim S160000x1024 ![] bcast_S_S160000x1024 (constant (F := Ideal) S_ .f32 0x00000000#32))) wf1)
            (broadcastInDim S160000x512 ![0, 1] bcast_S1x512_S160000x512_0_1 (broadcastInDim S1x512 ![1] bcast_S512_S1x512_1 bf1)))
            (broadcastInDim S160000x512 ![] bcast_S_S160000x512 (constant (F := Ideal) S_ .f32 0x00000000#32))) wf2)
        (broadcastInDim S160000x1 ![0, 1] bcast_S1x1_S160000x1_0_1 (broadcastInDim S1x1 ![1] bcast_S1_S1x1_1 bf2))))))

/-- The host's scorer is the specification, edge by edge. -/
theorem hostScore_eq (e1 e2 : FVec Ideal S160000x128 .f32) (wi : FVec Ideal S512x1024 .f32) (bi : FVec Ideal S1024 .f32)
    (wf1 : FVec Ideal S1024x512 .f32) (bf1 : FVec Ideal S512 .f32) (wf2 : FVec Ideal S512x1 .f32) (bf2 : FVec Ideal S1 .f32)
    (hc1 : (⟨1, ![1024]⟩ : Shape).ShapeCasts ⟨2, ![1, 1024]⟩) (hc2 : (⟨1, ![512]⟩ : Shape).ShapeCasts ⟨2, ![1, 512]⟩) :
    hostScore e1 e2 wi bi wf1 bf1 wf2 bf2
      = Cert.Spec.score (M := 160000) e1 e2 wi (shapeCast ⟨2, ![1, 1024]⟩ bi hc1) wf1 (shapeCast ⟨2, ![1, 512]⟩ bf1 hc2)
          (fun k => wf2 (ix2 k (0 : Fin 1))) (bf2 (ix1 (0 : Fin 1))) := by
  unfold hostScore
  rw [Cert.Lib.concatenate4_eq (M := 160000) (addf e1 e2) (mulf e1 e2) e1 e2]
  rw [dotGeneral_eq_project (M := 160000) (K := 512) (N := 1024) dot_S160000x512_S512x1024_S160000x1024_1_0_0_1_n_n rfl none]
  rw [maximumf_bias_eq_addRowClamp (M := 160000) (N := 1024) _ bi bcast_S1024_S1x1024_1 bcast_S1x1024_S160000x1024_0_1 bcast_S_S160000x1024 hc1]
  rw [dotGeneral_eq_project (M := 160000) (K := 1024) (N := 512) dot_S160000x1024_S1024x512_S160000x512_1_0_0_1_n_n rfl none]
  rw [maximumf_bias_eq_addRowClamp (M := 160000) (N := 512) _ bf1 bcast_S512_S1x512_1 bcast_S1x512_S160000x512_0_1 bcast_S_S160000x512 hc2]
  rw [dotGeneral_eq_project (M := 160000) (K := 512) (N := 1) dot_S160000x512_S512x1_S160000x1_1_0_0_1_n_n rfl none]
  funext i
  obtain ⟨p, u, rfl⟩ : ∃ (p : Fin 160000) (u : Fin 1), i = ix2 p u := ⟨i 0, i 1, eq_ix2 i⟩
  obtain rfl : u = 0 := Subsingleton.elim _ _
  rw [Cert.Spec.score_apply]
  have hb : broadcastInDim S160000x1 ![0, 1] bcast_S1x1_S160000x1_0_1 (broadcastInDim S1x1 ![1] bcast_S1_S1x1_1 bf2) (ix2 p (0 : Fin 1))
      = bf2 (ix1 (0 : Fin 1)) := by
    rw [bias_bcast_apply (M := 160000) (N := 1) bf2 bcast_S1_S1x1_1 bcast_S1x1_S160000x1_0_1 (by decide) p (0 : Fin 1)]
    exact shapeCast_a_1a_apply bf2 _ (0 : Fin 1) (0 : Fin 1)
  have h1 : ∀ j : S160000x1.Idx, broadcastInDim S160000x1 ![] bcast_S_S160000x1 (constant (F := Ideal) S_ .f32 0x3F800000#32) j = 1 := fun j => by
    rw [broadcastInDim_apply ![] bcast_S_S160000x1 _ j ix0 (fun a => a.elim0)]
    exact ofBits_one
  show Ideal.div (broadcastInDim S160000x1 ![] bcast_S_S160000x1 (constant (F := Ideal) S_ .f32 0x3F800000#32) (ix2 p 0))
      (broadcastInDim S160000x1 ![] bcast_S_S160000x1 (constant (F := Ideal) S_ .f32 0x3F800000#32) (ix2 p 0)
        + Ideal.exp (-(project _ wf2 (ix2 p (0 : Fin 1))
            + broadcastInDim S160000x1 ![0, 1] bcast_S1x1_S160000x1_0_1 (broadcastInDim S1x1 ![1] bcast_S1_S1x1_1 bf2) (ix2 p (0 : Fin 1))))) = _
  rw [h1, hb, project_apply]
  rfl

end Cert.ReferenceIdeal.RefValue

end
-- ==== Proof.StageE.lean ====
/-
  The reference's last stretch — the edge scorer — read back: from any contents, its result buffer ends at the
  host-spelt scorer (`RefValue.hostScore`) of the two gathered feature arrays and the six parameter arrays as the
  stretch finds them.
-/
import proofs.«167683_j50010599194662_2_alg».proof.Proof.ConcatReads
import proofs.«167683_j50010599194662_2_alg».proof.Proof.RefTail

noncomputable section

namespace Cert.Stages

open Idealize.ShloMosaic Idealize.ShloMosaic.TcCoe Idealize.ShloMosaic.StableHlo

-- the two lines read to composed terms of some two hundred operations: one pass over each, beyond the default budget
set_option maxHeartbeats 4000000 in
/-- The scorer stretch leaves in the result buffer the host-spelt scorer of its eight inputs. -/
theorem tail_read (X : Valuation Cert.ReferenceIdeal.τ Cert.ReferenceIdeal.sig (Elt Ideal)) :
    after (Cert.ReferenceIdeal.RefRun.opsE (F := Ideal)) X (Proc.devRef .tc Cert.ReferenceIdeal.main_v171)
      = Cert.ReferenceIdeal.RefValue.hostScore (X (Proc.devRef .tc Cert.ReferenceIdeal.main_v139)) (X (Proc.devRef .tc Cert.ReferenceIdeal.main_v148)) (X (Proc.devRef .tc Cert.ReferenceIdeal.main_arg11))
          (X (Proc.devRef .tc Cert.ReferenceIdeal.main_arg12)) (X (Proc.devRef .tc Cert.ReferenceIdeal.main_arg13)) (X (Proc.devRef .tc Cert.ReferenceIdeal.main_arg14)) (X (Proc.devRef .tc Cert.ReferenceIdeal.main_arg15)) (X (Proc.devRef .tc Cert.ReferenceIdeal.main_arg16)) := by
  simp (disch := decide) only [↓catK_read, ↓catR_read, ↓cat4R_read, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Stages

end
-- ==== Proof.BridgeE.lean ====
/-
  The two programs' results are the same array.

  The kernel program's third region leaves the specification's scorer of its eight operand arrays; the reference's
  last stretch is the host-spelt scorer of its eight inputs, which is the same specification (`RefValue.hostScore_eq`).
  The operands agree one by one: the two gathered feature arrays by the earlier stages; the weights and biases because
  neither program writes an argument and the launch memories agree on them — the kernel program's format changes of
  the two weight matrices leave them as they are, and its transposed last weights `[1, 512]` read at `(0, k)` are the
  reference's column `[512, 1]` at `(k, 0)`.
-/
import proofs.«167683_j50010599194662_2_alg».proof.Proof.BridgeCD
import proofs.«167683_j50010599194662_2_alg».proof.Proof.StageE
import proofs.«167683_j50010599194662_2_alg».proof.Proof.RefTail
import proofs.«167683_j50010599194662_2_alg».proof.Proof.LibAfterAppend

noncomputable section

namespace Cert.Bridge

open Idealize.ShloMosaic Idealize.ShloMosaic.TcCoe Idealize.ShloMosaic.StableHlo Idealize.ShloMosaic.ValueIdx Idealize.SL.Sem
open Cert.KernelIdeal.Gen (W0 W1 W2 W3 W4 W5 W6 W7 W8 W9 W10 W11 W12 W13 W14)
open Cert.KernelIdeal.Val (W2_v6 W8_v70 W14_v148 W2_keep W8_keep)
open Cert.ReferenceIdeal.RefRun (opsA opsB1 opsB2 opsC opsD1 opsD2 opsD3 opsE)
open Cert.Stages (srcOf trgOf)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The reference's whole line, run from the launch contents, is its last stretch run from the contents after the gathers. -/
theorem ops_split (b : DevRef Cert.ReferenceIdeal.τ Cert.ReferenceIdeal.sig) :
    after (Cert.ReferenceIdeal.RefRun.ops (F := Ideal)) (launchContents m' c) b = after (opsE (F := Ideal)) (XD m' c) b := by
  show after (opsA ++ (opsB1 ++ (opsB2 ++ (opsC ++ (opsD1 ++ (opsD2 ++ (opsD3 ++ opsE))))))) (launchContents m' c) b = _
  simp only [Cert.Lib.after_append]

-- the read walks back through some two hundred operations, one decided inequality of references per operation
set_option maxHeartbeats 4000000 in
/-- The transposed last weights read along their one row are the column's entries. -/
theorem lastWeights (k : Fin 512) :
    W13 m ρ c (Proc.devRef .tc Cert.KernelIdeal.main_v145) (ix2 (0 : Fin 1) k) = m ((c.tc : Thread Cert.KernelIdeal.nD Cert.KernelIdeal.τ).loc Cert.KernelIdeal.main_arg15) (ix2 k (0 : Fin 1)) := by
  have h : W13 m ρ c (Proc.devRef .tc Cert.KernelIdeal.main_v145)
      = transpose Cert.KernelIdeal.S1x512 [1, 0] (m ((c.tc : Thread Cert.KernelIdeal.nD Cert.KernelIdeal.τ).loc Cert.KernelIdeal.main_arg15)) Cert.KernelIdeal.Facts₀.transposes_S512x1_S1x512_1_0 := by
    read_back
  rw [h]
  exact transpose_ix2_apply (a := 512) (b := 1) (m ((c.tc : Thread Cert.KernelIdeal.nD Cert.KernelIdeal.τ).loc Cert.KernelIdeal.main_arg15)) _ (0 : Fin 1) k

-- each read walks back through some two hundred operations, one decided inequality of references per operation
set_option maxHeartbeats 8000000 in
/-- The reference's result is the kernel program's result. -/
theorem result_eq (hag : Agree m m' c) :
    after (Cert.ReferenceIdeal.RefRun.ops (F := Ideal)) (launchContents m' c) (Proc.devRef .tc Cert.ReferenceIdeal.main_v171) = W14 m ρ c (Proc.devRef .tc Cert.KernelIdeal.main_v148) := by
  have e1 := stageD1 m ρ m' c hag
  have e2 := stageD2 m ρ m' c hag
  have hw := lastWeights m ρ c
  obtain ⟨-, -, -, -, -, -, -, -, -, -, -, a11, a12, a13, a14, a15, a16⟩ := hag
  have k146 := (by read_back : (W13 m ρ c (Proc.devRef .tc Cert.KernelIdeal.main_v146) : Cert.KernelIdeal.S512x1024.Idx → EReal) = m ((c.tc : Thread Cert.KernelIdeal.nD Cert.KernelIdeal.τ).loc Cert.KernelIdeal.main_arg11))
  have k147 := (by read_back : (W13 m ρ c (Proc.devRef .tc Cert.KernelIdeal.main_v147) : Cert.KernelIdeal.S1024x512.Idx → EReal) = m ((c.tc : Thread Cert.KernelIdeal.nD Cert.KernelIdeal.τ).loc Cert.KernelIdeal.main_arg13))
  have k12 := (by read_back : W13 m ρ c (Proc.devRef .tc Cert.KernelIdeal.main_arg12) = m ((c.tc : Thread Cert.KernelIdeal.nD Cert.KernelIdeal.τ).loc Cert.KernelIdeal.main_arg12))
  have k14 := (by read_back : W13 m ρ c (Proc.devRef .tc Cert.KernelIdeal.main_arg14) = m ((c.tc : Thread Cert.KernelIdeal.nD Cert.KernelIdeal.τ).loc Cert.KernelIdeal.main_arg14))
  have k16 := (by read_back : W13 m ρ c (Proc.devRef .tc Cert.KernelIdeal.main_arg16) = m ((c.tc : Thread Cert.KernelIdeal.nD Cert.KernelIdeal.τ).loc Cert.KernelIdeal.main_arg16))
  have r11 := (by
      show after (opsD3 (F := Ideal)) (after (opsD2 (F := Ideal)) (after (opsD1 (F := Ideal)) (after (opsC (F := Ideal)) (after (opsB2 (F := Ideal)) (after (opsB1 (F := Ideal)) (after (opsA (F := Ideal)) (X0 m' c))))))) (Proc.devRef .tc Cert.ReferenceIdeal.main_arg11) = _
      rw [Cert.ReferenceIdeal.RefRun.opsD3_arg11, Cert.ReferenceIdeal.RefRun.opsD2_arg11, Cert.ReferenceIdeal.RefRun.opsD1_arg11, Cert.ReferenceIdeal.RefRun.opsC_arg11, Cert.ReferenceIdeal.RefRun.opsB2_arg11, Cert.ReferenceIdeal.RefRun.opsB1_arg11, Cert.ReferenceIdeal.RefRun.opsA_arg11] : XD m' c (Proc.devRef .tc Cert.ReferenceIdeal.main_arg11) = m' ((c.tc : Thread Cert.ReferenceIdeal.nD Cert.ReferenceIdeal.τ).loc Cert.ReferenceIdeal.main_arg11))
  have r12 := (by
      show after (opsD3 (F := Ideal)) (after (opsD2 (F := Ideal)) (after (opsD1 (F := Ideal)) (after (opsC (F := Ideal)) (after (opsB2 (F := Ideal)) (after (opsB1 (F := Ideal)) (after (opsA (F := Ideal)) (X0 m' c))))))) (Proc.devRef .tc Cert.ReferenceIdeal.main_arg12) = _
      rw [Cert.ReferenceIdeal.RefRun.opsD3_arg12, Cert.ReferenceIdeal.RefRun.opsD2_arg12, Cert.ReferenceIdeal.RefRun.opsD1_arg12, Cert.ReferenceIdeal.RefRun.opsC_arg12, Cert.ReferenceIdeal.RefRun.opsB2_arg12, Cert.ReferenceIdeal.RefRun.opsB1_arg12, Cert.ReferenceIdeal.RefRun.opsA_arg12] : XD m' c (Proc.devRef .tc Cert.ReferenceIdeal.main_arg12) = m' ((c.tc : Thread Cert.ReferenceIdeal.nD Cert.ReferenceIdeal.τ).loc Cert.ReferenceIdeal.main_arg12))
  have r13 := (by
      show after (opsD3 (F := Ideal)) (after (opsD2 (F := Ideal)) (after (opsD1 (F := Ideal)) (after (opsC (F := Ideal)) (after (opsB2 (F := Ideal)) (after (opsB1 (F := Ideal)) (after (opsA (F := Ideal)) (X0 m' c))))))) (Proc.devRef .tc Cert.ReferenceIdeal.main_arg13) = _
      rw [Cert.ReferenceIdeal.RefRun.opsD3_arg13, Cert.ReferenceIdeal.RefRun.opsD2_arg13, Cert.ReferenceIdeal.RefRun.opsD1_arg13, Cert.ReferenceIdeal.RefRun.opsC_arg13, Cert.ReferenceIdeal.RefRun.opsB2_arg13, Cert.ReferenceIdeal.RefRun.opsB1_arg13, Cert.ReferenceIdeal.RefRun.opsA_arg13] : XD m' c (Proc.devRef .tc Cert.ReferenceIdeal.main_arg13) = m' ((c.tc : Thread Cert.ReferenceIdeal.nD Cert.ReferenceIdeal.τ).loc Cert.ReferenceIdeal.main_arg13))
  have r14 := (by
      show after (opsD3 (F := Ideal)) (after (opsD2 (F := Ideal)) (after (opsD1 (F := Ideal)) (after (opsC (F := Ideal)) (after (opsB2 (F := Ideal)) (after (opsB1 (F := Ideal)) (after (opsA (F := Ideal)) (X0 m' c))))))) (Proc.devRef .tc Cert.ReferenceIdeal.main_arg14) = _
      rw [Cert.ReferenceIdeal.RefRun.opsD3_arg14, Cert.ReferenceIdeal.RefRun.opsD2_arg14, Cert.ReferenceIdeal.RefRun.opsD1_arg14, Cert.ReferenceIdeal.RefRun.opsC_arg14, Cert.ReferenceIdeal.RefRun.opsB2_arg14, Cert.ReferenceIdeal.RefRun.opsB1_arg14, Cert.ReferenceIdeal.RefRun.opsA_arg14] : XD m' c (Proc.devRef .tc Cert.ReferenceIdeal.main_arg14) = m' ((c.tc : Thread Cert.ReferenceIdeal.nD Cert.ReferenceIdeal.τ).loc Cert.ReferenceIdeal.main_arg14))
  have r15 := (by
      show after (opsD3 (F := Ideal)) (after (opsD2 (F := Ideal)) (after (opsD1 (F := Ideal)) (after (opsC (F := Ideal)) (after (opsB2 (F := Ideal)) (after (opsB1 (F := Ideal)) (after (opsA (F := Ideal)) (X0 m' c))))))) (Proc.devRef .tc Cert.ReferenceIdeal.main_arg15) = _
      rw [Cert.ReferenceIdeal.RefRun.opsD3_arg15, Cert.ReferenceIdeal.RefRun.opsD2_arg15, Cert.ReferenceIdeal.RefRun.opsD1_arg15, Cert.ReferenceIdeal.RefRun.opsC_arg15, Cert.ReferenceIdeal.RefRun.opsB2_arg15, Cert.ReferenceIdeal.RefRun.opsB1_arg15, Cert.ReferenceIdeal.RefRun.opsA_arg15] : XD m' c (Proc.devRef .tc Cert.ReferenceIdeal.main_arg15) = m' ((c.tc : Thread Cert.ReferenceIdeal.nD Cert.ReferenceIdeal.τ).loc Cert.ReferenceIdeal.main_arg15))
  have r16 := (by
      show after (opsD3 (F := Ideal)) (after (opsD2 (F := Ideal)) (after (opsD1 (F := Ideal)) (after (opsC (F := Ideal)) (after (opsB2 (F := Ideal)) (after (opsB1 (F := Ideal)) (after (opsA (F := Ideal)) (X0 m' c))))))) (Proc.devRef .tc Cert.ReferenceIdeal.main_arg16) = _
      rw [Cert.ReferenceIdeal.RefRun.opsD3_arg16, Cert.ReferenceIdeal.RefRun.opsD2_arg16, Cert.ReferenceIdeal.RefRun.opsD1_arg16, Cert.ReferenceIdeal.RefRun.opsC_arg16, Cert.ReferenceIdeal.RefRun.opsB2_arg16, Cert.ReferenceIdeal.RefRun.opsB1_arg16, Cert.ReferenceIdeal.RefRun.opsA_arg16] : XD m' c (Proc.devRef .tc Cert.ReferenceIdeal.main_arg16) = m' ((c.tc : Thread Cert.ReferenceIdeal.nD Cert.ReferenceIdeal.τ).loc Cert.ReferenceIdeal.main_arg16))
  rw [ops_split m' c, Cert.Stages.tail_read (XD m' c),
    Cert.ReferenceIdeal.RefValue.hostScore_eq _ _ _ _ _ _ _ _ (by decide) (by decide), W14_v148 m ρ c]
  rw [e1, e2, k146, k147, k12, k14, k16, r11, r12, r13, r14, r15, r16, a11, a12, a13, a14, a15, a16]
  congr 1
  funext k
  exact (hw k).symm

end Cert.Bridge

end
-- ==== Proof.lean ====
/-
  A two-layer graph attention network followed by an edge scorer: the kernel program against its plain reference.

  Both programs compute, for every edge, a score in (0, 1).  Node features are projected by a weight matrix; an
  attention layer turns per-head scores of the projected features into weights over each node's incoming edges
  (leaky clamp, shift by the global maximum, exponential, normalisation by the per-target sum) and sums the weighted
  messages per target; the first layer sets residual features beside the result, the second averages its heads; each
  ends in a bias and the exponential-linear clamp.  The node features are then gathered at each edge's two end points
  and scored by a three-layer perceptron ending in the logistic function.

  The kernel program differs from the reference in three places only: the two projections are computed by a kernel
  region in blocks of 2000 rows (from operands whose float format is changed first, which changes no value here), and
  the scorer is one kernel region over blocks of 1600 edges whose last layer multiplies by the transposed weight row and
  sums along the features instead of a one-column matrix product.  Everything else is the same line of host operations
  in both programs.  At the exact extended-real reading:
  * a projection computed block by block is the whole matrix product, row by row the same sums (`Val.region0_arr`,
    `Val.region1_arr`), and so is the reference's `dot_general` (`Layers.dotGeneral_eq_project`);
  * the shared host lines are the same function of arrays that agree (`Stages.layer1_glue`, `layer2_src`, `layer2_trg`);
  * the blockwise scorer is the specification's scorer of the whole arrays, because an edge's score depends on that
    edge's rows alone (`Spec.score_rows`, `Val.region2_arr`), and the reference's host-spelt scorer is the same
    specification (`RefValue.hostScore_eq`): the same sums and products in the same order, `0 + s = s`, and
    `1 / (1 + exp (-x))` is the logistic function by definition.
  No law needing finiteness is used, so the precondition is never opened.  The frames of the two kernel programs are
  the generated ones; the reference, a host program, runs operation by operation (`RefRun.run_main`) and writes no
  argument.  The idealization rewrote nothing, so `preserves` has nothing to say.
-/
import proofs.«167683_j50010599194662_2_alg».proof.Defs
import proofs.«167683_j50010599194662_2_alg».proof.Proof.Gen.Kernel
import proofs.«167683_j50010599194662_2_alg».proof.Proof.Gen.Kernel.Frame
import proofs.«167683_j50010599194662_2_alg».proof.Proof.Gen.KernelIdeal
import proofs.«167683_j50010599194662_2_alg».proof.Proof.Gen.KernelIdeal.Frame
import proofs.«167683_j50010599194662_2_alg».proof.Proof.Gen.ReferenceIdeal
import proofs.«167683_j50010599194662_2_alg».proof.Proof.Gen.Pre_finite_inputs
import proofs.«167683_j50010599194662_2_alg».proof.Proof.KernelRun
import proofs.«167683_j50010599194662_2_alg».proof.Proof.RefRun
import proofs.«167683_j50010599194662_2_alg».proof.Proof.RefArgs
import proofs.«167683_j50010599194662_2_alg».proof.Proof.BridgeE
import Idealize.ShloMosaic.Adequacy
import Idealize.ShloMosaic.Init

noncomputable section

namespace Cert.Proof

open Idealize.ShloMosaic Idealize.ShloMosaic.TcCoe Idealize.ShloMosaic.StableHlo Idealize.SL.Sem

/-- The printed kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs operation by operation, and none of its operations writes an argument. -/
theorem frame_reference : Cert.frame_ReferenceIdeal := fun m ρ _ =>
  (θ_run Cert.ReferenceIdeal.defs _ _).mono
    (fun r h c =>
      ⟨ (h c Cert.ReferenceIdeal.main_arg0).trans (Cert.ReferenceIdeal.RefRun.arg0_kept (launchContents m c)),
        (h c Cert.ReferenceIdeal.main_arg1).trans (Cert.ReferenceIdeal.RefRun.arg1_kept (launchContents m c)),
        (h c Cert.ReferenceIdeal.main_arg2).trans (Cert.ReferenceIdeal.RefRun.arg2_kept (launchContents m c)),
        (h c Cert.ReferenceIdeal.main_arg3).trans (Cert.ReferenceIdeal.RefRun.arg3_kept (launchContents m c)),
        (h c Cert.ReferenceIdeal.main_arg4).trans (Cert.ReferenceIdeal.RefRun.arg4_kept (launchContents m c)),
        (h c Cert.ReferenceIdeal.main_arg5).trans (Cert.ReferenceIdeal.RefRun.arg5_kept (launchContents m c)),
        (h c Cert.ReferenceIdeal.main_arg6).trans (Cert.ReferenceIdeal.RefRun.arg6_kept (launchContents m c)),
        (h c Cert.ReferenceIdeal.main_arg7).trans (Cert.ReferenceIdeal.RefRun.arg7_kept (launchContents m c)),
        (h c Cert.ReferenceIdeal.main_arg8).trans (Cert.ReferenceIdeal.RefRun.arg8_kept (launchContents m c)),
        (h c Cert.ReferenceIdeal.main_arg9).trans (Cert.ReferenceIdeal.RefRun.arg9_kept (launchContents m c)),
        (h c Cert.ReferenceIdeal.main_arg10).trans (Cert.ReferenceIdeal.RefRun.arg10_kept (launchContents m c)),
        (h c Cert.ReferenceIdeal.main_arg11).trans (Cert.ReferenceIdeal.RefRun.arg11_kept (launchContents m c)),
        (h c Cert.ReferenceIdeal.main_arg12).trans (Cert.ReferenceIdeal.RefRun.arg12_kept (launchContents m c)),
        (h c Cert.ReferenceIdeal.main_arg13).trans (Cert.ReferenceIdeal.RefRun.arg13_kept (launchContents m c)),
        (h c Cert.ReferenceIdeal.main_arg14).trans (Cert.ReferenceIdeal.RefRun.arg14_kept (launchContents m c)),
        (h c Cert.ReferenceIdeal.main_arg15).trans (Cert.ReferenceIdeal.RefRun.arg15_kept (launchContents m c)),
        (h c Cert.ReferenceIdeal.main_arg16).trans (Cert.ReferenceIdeal.RefRun.arg16_kept (launchContents m c))⟩)
    (Cert.ReferenceIdeal.RefRun.run_main (F := Ideal) m ρ)

/-- The idealization rewrote no operation. -/
theorem preserves : Cert.preserves_Kernel_KernelIdeal := trivial

/-- From memories that agree on the arguments both idealized programs run and end with the same scores. -/
theorem algebraic : Cert.algebraic_KernelIdeal_ReferenceIdeal := by
  intro m ρ m' ρ' _ hagree
  refine ⟨fun c => Cert.KernelIdeal.Gen.W14 m ρ c (Proc.devRef .tc Cert.KernelIdeal.main_v148), Cert.KernelIdeal.Val.run_out m ρ, ?_⟩
  exact (θ_run Cert.ReferenceIdeal.defs _ _).mono
    (fun r h c =>
      ⟨ (h c Cert.ReferenceIdeal.main_v171).trans (Cert.Bridge.result_eq m ρ m' c (hagree c)),
        (h c Cert.ReferenceIdeal.main_arg0).trans (Cert.ReferenceIdeal.RefRun.arg0_kept (launchContents m' c)),
        (h c Cert.ReferenceIdeal.main_arg1).trans (Cert.ReferenceIdeal.RefRun.arg1_kept (launchContents m' c)),
        (h c Cert.ReferenceIdeal.main_arg2).trans (Cert.ReferenceIdeal.RefRun.arg2_kept (launchContents m' c)),
        (h c Cert.ReferenceIdeal.main_arg3).trans (Cert.ReferenceIdeal.RefRun.arg3_kept (launchContents m' c)),
        (h c Cert.ReferenceIdeal.main_arg4).trans (Cert.ReferenceIdeal.RefRun.arg4_kept (launchContents m' c)),
        (h c Cert.ReferenceIdeal.main_arg5).trans (Cert.ReferenceIdeal.RefRun.arg5_kept (launchContents m' c)),
        (h c Cert.ReferenceIdeal.main_arg6).trans (Cert.ReferenceIdeal.RefRun.arg6_kept (launchContents m' c)),
        (h c Cert.ReferenceIdeal.main_arg7).trans (Cert.ReferenceIdeal.RefRun.arg7_kept (launchContents m' c)),
        (h c Cert.ReferenceIdeal.main_arg8).trans (Cert.ReferenceIdeal.RefRun.arg8_kept (launchContents m' c)),
        (h c Cert.ReferenceIdeal.main_arg9).trans (Cert.ReferenceIdeal.RefRun.arg9_kept (launchContents m' c)),
        (h c Cert.ReferenceIdeal.main_arg10).trans (Cert.ReferenceIdeal.RefRun.arg10_kept (launchContents m' c)),
        (h c Cert.ReferenceIdeal.main_arg11).trans (Cert.ReferenceIdeal.RefRun.arg11_kept (launchContents m' c)),
        (h c Cert.ReferenceIdeal.main_arg12).trans (Cert.ReferenceIdeal.RefRun.arg12_kept (launchContents m' c)),
        (h c Cert.ReferenceIdeal.main_arg13).trans (Cert.ReferenceIdeal.RefRun.arg13_kept (launchContents m' c)),
        (h c Cert.ReferenceIdeal.main_arg14).trans (Cert.ReferenceIdeal.RefRun.arg14_kept (launchContents m' c)),
        (h c Cert.ReferenceIdeal.main_arg15).trans (Cert.ReferenceIdeal.RefRun.arg15_kept (launchContents m' c)),
        (h c Cert.ReferenceIdeal.main_arg16).trans (Cert.ReferenceIdeal.RefRun.arg16_kept (launchContents m' c))⟩)
    (Cert.ReferenceIdeal.RefRun.run_main (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
